-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S8 : Shape := ⟨1, ![8]⟩
abbrev S8x16 : Shape := ⟨2, ![8, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S12x8 : Shape := ⟨2, ![12, 8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x12 : S_.BroadcastsInDim S16x12 (![] : Fin 0 → Fin S16x12.rank)
  reducesTo_S16x12_S_d0_1 : S16x12.ReducesTo [0, 1] S_
  bcast_S_S12 : S_.BroadcastsInDim S12 (![] : Fin 0 → Fin S12.rank)
  reducesTo_S12_S_d0 : S12.ReducesTo [0] S_
  bcast_S_S12x8 : S_.BroadcastsInDim S12x8 (![] : Fin 0 → Fin S12x8.rank)
  reducesTo_S12x8_S_d0_1 : S12x8.ReducesTo [0, 1] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S4x1 .f32) (main_cst_32 : FVec F S_ .f32) : IVec S_ 1 :=
  let main_v85 : FVec F S4x1 .f32 := broadcastInDim S4x1 ![] bcast_S_S4x1 main_cst_32
  let main_v86 : IVec S4x1 1 := cmpf .olt main_v84 main_v85
  let main_c_33 : IVec S_ 1 := constantI S_ 1 1#1
  let main_v87 : IVec S_ 1 := (fun x v => Host.reduce IntOp.andi x v reducesTo_S4x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S4 .f32) (main_arg15 : FVec F S4x4 .f32) (main_arg16 : FVec F S4 .f32) (main_arg17 : FVec F S4x1 .f32) (main_arg18 : FVec F S1 .f32) (main_v63 : IVec S_ 1) (main_v67 : IVec S_ 1) : IVec S_ 1 :=
  let main_v68 : IVec S_ 1 := andi main_v63 main_v67
  let main_v69 : FVec F S4 .f32 := Host.absf main_arg14
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : FVec F S4x4 .f32 := Host.absf main_arg15
  let main_cst_28 : FVec F S_ .f32 := constant S_ .f32 0x7F800000#32
  let main_v75 : FVec F S4x4 .f32 := broadcastInDim S4x4 ![] bcast_S_S4x4 main_cst_28
  let main_v76 : IVec S4x4 1 := cmpf .olt main_v74 main_v75
  let main_c_29 : IVec S_ 1 := constantI S_ 1 1#1
  let main_v77 : IVec S_ 1 := (fun x v => Host.reduce IntOp.andi x v reducesTo_S4x4_S_d0_1 h_S_) main_v76 main_c_29
  let main_v78 : IVec S_ 1 := andi main_v73 main_v77
  let main_v79 : FVec F S4 .f32 := Host.absf main_arg16
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : FVec F S4x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S8x4 .f32) (main_arg12 : FVec F S4 .f32) (main_arg13 : FVec F S4x4 .f32) (main_arg14 : FVec F S4 .f32) (main_arg15 : FVec F S4x4 .f32) (main_arg16 : FVec F S4 .f32) (main_arg17 : FVec F S4x1 .f32) (main_arg18 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x4 .f32 := Host.absf main_arg11
  let main_cst_20 : FVec F S_ .f32 := constant S_ .f32 0x7F800000#32
  let main_v55 : FVec F S8x4 .f32 := broadcastInDim S8x4 ![] bcast_S_S8x4 main_cst_20
  let main_v56 : IVec S8x4 1 := cmpf .olt main_v54 main_v55
  let main_c_21 : IVec S_ 1 := constantI S_ 1 1#1
  let main_v57 : IVec S_ 1 := (fun x v => Host.reduce IntOp.andi x v reducesTo_S8x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x4 .f32 := Host.absf main_arg13
  let main_cst_24 : FVec F S_ .f32 := constant S_ .f32 0x7F800000#32
  let main_v65 : FVec F S4x4 .f32 := broadcastInDim S4x4 ![] bcast_S_S4x4 main_cst_24
  let main_v66 : IVec S4x4 1 := cmpf .olt main_v64 main_v65
  let main_c_25 : IVec S_ 1 := constantI S_ 1 1#1
  let main_v67 : IVec S_ 1 := (fun x v => Host.reduce IntOp.andi x v reducesTo_S4x4_S_d0_1 h_S_) main_v66 main_c_25
  fn_part4 (F := F) main_arg14 main_arg15 main_arg16 main_arg17 main_arg18 main_v63 main_v67

def fn_part2 {F : FTy → Type} [FloatOps F] (main_arg7 : FVec F S16x12 .f32) (main_arg8 : FVec F S12 .f32) (main_arg9 : FVec F S12x8 .f32) (main_arg10 : FVec F S8 .f32) (main_arg11 : FVec F S8x4 .f32) (main_arg12 : FVec F S4 .f32) (main_arg13 : FVec F S4x4 .f32) (main_arg14 : FVec F S4 .f32) (main_arg15 : FVec F S4x4 .f32) (main_arg16 : FVec F S4 .f32) (main_arg17 : FVec F S4x1 .f32) (main_arg18 : FVec F S1 .f32) (main_v33 : IVec S_ 1) : IVec S_ 1 :=
  let main_v34 : FVec F S16x12 .f32 := Host.absf main_arg7
  let main_cst_12 : FVec F S_ .f32 := constant S_ .f32 0x7F800000#32
  let main_v35 : FVec F S16x12 .f32 := broadcastInDim S16x12 ![] bcast_S_S16x12 main_cst_12
  let main_v36 : IVec S16x12 1 := cmpf .olt main_v34 main_v35
  let main_c_13 : IVec S_ 1 := constantI S_ 1 1#1
  let main_v37 : IVec S_ 1 := (fun x v => Host.reduce IntOp.andi x v reducesTo_S16x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : FVec F S12x8 .f32 := Host.absf main_arg9
  let main_cst_16 : FVec F S_ .f32 := constant S_ .f32 0x7F800000#32
  let main_v45 : FVec F S12x8 .f32 := broadcastInDim S12x8 ![] bcast_S_S12x8 main_cst_16
  let main_v46 : IVec S12x8 1 := cmpf .olt main_v44 main_v45
  let main_c_17 : IVec S_ 1 := constantI S_ 1 1#1
  let main_v47 : IVec S_ 1 := (fun x v => Host.reduce IntOp.andi x v reducesTo_S12x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_v48 main_v49 main_v50

def fn_part1 {F : FTy → Type} [FloatOps F] (main_arg4 : FVec F S16 .f32) (main_arg5 : FVec F S16x16 .f32) (main_arg6 : FVec F S16 .f32) (main_arg7 : FVec F S16x12 .f32) (main_arg8 : FVec F S12 .f32) (main_arg9 : FVec F S12x8 .f32) (main_arg10 : FVec F S8 .f32) (main_arg11 : FVec F S8x4 .f32) (main_arg12 : FVec F S4 .f32) (main_arg13 : FVec F S4x4 .f32) (main_arg14 : FVec F S4 .f32) (main_arg15 : FVec F S4x4 .f32) (main_arg16 : FVec F S4 .f32) (main_arg17 : FVec F S4x1 .f32) (main_arg18 : FVec F S1 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S1048576x8 .f32) (main_arg1 : FVec F S8 .f32) (main_arg2 : FVec F S8 .f32) (main_arg3 : FVec F S8x16 .f32) (main_arg4 : FVec F S16 .f32) (main_arg5 : FVec F S16x16 .f32) (main_arg6 : FVec F S16 .f32) (main_arg7 : FVec F S16x12 .f32) (main_arg8 : FVec F S12 .f32) (main_arg9 : FVec F S12x8 .f32) (main_arg10 : FVec F S8 .f32) (main_arg11 : FVec F S8x4 .f32) (main_arg12 : FVec F S4 .f32) (main_arg13 : FVec F S4x4 .f32) (main_arg14 : FVec F S4 .f32) (main_arg15 : FVec F S4x4 .f32) (main_arg16 : FVec F S4 .f32) (main_arg17 : FVec F S4x1 .f32) (main_arg18 : FVec F S1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x16 .f32 := Host.absf main_arg3
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S1048576x8 : Shape := ⟨2, ![1048576, 8]⟩
abbrev S8 : Shape := ⟨1, ![8]⟩
abbrev S8x16 : Shape := ⟨2, ![8, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S12x8 : Shape := ⟨2, ![12, 8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S65536x128 : Shape := ⟨2, ![65536, 128]⟩
abbrev S1x128 : Shape := ⟨2, ![1, 128]⟩
abbrev S4096x128 : Shape := ⟨2, ![4096, 128]⟩
abbrev S128 : Shape := ⟨1, ![128]⟩
abbrev S16x8 : Shape := ⟨2, ![16, 8]⟩
abbrev S_ : Shape := ⟨0, ![]⟩
abbrev S1x8 : Shape := ⟨2, ![1, 8]⟩
abbrev S16x1x16x1 : Shape := ⟨4, ![16, 1, 16, 1]⟩
abbrev S1x8x1x16 : Shape := ⟨4, ![1, 8, 1, 16]⟩
abbrev S16x8x16x16 : Shape := ⟨4, ![16, 8, 16, 16]⟩
abbrev S128x256 : Shape := ⟨2, ![128, 256]⟩
abbrev S1x16 : Shape := ⟨2, ![1, 16]⟩
abbrev S256 : Shape := ⟨1, ![256]⟩
abbrev S1x256 : Shape := ⟨2, ![1, 256]⟩
abbrev S1x16x1x16 : Shape := ⟨4, ![1, 16, 1, 16]⟩
abbrev S16x16x16x16 : Shape := ⟨4, ![16, 16, 16, 16]⟩
abbrev S256x256 : Shape := ⟨2, ![256, 256]⟩
abbrev S1x16x1x12 : Shape := ⟨4, ![1, 16, 1, 12]⟩
abbrev S16x16x16x12 : Shape := ⟨4, ![16, 16, 16, 12]⟩
abbrev S256x192 : Shape := ⟨2, ![256, 192]⟩
abbrev S1x12 : Shape := ⟨2, ![1, 12]⟩
abbrev S192 : Shape := ⟨1, ![192]⟩
abbrev S1x192 : Shape := ⟨2, ![1, 192]⟩
abbrev S1x12x1x8 : Shape := ⟨4, ![1, 12, 1, 8]⟩
abbrev S16x12x16x8 : Shape := ⟨4, ![16, 12, 16, 8]⟩
abbrev S192x128 : Shape := ⟨2, ![192, 128]⟩
abbrev S1x8x1x4 : Shape := ⟨4, ![1, 8, 1, 4]⟩
abbrev S16x8x16x4 : Shape := ⟨4, ![16, 8, 16, 4]⟩
abbrev S128x64 : Shape := ⟨2, ![128, 64]⟩
abbrev S1x4 : Shape := ⟨2, ![1, 4]⟩
abbrev S16x4 : Shape := ⟨2, ![16, 4]⟩
abbrev S64 : Shape := ⟨1, ![64]⟩
abbrev S1x64 : Shape := ⟨2, ![1, 64]⟩
abbrev S1x4x1x4 : Shape := ⟨4, ![1, 4, 1, 4]⟩
abbrev S16x4x16x4 : Shape := ⟨4, ![16, 4, 16, 4]⟩
abbrev S64x64 : Shape := ⟨2, ![64, 64]⟩
abbrev S1x4x1x1 : Shape := ⟨4, ![1, 4, 1, 1]⟩
abbrev S16x4x16x1 : Shape := ⟨4, ![16, 4, 16, 1]⟩
abbrev S64x16 : Shape := ⟨2, ![64, 16]⟩
abbrev S1x1 : Shape := ⟨2, ![1, 1]⟩
abbrev S16x1 : Shape := ⟨2, ![16, 1]⟩
abbrev S65536x16 : Shape := ⟨2, ![65536, 16]⟩
abbrev S4096x16 : Shape := ⟨2, ![4096, 16]⟩
abbrev S4096x256 : Shape := ⟨2, ![4096, 256]⟩
abbrev S4096x192 : Shape := ⟨2, ![4096, 192]⟩
abbrev S4096x64 : Shape := ⟨2, ![4096, 64]⟩
abbrev S1048576x1 : Shape := ⟨2, ![1048576, 1]⟩

abbrev nBuf : Space → Nat
  | .hbm => 190
  | .vmem => 28
  | .smem => 0
  | _ => 0

abbrev hbmTy0_0 (i : Nat) : BufTy := match i % 128 with
  | 0 => ⟨S1048576x8, .f32⟩
  | 1 => ⟨S8, .f32⟩
  | 2 => ⟨S8, .f32⟩
  | 3 => ⟨S8x16, .f32⟩
  | 4 => ⟨S16, .f32⟩
  | 5 => ⟨S16x16, .f32⟩
  | 6 => ⟨S16, .f32⟩
  | 7 => ⟨S16x12, .f32⟩
  | 8 => ⟨S12, .f32⟩
  | 9 => ⟨S12x8, .f32⟩
  | 10 => ⟨S8, .f32⟩
  | 11 => ⟨S8x4, .f32⟩
  | 12 => ⟨S4, .f32⟩
  | 13 => ⟨S4x4, .f32⟩
  | 14 => ⟨S4, .f32⟩
  | 15 => ⟨S4x4, .f32⟩
  | 16 => ⟨S4, .f32⟩
  | 17 => ⟨S4x1, .f32⟩
  | 18 => ⟨S1, .f32⟩
  | 19 => ⟨S65536x128, .f32⟩
  | 20 => ⟨S1x128, .f32⟩
  | 21 => ⟨S1x128, .f32⟩
  | 22 => ⟨S16x8, .f32⟩
  | 23 => ⟨S_, .f32⟩
  | 24 => ⟨S8, .f32⟩
  | 25 => ⟨S16x8, .f32⟩
  | 26 => ⟨S_, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S8, .f32⟩
  | 36 => ⟨S1x8, .f32⟩
  | 37 => ⟨S16x8, .f32⟩
  | 38 => ⟨S128, .f32⟩
  | 39 => ⟨S1x128, .f32⟩
  | 40 => ⟨S1x8, .f32⟩
  | 41 => ⟨S16x8, .f32⟩
  | 42 => ⟨S128, .f32⟩
  | 43 => ⟨S1x128, .f32⟩
  | 44 => ⟨S1x8, .f32⟩
  | 45 => ⟨S16x8, .f32⟩
  | 46 => ⟨S128, .f32⟩
  | 47 => ⟨S1x128, .f32⟩
  | 48 => ⟨S1x8, .f32⟩
  | 49 => ⟨S16x8, .f32⟩
  | 50 => ⟨S128, .f32⟩
  | 51 => ⟨S1x128, .f32⟩
  | 52 => ⟨S16x16, .i32⟩
  | 53 => ⟨S16x16, .i32⟩
  | 54 => ⟨S_, .i32⟩
  | 55 => ⟨S16x16, .i32⟩
  | 56 => ⟨S16x16, .i32⟩
  | 57 => ⟨S16x16, .i1⟩
  | 58 => ⟨S16x16, .f32⟩
  | 59 => ⟨S16x1x16x1, .f32⟩
  | 60 => ⟨S1x8x1x16, .f32⟩
  | 61 => ⟨S16x8x16x16, .f32⟩
  | 62 => ⟨S16x8x16x16, .f32⟩
  | 63 => ⟨S16x8x16x16, .f32⟩
  | 64 => ⟨S128x256, .f32⟩
  | 65 => ⟨S1x16, .f32⟩
  | 66 => ⟨S16x16, .f32⟩
  | 67 => ⟨S256, .f32⟩
  | 68 => ⟨S1x256, .f32⟩
  | 69 => ⟨S16x16, .i32⟩
  | 70 => ⟨S16x16, .i32⟩
  | 71 => ⟨S_, .i32⟩
  | 72 => ⟨S16x16, .i32⟩
  | 73 => ⟨S16x16, .i32⟩
  | 74 => ⟨S16x16, .i1⟩
  | 75 => ⟨S16x16, .f32⟩
  | 76 => ⟨S16x1x16x1, .f32⟩
  | 77 => ⟨S1x16x1x16, .f32⟩
  | 78 => ⟨S16x16x16x16, .f32⟩
  | 79 => ⟨S16x16x16x16, .f32⟩
  | 80 => ⟨S16x16x16x16, .f32⟩
  | 81 => ⟨S256x256, .f32⟩
  | 82 => ⟨S1x16, .f32⟩
  | 83 => ⟨S16x16, .f32⟩
  | 84 => ⟨S256, .f32⟩
  | 85 => ⟨S1x256, .f32⟩
  | 86 => ⟨S16x16, .i32⟩
  | 87 => ⟨S16x16, .i32⟩
  | 88 => ⟨S_, .i32⟩
  | 89 => ⟨S16x16, .i32⟩
  | 90 => ⟨S16x16, .i32⟩
  | 91 => ⟨S16x16, .i1⟩
  | 92 => ⟨S16x16, .f32⟩
  | 93 => ⟨S16x1x16x1, .f32⟩
  | 94 => ⟨S1x16x1x12, .f32⟩
  | 95 => ⟨S16x16x16x12, .f32⟩
  | 96 => ⟨S16x16x16x12, .f32⟩
  | 97 => ⟨S16x16x16x12, .f32⟩
  | 98 => ⟨S256x192, .f32⟩
  | 99 => ⟨S1x12, .f32⟩
  | 100 => ⟨S16x12, .f32⟩
  | 101 => ⟨S192, .f32⟩
  | 102 => ⟨S1x192, .f32⟩
  | 103 => ⟨S16x16, .i32⟩
  | 104 => ⟨S16x16, .i32⟩
  | 105 => ⟨S_, .i32⟩
  | 106 => ⟨S16x16, .i32⟩
  | 107 => ⟨S16x16, .i32⟩
  | 108 => ⟨S16x16, .i1⟩
  | 109 => ⟨S16x16, .f32⟩
  | 110 => ⟨S16x1x16x1, .f32⟩
  | 111 => ⟨S1x12x1x8, .f32⟩
  | 112 => ⟨S16x12x16x8, .f32⟩
  | 113 => ⟨S16x12x16x8, .f32⟩
  | 114 => ⟨S16x12x16x8, .f32⟩
  | 115 => ⟨S192x128, .f32⟩
  | 116 => ⟨S1x8, .f32⟩
  | 117 => ⟨S16x8, .f32⟩
  | 118 => ⟨S128, .f32⟩
  | 119 => ⟨S1x128, .f32⟩
  | 120 => ⟨S16x16, .i32⟩
  | 121 => ⟨S16x16, .i32⟩
  | 122 => ⟨S_, .i32⟩
  | 123 => ⟨S16x16, .i32⟩
  | 124 => ⟨S16x16, .i32⟩
  | 125 => ⟨S16x16, .i1⟩
  | 126 => ⟨S16x16, .f32⟩
  | 127 => ⟨S16x1x16x1, .f32⟩
  | _ => ⟨S1048576x8, .f32⟩

abbrev hbmTy0_1 (i : Nat) : BufTy := match i % 128 with
  | 0 => ⟨S1x8x1x4, .f32⟩
  | 1 => ⟨S16x8x16x4, .f32⟩
  | 2 => ⟨S16x8x16x4, .f32⟩
  | 3 => ⟨S16x8x16x4, .f32⟩
  | 4 => ⟨S128x64, .f32⟩
  | 5 => ⟨S1x4, .f32⟩
  | 6 => ⟨S16x4, .f32⟩
  | 7 => ⟨S64, .f32⟩
  | 8 => ⟨S1x64, .f32⟩
  | 9 => ⟨S16x16, .i32⟩
  | 10 => ⟨S16x16, .i32⟩
  | 11 => ⟨S_, .i32⟩
  | 12 => ⟨S16x16, .i32⟩
  | 13 => ⟨S16x16, .i32⟩
  | 14 => ⟨S16x16, .i1⟩
  | 15 => ⟨S16x16, .f32⟩
  | 16 => ⟨S16x1x16x1, .f32⟩
  | 17 => ⟨S1x4x1x4, .f32⟩
  | 18 => ⟨S16x4x16x4, .f32⟩
  | 19 => ⟨S16x4x16x4, .f32⟩
  | 20 => ⟨S16x4x16x4, .f32⟩
  | 21 => ⟨S64x64, .f32⟩
  | 22 => ⟨S1x4, .f32⟩
  | 23 => ⟨S16x4, .f32⟩
  | 24 => ⟨S64, .f32⟩
  | 25 => ⟨S1x64, .f32⟩
  | 26 => ⟨S16x16, .i32⟩
  | 27 => ⟨S16x16, .i32⟩
  | 28 => ⟨S_, .i32⟩
  | 29 => ⟨S16x16, .i32⟩
  | 30 => ⟨S16x16, .i32⟩
  | 31 => ⟨S16x16, .i1⟩
  | 32 => ⟨S16x16, .f32⟩
  | 33 => ⟨S16x1x16x1, .f32⟩
  | 34 => ⟨S1x4x1x4, .f32⟩
  | 35 => ⟨S16x4x16x4, .f32⟩
  | 36 => ⟨S16x4x16x4, .f32⟩
  | 37 => ⟨S16x4x16x4, .f32⟩
  | 38 => ⟨S64x64, .f32⟩
  | 39 => ⟨S1x4, .f32⟩
  | 40 => ⟨S16x4, .f32⟩
  | 41 => ⟨S64, .f32⟩
  | 42 => ⟨S1x64, .f32⟩
  | 43 => ⟨S16x16, .i32⟩
  | 44 => ⟨S16x16, .i32⟩
  | 45 => ⟨S_, .i32⟩
  | 46 => ⟨S16x16, .i32⟩
  | 47 => ⟨S16x16, .i32⟩
  | 48 => ⟨S16x16, .i1⟩
  | 49 => ⟨S16x16, .f32⟩
  | 50 => ⟨S16x1x16x1, .f32⟩
  | 51 => ⟨S1x4x1x1, .f32⟩
  | 52 => ⟨S16x4x16x1, .f32⟩
  | 53 => ⟨S16x4x16x1, .f32⟩
  | 54 => ⟨S16x4x16x1, .f32⟩
  | 55 => ⟨S64x16, .f32⟩
  | 56 => ⟨S1x1, .f32⟩
  | 57 => ⟨S16x1, .f32⟩
  | 58 => ⟨S16, .f32⟩
  | 59 => ⟨S1x16, .f32⟩
  | 60 => ⟨S65536x16, .f32⟩
  | 61 => ⟨S1048576x1, .f32⟩
  | _ => ⟨S1048576x8, .f32⟩

abbrev hbmTy (i : Nat) : BufTy := match i / 128 with
  | 0 => hbmTy0_0 i
  | 1 => hbmTy0_1 i
  | _ => ⟨S1048576x8, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x192, .f32⟩
  | .local _ .vmem, ⟨15, _⟩ => ⟨S1x192, .f32⟩
  | .local _ .vmem, ⟨16, _⟩ => ⟨S192x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x16, .f32⟩
  | .local _ .vmem, ⟨25, _⟩ => ⟨S1x16, .f32⟩
  | .local _ .vmem, ⟨26, _⟩ => ⟨S4096x16, .f32⟩
  | .local _ .vmem, ⟨27, _⟩ => ⟨S4096x16, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1_0 : Ref sig .tc := ⟨.hbm, 20, rfl⟩
abbrev main_v1_1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_cst_1 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_3 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_4 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_5 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_6 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_7 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_8 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_call6_v0 : Ref sig .tc := ⟨.hbm, 161, rfl⟩
abbrev main_call6_v1 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_c_9 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_call7_v0 : Ref sig .tc := ⟨.hbm, 178, rfl⟩
abbrev main_call7_v1 : Ref sig .tc := ⟨.hbm, 179, rfl⟩
abbrev main_call7_v2 : Ref sig .tc := ⟨.hbm, 180, rfl⟩
abbrev main_call7_v3 : Ref sig .tc := ⟨.hbm, 181, rfl⟩
abbrev main_call7_v4 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc1_stg13_0 : Ref sig .tc := ⟨.vmem, 18, rfl⟩
abbrev cc1_stg14_0 : Ref sig .tc := ⟨.vmem, 19, rfl⟩
abbrev cc1_stg15_0 : Ref sig .tc := ⟨.vmem, 20, rfl⟩
abbrev cc1_stg16_0 : Ref sig .tc := ⟨.vmem, 21, rfl⟩
abbrev cc1_stg17_0 : Ref sig .tc := ⟨.vmem, 22, rfl⟩
abbrev cc1_stg18_0 : Ref sig .tc := ⟨.vmem, 23, rfl⟩
abbrev cc1_stg19_0 : Ref sig .tc := ⟨.vmem, 24, rfl⟩
abbrev cc1_stg20_0 : Ref sig .tc := ⟨.vmem, 25, rfl⟩
abbrev cc1_stg21_0 : Ref sig .tc := ⟨.vmem, 26, rfl⟩
abbrev cc1_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem15_0 : DmaSem sig := 20
abbrev cc1_sem16_0 : DmaSem sig := 21
abbrev cc1_sem17_0 : DmaSem sig := 22
abbrev cc1_sem18_0 : DmaSem sig := 23
abbrev cc1_sem19_0 : DmaSem sig := 24
abbrev cc1_sem20_0 : DmaSem sig := 25
abbrev cc1_sem21_0 : DmaSem sig := 26
abbrev cc1_sem21_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x192 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x192 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S192x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S64x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x64 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S64x64 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x64 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S64x16 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x16 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 2 → Memref sig .tc .vmem S4096x16 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

class Facts₀ : Prop where
  shapeCasts_S1048576x8_S65536x128 : S1048576x8.ShapeCasts S65536x128
  inb_S1x128_S1x128_0_0 : ∀ a, (![0, 0] : Fin 2 → Nat) a + S1x128.size a ≤ S1x128.size a
  h_S1x128 : 0 < S1x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S1x128_S1x128 : S1x128.ShapeCasts S1x128
  reduces_S4096x128_S128 : S4096x128.Reduces [0] S128
  shapeCasts_S128_S1x128 : S128.ShapeCasts S1x128
  shapeCasts_S1x128_S16x8 : S1x128.ShapeCasts S16x8
  reducesTo_S16x8_S8_d0 : S16x8.ReducesTo [0] S8
  h_S_ : 0 < S_.numel
  bcast_S_S8 : S_.BroadcastsInDim S8 (![] : Fin 0 → Fin S8.rank)
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S8x16_S1x8x1x16_1_3 : S8x16.BroadcastsInDim S1x8x1x16 (![1, 3] : Fin 2 → Fin S1x8x1x16.rank)
  bcast_S16x1x16x1_S16x8x16x16_0_1_2_3 : S16x1x16x1.BroadcastsInDim S16x8x16x16 (![0, 1, 2, 3] : Fin 4 → Fin S16x8x16x16.rank)
  bcast_S1x8x1x16_S16x8x16x16_0_1_2_3 : S1x8x1x16.BroadcastsInDim S16x8x16x16 (![0, 1, 2, 3] : Fin 4 → Fin S16x8x16x16.rank)
  shapeCasts_S16x8x16x16_S128x256 : S16x8x16x16.ShapeCasts S128x256
  shapeCasts_S16_S1x16 : S16.ShapeCasts S1x16
  bcast_S1x16_S16x16_0_1 : S1x16.BroadcastsInDim S16x16 (![0, 1] : Fin 2 → Fin S16x16.rank)
  shapeCasts_S16x16_S256 : S16x16.ShapeCasts S256
  shapeCasts_S256_S1x256 : S256.ShapeCasts S1x256
  bcast_S16x16_S1x16x1x16_1_3 : S16x16.BroadcastsInDim S1x16x1x16 (![1, 3] : Fin 2 → Fin S1x16x1x16.rank)
  bcast_S16x1x16x1_S16x16x16x16_0_1_2_3 : S16x1x16x1.BroadcastsInDim S16x16x16x16 (![0, 1, 2, 3] : Fin 4 → Fin S16x16x16x16.rank)
  bcast_S1x16x1x16_S16x16x16x16_0_1_2_3 : S1x16x1x16.BroadcastsInDim S16x16x16x16 (![0, 1, 2, 3] : Fin 4 → Fin S16x16x16x16.rank)
  shapeCasts_S16x16x16x16_S256x256 : S16x16x16x16.ShapeCasts S256x256
  bcast_S16x12_S1x16x1x12_1_3 : S16x12.BroadcastsInDim S1x16x1x12 (![1, 3] : Fin 2 → Fin S1x16x1x12.rank)
  bcast_S16x1x16x1_S16x16x16x12_0_1_2_3 : S16x1x16x1.BroadcastsInDim S16x16x16x12 (![0, 1, 2, 3] : Fin 4 → Fin S16x16x16x12.rank)
  bcast_S1x16x1x12_S16x16x16x12_0_1_2_3 : S1x16x1x12.BroadcastsInDim S16x16x16x12 (![0, 1, 2, 3] : Fin 4 → Fin S16x16x16x12.rank)
  shapeCasts_S16x16x16x12_S256x192 : S16x16x16x12.ShapeCasts S256x192
  shapeCasts_S12_S1x12 : S12.ShapeCasts S1x12
  bcast_S1x12_S16x12_0_1 : S1x12.BroadcastsInDim S16x12 (![0, 1] : Fin 2 → Fin S16x12.rank)
  shapeCasts_S16x12_S192 : S16x12.ShapeCasts S192
  shapeCasts_S192_S1x192 : S192.ShapeCasts S1x192
  bcast_S12x8_S1x12x1x8_1_3 : S12x8.BroadcastsInDim S1x12x1x8 (![1, 3] : Fin 2 → Fin S1x12x1x8.rank)
  bcast_S16x1x16x1_S16x12x16x8_0_1_2_3 : S16x1x16x1.BroadcastsInDim S16x12x16x8 (![0, 1, 2, 3] : Fin 4 → Fin S16x12x16x8.rank)
  bcast_S1x12x1x8_S16x12x16x8_0_1_2_3 : S1x12x1x8.BroadcastsInDim S16x12x16x8 (![0, 1, 2, 3] : Fin 4 → Fin S16x12x16x8.rank)
  shapeCasts_S16x12x16x8_S192x128 : S16x12x16x8.ShapeCasts S192x128
  bcast_S8x4_S1x8x1x4_1_3 : S8x4.BroadcastsInDim S1x8x1x4 (![1, 3] : Fin 2 → Fin S1x8x1x4.rank)
  bcast_S16x1x16x1_S16x8x16x4_0_1_2_3 : S16x1x16x1.BroadcastsInDim S16x8x16x4 (![0, 1, 2, 3] : Fin 4 → Fin S16x8x16x4.rank)
  bcast_S1x8x1x4_S16x8x16x4_0_1_2_3 : S1x8x1x4.BroadcastsInDim S16x8x16x4 (![0, 1, 2, 3] : Fin 4 → Fin S16x8x16x4.rank)
  shapeCasts_S16x8x16x4_S128x64 : S16x8x16x4.ShapeCasts S128x64
  shapeCasts_S4_S1x4 : S4.ShapeCasts S1x4
  bcast_S1x4_S16x4_0_1 : S1x4.BroadcastsInDim S16x4 (![0, 1] : Fin 2 → Fin S16x4.rank)
  shapeCasts_S16x4_S64 : S16x4.ShapeCasts S64
  shapeCasts_S64_S1x64 : S64.ShapeCasts S1x64
  bcast_S4x4_S1x4x1x4_1_3 : S4x4.BroadcastsInDim S1x4x1x4 (![1, 3] : Fin 2 → Fin S1x4x1x4.rank)
  bcast_S16x1x16x1_S16x4x16x4_0_1_2_3 : S16x1x16x1.BroadcastsInDim S16x4x16x4 (![0, 1, 2, 3] : Fin 4 → Fin S16x4x16x4.rank)
  bcast_S1x4x1x4_S16x4x16x4_0_1_2_3 : S1x4x1x4.BroadcastsInDim S16x4x16x4 (![0, 1, 2, 3] : Fin 4 → Fin S16x4x16x4.rank)
  shapeCasts_S16x4x16x4_S64x64 : S16x4x16x4.ShapeCasts S64x64
  bcast_S4x1_S1x4x1x1_1_3 : S4x1.BroadcastsInDim S1x4x1x1 (![1, 3] : Fin 2 → Fin S1x4x1x1.rank)
  bcast_S16x1x16x1_S16x4x16x1_0_1_2_3 : S16x1x16x1.BroadcastsInDim S16x4x16x1 (![0, 1, 2, 3] : Fin 4 → Fin S16x4x16x1.rank)
  bcast_S1x4x1x1_S16x4x16x1_0_1_2_3 : S1x4x1x1.BroadcastsInDim S16x4x16x1 (![0, 1, 2, 3] : Fin 4 → Fin S16x4x16x1.rank)
  shapeCasts_S16x4x16x1_S64x16 : S16x4x16x1.ShapeCasts S64x16
  shapeCasts_S1_S1x1 : S1.ShapeCasts S1x1
  bcast_S1x1_S16x1_0_1 : S1x1.BroadcastsInDim S16x1 (![0, 1] : Fin 2 → Fin S16x1.rank)
  shapeCasts_S16x1_S16 : S16x1.ShapeCasts S16
  broadcasts_S1x128_S4096x128 : S1x128.Broadcasts S4096x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4096x192 : S1x192.Broadcasts S4096x192
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  shapeCasts_S65536x16_S1048576x1 : S65536x16.ShapeCasts S1048576x1
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x192_S4096x192_1_0_0_1_n_n_wf : DotDims.WF S4096x256 S256x192 S4096x192 [1] [0] [0] [1] [] []
  dot_S4096x192_S192x128_S4096x128_1_0_0_1_n_n_wf : DotDims.WF S4096x192 S192x128 S4096x128 [1] [0] [0] [1] [] []
  dot_S4096x128_S128x64_S4096x64_1_0_0_1_n_n_wf : DotDims.WF S4096x128 S128x64 S4096x64 [1] [0] [0] [1] [] []
  dot_S4096x64_S64x64_S4096x64_1_0_0_1_n_n_wf : DotDims.WF S4096x64 S64x64 S4096x64 [1] [0] [0] [1] [] []
  dot_S4096x64_S64x16_S4096x16_1_0_0_1_n_n_wf : DotDims.WF S4096x64 S64x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x192.size a ≤ S256x192.size a
  hwx1_9 : ∀ i : grid1.Coords, EltTy.bits .f32 = 32 ∨ (Rect.block (s := S256x192) S256x192.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x192.size a ≤ S1x192.size a
  hwx1_10 : ∀ i : grid1.Coords, EltTy.bits .f32 = 32 ∨ (Rect.block (s := S1x192) S1x192.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S192x128.size a ≤ S192x128.size a
  hwx1_11 : ∀ i : grid1.Coords, EltTy.bits .f32 = 32 ∨ (Rect.block (s := S192x128) S192x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x64.size a ≤ S128x64.size a
  hwx1_13 : ∀ i : grid1.Coords, EltTy.bits .f32 = 32 ∨ (Rect.block (s := S128x64) S128x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S64x64.size a ≤ S64x64.size a
  hwx1_15 : ∀ i : grid1.Coords, EltTy.bits .f32 = 32 ∨ (Rect.block (s := S64x64) S64x64.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x64.size a ≤ S1x64.size a
  hwx1_16 : ∀ i : grid1.Coords, EltTy.bits .f32 = 32 ∨ (Rect.block (s := S1x64) S1x64.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S64x64.size a ≤ S64x64.size a
  hwx1_17 : ∀ i : grid1.Coords, EltTy.bits .f32 = 32 ∨ (Rect.block (s := S64x64) S64x64.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x64.size a ≤ S1x64.size a
  hwx1_18 : ∀ i : grid1.Coords, EltTy.bits .f32 = 32 ∨ (Rect.block (s := S1x64) S1x64.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S64x16.size a ≤ S64x16.size a
  hwx1_19 : ∀ i : grid1.Coords, EltTy.bits .f32 = 32 ∨ (Rect.block (s := S64x16) S64x16.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x16.size a ≤ S1x16.size a
  hwx1_20 : ∀ i : grid1.Coords, EltTy.bits .f32 = 32 ∨ (Rect.block (s := S1x16) S1x16.size (cc1_transform_20 i) (hinb1_20 i)).WholeWords (EltTy.packing .f32)
  hstage1_21 : ∀ j, (stage1_21 j).IsWhole
  nbuf1_21 : grid1.bufCount reads1_21 false = 2
  hreads1_21 : ∀ i i' : grid1.Coords, (∀ a, reads1_21 a = true → i a = i' a) → cc1_transform_21 i = cc1_transform_21 i'
  hinb1_21 : ∀ (i : grid1.Coords) a, (cc1_transform_21 i a + 1) * S4096x16.size a ≤ S65536x16.size a
  hwx1_21 : ∀ i : grid1.Coords, EltTy.bits .f32 = 32 ∨ (Rect.block (s := S65536x16) S4096x16.size (cc1_transform_21 i) (hinb1_21 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x192_S4096x192_1_0_0_1_n_n : DotDims S4096x256 S256x192 S4096x192 where
  lhsContracting := [1]
  rhsContracting := [0]
  lhsNonContracting := [0]
  rhsNonContracting := [1]
  lhsBatch := []
  rhsBatch := []
  wf := dot_S4096x256_S256x192_S4096x192_1_0_0_1_n_n_wf
def dot_S4096x192_S192x128_S4096x128_1_0_0_1_n_n : DotDims S4096x192 S192x128 S4096x128 where
  lhsContracting := [1]
  rhsContracting := [0]
  lhsNonContracting := [0]
  rhsNonContracting := [1]
  lhsBatch := []
  rhsBatch := []
  wf := dot_S4096x192_S192x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v56) S256x192.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v60) S1x192.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v67) S192x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v71) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v78) S128x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v82) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v89) S64x64.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v93) S1x64.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v100) S64x64.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v104) S1x64.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v111) S64x16.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v115) S1x16.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v116) S4096x16.size cc1_transform_21 reads1_21 true false 2 stage1_21 sem1_21
    hrank1 hreads1_21 hinb1_21 nbuf1_21 (Memref.isWhole_whole _) hwx1_21 hstage1_21

abbrev win1 : Fin 22 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | ⟨_ + 22, h⟩ => absurd h (Nat.not_lt.2 (Nat.le_add_left _ _))
abbrev spec1 : Fin 22 → Pipeline.WinSpec sig grid1.rank := fun w => (win1 w).toWinSpec

class Facts : Prop extends Facts₀ where

variable [Facts]
-- ==== ReferenceIdeal.lean ====
abbrev S1048576x8 : Shape := ⟨2, ![1048576, 8]⟩
abbrev S8 : Shape := ⟨1, ![8]⟩
abbrev S8x16 : Shape := ⟨2, ![8, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S12x8 : Shape := ⟨2, ![12, 8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S_ : Shape := ⟨0, ![]⟩
abbrev S1x8 : Shape := ⟨2, ![1, 8]⟩
abbrev S1048576x16 : Shape := ⟨2, ![1048576, 16]⟩
abbrev S1x16 : Shape := ⟨2, ![1, 16]⟩
abbrev S1048576x12 : Shape := ⟨2, ![1048576, 12]⟩
abbrev S1x12 : Shape := ⟨2, ![1, 12]⟩
abbrev S1048576x4 : Shape := ⟨2, ![1048576, 4]⟩
abbrev S1x4 : Shape := ⟨2, ![1, 4]⟩
abbrev S1048576x1 : Shape := ⟨2, ![1048576, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S1048576x8, .f32⟩
  | .hbm, ⟨1, _⟩ => ⟨S8, .f32⟩
  | .hbm, ⟨2, _⟩ => ⟨S8, .f32⟩
  | .hbm, ⟨3, _⟩ => ⟨S8x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x12, .f32⟩
  | .hbm, ⟨8, _⟩ => ⟨S12, .f32⟩
  | .hbm, ⟨9, _⟩ => ⟨S12x8, .f32⟩
  | .hbm, ⟨10, _⟩ => ⟨S8, .f32⟩
  | .hbm, ⟨11, _⟩ => ⟨S8x4, .f32⟩
  | .hbm, ⟨12, _⟩ => ⟨S4, .f32⟩
  | .hbm, ⟨13, _⟩ => ⟨S4x4, .f32⟩
  | .hbm, ⟨14, _⟩ => ⟨S4, .f32⟩
  | .hbm, ⟨15, _⟩ => ⟨S4x4, .f32⟩
  | .hbm, ⟨16, _⟩ => ⟨S4, .f32⟩
  | .hbm, ⟨17, _⟩ => ⟨S4x1, .f32⟩
  | .hbm, ⟨18, _⟩ => ⟨S1, .f32⟩
  | .hbm, ⟨19, _⟩ => ⟨S_, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S1x8, .f32⟩
  | .hbm, ⟨25, _⟩ => ⟨S1048576x8, .f32⟩
  | .hbm, ⟨26, _⟩ => ⟨S1048576x8, .f32⟩
  | .hbm, ⟨27, _⟩ => ⟨S1048576x8, .f32⟩
  | .hbm, ⟨28, _⟩ => ⟨S_, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S1x8, .f32⟩
  | .hbm, ⟨34, _⟩ => ⟨S1048576x8, .f32⟩
  | .hbm, ⟨35, _⟩ => ⟨S1048576x8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S1x8, .f32⟩
  | .hbm, ⟨41, _⟩ => ⟨S1048576x8, .f32⟩
  | .hbm, ⟨42, _⟩ => ⟨S1048576x8, .f32⟩
  | .hbm, ⟨43, _⟩ => ⟨S1x8, .f32⟩
  | .hbm, ⟨44, _⟩ => ⟨S1048576x8, .f32⟩
  | .hbm, ⟨45, _⟩ => ⟨S1048576x8, .f32⟩
  | .hbm, ⟨46, _⟩ => ⟨S1x8, .f32⟩
  | .hbm, ⟨47, _⟩ => ⟨S1048576x8, .f32⟩
  | .hbm, ⟨48, _⟩ => ⟨S1048576x8, .f32⟩
  | .hbm, ⟨49, _⟩ => ⟨S1048576x16, .f32⟩
  | .hbm, ⟨50, _⟩ => ⟨S1x16, .f32⟩
  | .hbm, ⟨51, _⟩ => ⟨S1048576x16, .f32⟩
  | .hbm, ⟨52, _⟩ => ⟨S1048576x16, .f32⟩
  | .hbm, ⟨53, _⟩ => ⟨S1048576x16, .f32⟩
  | .hbm, ⟨54, _⟩ => ⟨S1048576x16, .f32⟩
  | .hbm, ⟨55, _⟩ => ⟨S1x16, .f32⟩
  | .hbm, ⟨56, _⟩ => ⟨S1048576x16, .f32⟩
  | .hbm, ⟨57, _⟩ => ⟨S1048576x16, .f32⟩
  | .hbm, ⟨58, _⟩ => ⟨S1048576x16, .f32⟩
  | .hbm, ⟨59, _⟩ => ⟨S1048576x12, .f32⟩
  | .hbm, ⟨60, _⟩ => ⟨S1x12, .f32⟩
  | .hbm, ⟨61, _⟩ => ⟨S1048576x12, .f32⟩
  | .hbm, ⟨62, _⟩ => ⟨S1048576x12, .f32⟩
  | .hbm, ⟨63, _⟩ => ⟨S1048576x12, .f32⟩
  | .hbm, ⟨64, _⟩ => ⟨S1048576x8, .f32⟩
  | .hbm, ⟨65, _⟩ => ⟨S1x8, .f32⟩
  | .hbm, ⟨66, _⟩ => ⟨S1048576x8, .f32⟩
  | .hbm, ⟨67, _⟩ => ⟨S1048576x8, .f32⟩
  | .hbm, ⟨68, _⟩ => ⟨S1048576x8, .f32⟩
  | .hbm, ⟨69, _⟩ => ⟨S1048576x4, .f32⟩
  | .hbm, ⟨70, _⟩ => ⟨S1x4, .f32⟩
  | .hbm, ⟨71, _⟩ => ⟨S1048576x4, .f32⟩
  | .hbm, ⟨72, _⟩ => ⟨S1048576x4, .f32⟩
  | .hbm, ⟨73, _⟩ => ⟨S1048576x4, .f32⟩
  | .hbm, ⟨74, _⟩ => ⟨S1048576x4, .f32⟩
  | .hbm, ⟨75, _⟩ => ⟨S1x4, .f32⟩
  | .hbm, ⟨76, _⟩ => ⟨S1048576x4, .f32⟩
  | .hbm, ⟨77, _⟩ => ⟨S1048576x4, .f32⟩
  | .hbm, ⟨78, _⟩ => ⟨S1048576x4, .f32⟩
  | .hbm, ⟨79, _⟩ => ⟨S1048576x4, .f32⟩
  | .hbm, ⟨80, _⟩ => ⟨S1x4, .f32⟩
  | .hbm, ⟨81, _⟩ => ⟨S1048576x4, .f32⟩
  | .hbm, ⟨82, _⟩ => ⟨S1048576x4, .f32⟩
  | .hbm, ⟨83, _⟩ => ⟨S_, .f32⟩
  | .hbm, ⟨84, _⟩ => ⟨S1048576x4, .f32⟩
  | .hbm, ⟨85, _⟩ => ⟨S1048576x4, .f32⟩
  | .hbm, ⟨86, _⟩ => ⟨S1048576x4, .f32⟩
  | .hbm, ⟨87, _⟩ => ⟨S1048576x1, .f32⟩
  | .hbm, ⟨88, _⟩ => ⟨S1x1, .f32⟩
  | .hbm, ⟨89, _⟩ => ⟨S1048576x1, .f32⟩
  | .hbm, ⟨90, _⟩ => ⟨S1048576x1, .f32⟩
  | .hbm, ⟨91, _⟩ => ⟨S1048576x1, .f32⟩
  | .hbm, ⟨92, _⟩ => ⟨S1048576x1, .f32⟩
  | .hbm, ⟨93, _⟩ => ⟨S_, .f32⟩
  | .hbm, ⟨94, _⟩ => ⟨S1048576x1, .f32⟩
  | .hbm, ⟨95, _⟩ => ⟨S1048576x1, .f32⟩
  | .hbm, ⟨96, _⟩ => ⟨S_, .f32⟩
  | .hbm, ⟨97, _⟩ => ⟨S1048576x1, .f32⟩
  | .hbm, ⟨98, _⟩ => ⟨S1048576x1, .f32⟩
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_cst_2 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call0_cst : Ref sig .tc := ⟨.hbm, 83, rfl⟩
abbrev main_call0_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_4 : Ref sig .tc := ⟨.hbm, 93, rfl⟩
abbrev main_v67 : Ref sig .tc := ⟨.hbm, 94, rfl⟩
abbrev main_v68 : Ref sig .tc := ⟨.hbm, 95, rfl⟩
abbrev main_cst_5 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  reducesTo_S1048576x8_S8_d0 : S1048576x8.ReducesTo [0] S8
  h_S_ : 0 < S_.numel
  bcast_S_S8 : S_.BroadcastsInDim S8 (![] : Fin 0 → Fin S8.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S12_S1x12_1 : S12.BroadcastsInDim S1x12 (![1] : Fin 1 → Fin S1x12.rank)
  bcast_S1x12_S1048576x12_0_1 : S1x12.BroadcastsInDim S1048576x12 (![0, 1] : Fin 2 → Fin S1048576x12.rank)
  bcast_S4_S1x4_1 : S4.BroadcastsInDim S1x4 (![1] : Fin 1 → Fin S1x4.rank)
  bcast_S1x4_S1048576x4_0_1 : S1x4.BroadcastsInDim S1048576x4 (![0, 1] : Fin 2 → Fin S1048576x4.rank)
  bcast_S_S1048576x4 : S_.BroadcastsInDim S1048576x4 (![] : Fin 0 → Fin S1048576x4.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  dot_S1048576x8_S8x16_S1048576x16_1_0_0_1_n_n_wf : DotDims.WF S1048576x8 S8x16 S1048576x16 [1] [0] [0] [1] [] []
  dot_S1048576x16_S16x16_S1048576x16_1_0_0_1_n_n_wf : DotDims.WF S1048576x16 S16x16 S1048576x16 [1] [0] [0] [1] [] []
  dot_S1048576x16_S16x12_S1048576x12_1_0_0_1_n_n_wf : DotDims.WF S1048576x16 S16x12 S1048576x12 [1] [0] [0] [1] [] []
  dot_S1048576x12_S12x8_S1048576x8_1_0_0_1_n_n_wf : DotDims.WF S1048576x12 S12x8 S1048576x8 [1] [0] [0] [1] [] []
  dot_S1048576x8_S8x4_S1048576x4_1_0_0_1_n_n_wf : DotDims.WF S1048576x8 S8x4 S1048576x4 [1] [0] [0] [1] [] []
  dot_S1048576x4_S4x4_S1048576x4_1_0_0_1_n_n_wf : DotDims.WF S1048576x4 S4x4 S1048576x4 [1] [0] [0] [1] [] []
  dot_S1048576x4_S4x1_S1048576x1_1_0_0_1_n_n_wf : DotDims.WF S1048576x4 S4x1 S1048576x1 [1] [0] [0] [1] [] []

variable [Facts₀]

def dot_S1048576x8_S8x16_S1048576x16_1_0_0_1_n_n : DotDims S1048576x8 S8x16 S1048576x16 where
  lhsContracting := [1]
  rhsContracting := [0]
  lhsNonContracting := [0]
  rhsNonContracting := [1]
  lhsBatch := []
  rhsBatch := []
  wf := dot_S1048576x8_S8x16_S1048576x16_1_0_0_1_n_n_wf
def dot_S1048576x16_S16x16_S1048576x16_1_0_0_1_n_n : DotDims S1048576x16 S16x16 S1048576x16 where
  lhsContracting := [1]
  rhsContracting := [0]
  lhsNonContracting := [0]
  rhsNonContracting := [1]
  lhsBatch := []
  rhsBatch := []
  wf := dot_S1048576x16_S16x16_S1048576x16_1_0_0_1_n_n_wf
def dot_S1048576x16_S16x12_S1048576x12_1_0_0_1_n_n : DotDims S1048576x16 S16x12 S1048576x12 where
  lhsContracting := [1]
  rhsContracting := [0]
  lhsNonContracting := [0]
  rhsNonContracting := [1]
  lhsBatch := []
  rhsBatch := []
  wf := dot_S1048576x16_S16x12_S1048576x12_1_0_0_1_n_n_wf
def dot_S1048576x12_S12x8_S1048576x8_1_0_0_1_n_n : DotDims S1048576x12 S12x8 S1048576x8 where
  lhsContracting := [1]
  rhsContracting := [0]
  lhsNonContracting := [0]
  rhsNonContracting := [1]
  lhsBatch := []
  rhsBatch := []
  wf := dot_S1048576x12_S12x8_S1048576x8_1_0_0_1_n_n_wf
def dot_S1048576x8_S8x4_S1048576x4_1_0_0_1_n_n : DotDims S1048576x8 S8x4 S1048576x4 where
  lhsContracting := [1]
  rhsContracting := [0]
  lhsNonContracting := [0]
  rhsNonContracting := [1]
  lhsBatch := []
  rhsBatch := []
  wf := dot_S1048576x8_S8x4_S1048576x4_1_0_0_1_n_n_wf
def dot_S1048576x4_S4x4_S1048576x4_1_0_0_1_n_n : DotDims S1048576x4 S4x4 S1048576x4 where
  lhsContracting := [1]
  rhsContracting := [0]
  lhsNonContracting := [0]
  rhsNonContracting := [1]
  lhsBatch := []
  rhsBatch := []
  wf := dot_S1048576x4_S4x4_S1048576x4_1_0_0_1_n_n_wf
def dot_S1048576x4_S4x1_S1048576x1_1_0_0_1_n_n : DotDims S1048576x4 S4x1 S1048576x1 where
  lhsContracting := [1]
  rhsContracting := [0]
  lhsNonContracting := [0]
  rhsNonContracting := [1]
  lhsBatch := []
  rhsBatch := []
  wf := dot_S1048576x4_S4x1_S1048576x1_1_0_0_1_n_n_wf

class Facts : Prop extends Facts₀ where

variable [Facts]
-- ==== Proof.KRun.lean ====
/-
  The kernel program's run with its result named.

  The program is a chain of segments: stretches of host operations and two kernel regions. Each segment takes the
  TensorCore's buffer contents at its entry to the contents at its exit, so the buffers after the last segment
  hold the contents that chain ends in; every weakly fair execution terminates there. Read back at the result
  buffer, that is the result's value; read back at an argument, nothing on the way writes it.
-/
import proofs.«112536_j65481071403406_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the contents the chain of segments ends in,
    and every argument as launched. -/
theorem run : θ_run defs (onTc (τ := τ) (main (F := F))) ⟨m, fun _ => 0, ρ⟩ (fun r => ∀ c : Dev nD,
      r.2.mem ((c.tc : Thread nD τ).loc main_v117) = W21 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v117 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c),
       (h c _ (mem_uc main_arg16 (by decide))).trans (W21_main_arg16 m ρ c),
       (h c _ (mem_uc main_arg17 (by decide))).trans (W21_main_arg17 m ρ c),
       (h c _ (mem_uc main_arg18 (by decide))).trans (W21_main_arg18 m ρ c)⟩)

end Cert.KernelIdeal.Named

end
-- ==== Proof.LibDot.lean ====
/-
  A matrix product with one contracted axis, read at an entry as a sum over that axis's coordinate.

  A contraction's index set is a shape of rank one here; the sum over it is the sum over `Fin K` once each operand's index
  at contraction position `k` is named by the coordinate of `k` (`contr_sum`).  The hypotheses ask for each operand
  index as a function of that coordinate, which the dimension numbers of a literal product give by computation.
-/
import Idealize.ShloMosaic.PureOps.Ideal.Laws
import Idealize.ShloMosaic.Lib.ValueIdx

noncomputable section

namespace Cert.LibDot

open Idealize.ShloMosaic Idealize.ShloMosaic.ValueIdx
open scoped BigOperators

/-- The contraction sum of a product whose dimension numbers contract ONE axis of extent `K`, as a sum over `Fin K`:
    `L q` and `R q` are the operands' indices at a contraction position whose coordinate is `q`. -/
theorem contr_sum {sl sr so : Shape} (D : DotDims sl sr so) (K : ℕ) (hr : D.contr.rank = 1)
    (hs : D.contr.size ⟨0, by omega⟩ = K) (lhs : sl.Idx → EReal) (rhs : sr.Idx → EReal) (j : so.Idx)
    (L : Fin K → sl.Idx) (R : Fin K → sr.Idx)
    (hL : ∀ (k : D.contr.Idx) (q : Fin K), (k ⟨0, by omega⟩).val = q.val → D.lhsIdx j k = L q)
    (hR : ∀ (k : D.contr.Idx) (q : Fin K), (k ⟨0, by omega⟩).val = q.val → D.rhsIdx j k = R q) :
    ∑ k : D.contr.Idx, lhs (D.lhsIdx j k) * rhs (D.rhsIdx j k) = ∑ q : Fin K, lhs (L q) * rhs (R q) := by
  rw [← Equiv.sum_comp (contrEquiv1 D K hr hs).symm (fun k => lhs (D.lhsIdx j k) * rhs (D.rhsIdx j k))]
  refine Finset.sum_congr rfl fun q _ => ?_
  rw [hL _ q (contrEquiv1_symm_val D K hr hs q), hR _ q (contrEquiv1_symm_val D K hr hs q)]

end Cert.LibDot

end
-- ==== Proof.KMatmul.lean ====
/-
  The kernel's matrix products read at an entry.

  Each product multiplies a block of 4096 rows by a weight matrix with no batch axis and one contracted axis,
  into a zero accumulator: entry (r, b) is the sum over k of lhs (r, k) · rhs (k, b).
-/
import proofs.«112536_j65481071403406_2_alg».proof.Proof.Gen.KernelIdeal
import proofs.«112536_j65481071403406_2_alg».proof.Proof.LibDot
import Idealize.ShloMosaic.PureOps.Ideal.Laws
import Idealize.ShloMosaic.Lib.ValueIdx

noncomputable section

namespace Cert.KernelIdeal.Products

open Cert.KernelIdeal Idealize.ShloMosaic Idealize.ShloMosaic.ValueIdx

/-- The product of a [4096, 128] block with a [128, 256] matrix at (r, b). -/
theorem mm_128_256 {φ₁ φ₂ : FTy} (lhs : FVec Ideal S4096x128 φ₁) (rhs : FVec Ideal S128x256 φ₂) (r : Fin 4096) (b : Fin 256) :
    matmul dot_S4096x128_S128x256_S4096x256_1_0_0_1_n_n none lhs rhs (constant S4096x256 .f32 0x00000000#32) (ix2 r b)
      = ∑ k : Fin 128, lhs (ix2 r k) * rhs (ix2 k b) := by
  show FloatOps.matmul dot_S4096x128_S128x256_S4096x256_1_0_0_1_n_n none lhs rhs (constant S4096x256 .f32 0x00000000#32) (ix2 r b) = _
  rw [Ideal.matmul_constant_zero_apply]
  refine Cert.LibDot.contr_sum dot_S4096x128_S128x256_S4096x256_1_0_0_1_n_n 128 rfl rfl lhs rhs (ix2 r b) (fun k => ix2 r k) (fun k => ix2 k b) ?_ ?_
  · intro k q hk
    funext a
    apply Fin.ext
    match a with
    | ⟨0, _⟩ =>
      show (dot_S4096x128_S128x256_S4096x256_1_0_0_1_n_n.lhsIdx (ix2 r b) k 0).val = r.val
      unfold DotDims.lhsIdx
      rw [dif_neg (show ¬(0 : Fin S4096x128.rank) ∈ dot_S4096x128_S128x256_S4096x256_1_0_0_1_n_n.lhsBatch by decide),
        dif_pos (show (0 : Fin S4096x128.rank) ∈ dot_S4096x128_S128x256_S4096x256_1_0_0_1_n_n.lhsNonContracting by decide)]
      rfl
    | ⟨1, _⟩ => exact (dot_S4096x128_S128x256_S4096x256_1_0_0_1_n_n.lhsIdx_val_of_single rfl (ix2 r b) k).trans hk
  · intro k q hk
    funext a
    apply Fin.ext
    match a with
    | ⟨0, _⟩ => exact (dot_S4096x128_S128x256_S4096x256_1_0_0_1_n_n.rhsIdx_val_of_single rfl (ix2 r b) k).trans hk
    | ⟨1, _⟩ =>
      show (dot_S4096x128_S128x256_S4096x256_1_0_0_1_n_n.rhsIdx (ix2 r b) k 1).val = b.val
      unfold DotDims.rhsIdx
      rw [dif_neg (show ¬(1 : Fin S128x256.rank) ∈ dot_S4096x128_S128x256_S4096x256_1_0_0_1_n_n.rhsBatch by decide),
        dif_pos (show (1 : Fin S128x256.rank) ∈ dot_S4096x128_S128x256_S4096x256_1_0_0_1_n_n.rhsNonContracting by decide)]
      rfl

/-- The product of a [4096, 256] block with a [256, 256] matrix at (r, b). -/
theorem mm_256_256 {φ₁ φ₂ : FTy} (lhs : FVec Ideal S4096x256 φ₁) (rhs : FVec Ideal S256x256 φ₂) (r : Fin 4096) (b : Fin 256) :
    matmul dot_S4096x256_S256x256_S4096x256_1_0_0_1_n_n none lhs rhs (constant S4096x256 .f32 0x00000000#32) (ix2 r b)
      = ∑ k : Fin 256, lhs (ix2 r k) * rhs (ix2 k b) := by
  show FloatOps.matmul dot_S4096x256_S256x256_S4096x256_1_0_0_1_n_n none lhs rhs (constant S4096x256 .f32 0x00000000#32) (ix2 r b) = _
  rw [Ideal.matmul_constant_zero_apply]
  refine Cert.LibDot.contr_sum dot_S4096x256_S256x256_S4096x256_1_0_0_1_n_n 256 rfl rfl lhs rhs (ix2 r b) (fun k => ix2 r k) (fun k => ix2 k b) ?_ ?_
  · intro k q hk
    funext a
    apply Fin.ext
    match a with
    | ⟨0, _⟩ =>
      show (dot_S4096x256_S256x256_S4096x256_1_0_0_1_n_n.lhsIdx (ix2 r b) k 0).val = r.val
      unfold DotDims.lhsIdx
      rw [dif_neg (show ¬(0 : Fin S4096x256.rank) ∈ dot_S4096x256_S256x256_S4096x256_1_0_0_1_n_n.lhsBatch by decide),
        dif_pos (show (0 : Fin S4096x256.rank) ∈ dot_S4096x256_S256x256_S4096x256_1_0_0_1_n_n.lhsNonContracting by decide)]
      rfl
    | ⟨1, _⟩ => exact (dot_S4096x256_S256x256_S4096x256_1_0_0_1_n_n.lhsIdx_val_of_single rfl (ix2 r b) k).trans hk
  · intro k q hk
    funext a
    apply Fin.ext
    match a with
    | ⟨0, _⟩ => exact (dot_S4096x256_S256x256_S4096x256_1_0_0_1_n_n.rhsIdx_val_of_single rfl (ix2 r b) k).trans hk
    | ⟨1, _⟩ =>
      show (dot_S4096x256_S256x256_S4096x256_1_0_0_1_n_n.rhsIdx (ix2 r b) k 1).val = b.val
      unfold DotDims.rhsIdx
      rw [dif_neg (show ¬(1 : Fin S256x256.rank) ∈ dot_S4096x256_S256x256_S4096x256_1_0_0_1_n_n.rhsBatch by decide),
        dif_pos (show (1 : Fin S256x256.rank) ∈ dot_S4096x256_S256x256_S4096x256_1_0_0_1_n_n.rhsNonContracting by decide)]
      rfl

/-- The product of a [4096, 256] block with a [256, 192] matrix at (r, b). -/
theorem mm_256_192 {φ₁ φ₂ : FTy} (lhs : FVec Ideal S4096x256 φ₁) (rhs : FVec Ideal S256x192 φ₂) (r : Fin 4096) (b : Fin 192) :
    matmul dot_S4096x256_S256x192_S4096x192_1_0_0_1_n_n none lhs rhs (constant S4096x192 .f32 0x00000000#32) (ix2 r b)
      = ∑ k : Fin 256, lhs (ix2 r k) * rhs (ix2 k b) := by
  show FloatOps.matmul dot_S4096x256_S256x192_S4096x192_1_0_0_1_n_n none lhs rhs (constant S4096x192 .f32 0x00000000#32) (ix2 r b) = _
  rw [Ideal.matmul_constant_zero_apply]
  refine Cert.LibDot.contr_sum dot_S4096x256_S256x192_S4096x192_1_0_0_1_n_n 256 rfl rfl lhs rhs (ix2 r b) (fun k => ix2 r k) (fun k => ix2 k b) ?_ ?_
  · intro k q hk
    funext a
    apply Fin.ext
    match a with
    | ⟨0, _⟩ =>
      show (dot_S4096x256_S256x192_S4096x192_1_0_0_1_n_n.lhsIdx (ix2 r b) k 0).val = r.val
      unfold DotDims.lhsIdx
      rw [dif_neg (show ¬(0 : Fin S4096x256.rank) ∈ dot_S4096x256_S256x192_S4096x192_1_0_0_1_n_n.lhsBatch by decide),
        dif_pos (show (0 : Fin S4096x256.rank) ∈ dot_S4096x256_S256x192_S4096x192_1_0_0_1_n_n.lhsNonContracting by decide)]
      rfl
    | ⟨1, _⟩ => exact (dot_S4096x256_S256x192_S4096x192_1_0_0_1_n_n.lhsIdx_val_of_single rfl (ix2 r b) k).trans hk
  · intro k q hk
    funext a
    apply Fin.ext
    match a with
    | ⟨0, _⟩ => exact (dot_S4096x256_S256x192_S4096x192_1_0_0_1_n_n.rhsIdx_val_of_single rfl (ix2 r b) k).trans hk
    | ⟨1, _⟩ =>
      show (dot_S4096x256_S256x192_S4096x192_1_0_0_1_n_n.rhsIdx (ix2 r b) k 1).val = b.val
      unfold DotDims.rhsIdx
      rw [dif_neg (show ¬(1 : Fin S256x192.rank) ∈ dot_S4096x256_S256x192_S4096x192_1_0_0_1_n_n.rhsBatch by decide),
        dif_pos (show (1 : Fin S256x192.rank) ∈ dot_S4096x256_S256x192_S4096x192_1_0_0_1_n_n.rhsNonContracting by decide)]
      rfl

/-- The product of a [4096, 192] block with a [192, 128] matrix at (r, b). -/
theorem mm_192_128 {φ₁ φ₂ : FTy} (lhs : FVec Ideal S4096x192 φ₁) (rhs : FVec Ideal S192x128 φ₂) (r : Fin 4096) (b : Fin 128) :
    matmul dot_S4096x192_S192x128_S4096x128_1_0_0_1_n_n none lhs rhs (constant S4096x128 .f32 0x00000000#32) (ix2 r b)
      = ∑ k : Fin 192, lhs (ix2 r k) * rhs (ix2 k b) := by
  show FloatOps.matmul dot_S4096x192_S192x128_S4096x128_1_0_0_1_n_n none lhs rhs (constant S4096x128 .f32 0x00000000#32) (ix2 r b) = _
  rw [Ideal.matmul_constant_zero_apply]
  refine Cert.LibDot.contr_sum dot_S4096x192_S192x128_S4096x128_1_0_0_1_n_n 192 rfl rfl lhs rhs (ix2 r b) (fun k => ix2 r k) (fun k => ix2 k b) ?_ ?_
  · intro k q hk
    funext a
    apply Fin.ext
    match a with
    | ⟨0, _⟩ =>
      show (dot_S4096x192_S192x128_S4096x128_1_0_0_1_n_n.lhsIdx (ix2 r b) k 0).val = r.val
      unfold DotDims.lhsIdx
      rw [dif_neg (show ¬(0 : Fin S4096x192.rank) ∈ dot_S4096x192_S192x128_S4096x128_1_0_0_1_n_n.lhsBatch by decide),
        dif_pos (show (0 : Fin S4096x192.rank) ∈ dot_S4096x192_S192x128_S4096x128_1_0_0_1_n_n.lhsNonContracting by decide)]
      rfl
    | ⟨1, _⟩ => exact (dot_S4096x192_S192x128_S4096x128_1_0_0_1_n_n.lhsIdx_val_of_single rfl (ix2 r b) k).trans hk
  · intro k q hk
    funext a
    apply Fin.ext
    match a with
    | ⟨0, _⟩ => exact (dot_S4096x192_S192x128_S4096x128_1_0_0_1_n_n.rhsIdx_val_of_single rfl (ix2 r b) k).trans hk
    | ⟨1, _⟩ =>
      show (dot_S4096x192_S192x128_S4096x128_1_0_0_1_n_n.rhsIdx (ix2 r b) k 1).val = b.val
      unfold DotDims.rhsIdx
      rw [dif_neg (show ¬(1 : Fin S192x128.rank) ∈ dot_S4096x192_S192x128_S4096x128_1_0_0_1_n_n.rhsBatch by decide),
        dif_pos (show (1 : Fin S192x128.rank) ∈ dot_S4096x192_S192x128_S4096x128_1_0_0_1_n_n.rhsNonContracting by decide)]
      rfl

/-- The product of a [4096, 128] block with a [128, 64] matrix at (r, b). -/
theorem mm_128_64 {φ₁ φ₂ : FTy} (lhs : FVec Ideal S4096x128 φ₁) (rhs : FVec Ideal S128x64 φ₂) (r : Fin 4096) (b : Fin 64) :
    matmul dot_S4096x128_S128x64_S4096x64_1_0_0_1_n_n none lhs rhs (constant S4096x64 .f32 0x00000000#32) (ix2 r b)
      = ∑ k : Fin 128, lhs (ix2 r k) * rhs (ix2 k b) := by
  show FloatOps.matmul dot_S4096x128_S128x64_S4096x64_1_0_0_1_n_n none lhs rhs (constant S4096x64 .f32 0x00000000#32) (ix2 r b) = _
  rw [Ideal.matmul_constant_zero_apply]
  refine Cert.LibDot.contr_sum dot_S4096x128_S128x64_S4096x64_1_0_0_1_n_n 128 rfl rfl lhs rhs (ix2 r b) (fun k => ix2 r k) (fun k => ix2 k b) ?_ ?_
  · intro k q hk
    funext a
    apply Fin.ext
    match a with
    | ⟨0, _⟩ =>
      show (dot_S4096x128_S128x64_S4096x64_1_0_0_1_n_n.lhsIdx (ix2 r b) k 0).val = r.val
      unfold DotDims.lhsIdx
      rw [dif_neg (show ¬(0 : Fin S4096x128.rank) ∈ dot_S4096x128_S128x64_S4096x64_1_0_0_1_n_n.lhsBatch by decide),
        dif_pos (show (0 : Fin S4096x128.rank) ∈ dot_S4096x128_S128x64_S4096x64_1_0_0_1_n_n.lhsNonContracting by decide)]
      rfl
    | ⟨1, _⟩ => exact (dot_S4096x128_S128x64_S4096x64_1_0_0_1_n_n.lhsIdx_val_of_single rfl (ix2 r b) k).trans hk
  · intro k q hk
    funext a
    apply Fin.ext
    match a with
    | ⟨0, _⟩ => exact (dot_S4096x128_S128x64_S4096x64_1_0_0_1_n_n.rhsIdx_val_of_single rfl (ix2 r b) k).trans hk
    | ⟨1, _⟩ =>
      show (dot_S4096x128_S128x64_S4096x64_1_0_0_1_n_n.rhsIdx (ix2 r b) k 1).val = b.val
      unfold DotDims.rhsIdx
      rw [dif_neg (show ¬(1 : Fin S128x64.rank) ∈ dot_S4096x128_S128x64_S4096x64_1_0_0_1_n_n.rhsBatch by decide),
        dif_pos (show (1 : Fin S128x64.rank) ∈ dot_S4096x128_S128x64_S4096x64_1_0_0_1_n_n.rhsNonContracting by decide)]
      rfl

/-- The product of a [4096, 64] block with a [64, 64] matrix at (r, b). -/
theorem mm_64_64 {φ₁ φ₂ : FTy} (lhs : FVec Ideal S4096x64 φ₁) (rhs : FVec Ideal S64x64 φ₂) (r : Fin 4096) (b : Fin 64) :
    matmul dot_S4096x64_S64x64_S4096x64_1_0_0_1_n_n none lhs rhs (constant S4096x64 .f32 0x00000000#32) (ix2 r b)
      = ∑ k : Fin 64, lhs (ix2 r k) * rhs (ix2 k b) := by
  show FloatOps.matmul dot_S4096x64_S64x64_S4096x64_1_0_0_1_n_n none lhs rhs (constant S4096x64 .f32 0x00000000#32) (ix2 r b) = _
  rw [Ideal.matmul_constant_zero_apply]
  refine Cert.LibDot.contr_sum dot_S4096x64_S64x64_S4096x64_1_0_0_1_n_n 64 rfl rfl lhs rhs (ix2 r b) (fun k => ix2 r k) (fun k => ix2 k b) ?_ ?_
  · intro k q hk
    funext a
    apply Fin.ext
    match a with
    | ⟨0, _⟩ =>
      show (dot_S4096x64_S64x64_S4096x64_1_0_0_1_n_n.lhsIdx (ix2 r b) k 0).val = r.val
      unfold DotDims.lhsIdx
      rw [dif_neg (show ¬(0 : Fin S4096x64.rank) ∈ dot_S4096x64_S64x64_S4096x64_1_0_0_1_n_n.lhsBatch by decide),
        dif_pos (show (0 : Fin S4096x64.rank) ∈ dot_S4096x64_S64x64_S4096x64_1_0_0_1_n_n.lhsNonContracting by decide)]
      rfl
    | ⟨1, _⟩ => exact (dot_S4096x64_S64x64_S4096x64_1_0_0_1_n_n.lhsIdx_val_of_single rfl (ix2 r b) k).trans hk
  · intro k q hk
    funext a
    apply Fin.ext
    match a with
    | ⟨0, _⟩ => exact (dot_S4096x64_S64x64_S4096x64_1_0_0_1_n_n.rhsIdx_val_of_single rfl (ix2 r b) k).trans hk
    | ⟨1, _⟩ =>
      show (dot_S4096x64_S64x64_S4096x64_1_0_0_1_n_n.rhsIdx (ix2 r b) k 1).val = b.val
      unfold DotDims.rhsIdx
      rw [dif_neg (show ¬(1 : Fin S64x64.rank) ∈ dot_S4096x64_S64x64_S4096x64_1_0_0_1_n_n.rhsBatch by decide),
        dif_pos (show (1 : Fin S64x64.rank) ∈ dot_S4096x64_S64x64_S4096x64_1_0_0_1_n_n.rhsNonContracting by decide)]
      rfl

/-- The product of a [4096, 64] block with a [64, 16] matrix at (r, b). -/
theorem mm_64_16 {φ₁ φ₂ : FTy} (lhs : FVec Ideal S4096x64 φ₁) (rhs : FVec Ideal S64x16 φ₂) (r : Fin 4096) (b : Fin 16) :
    matmul dot_S4096x64_S64x16_S4096x16_1_0_0_1_n_n none lhs rhs (constant S4096x16 .f32 0x00000000#32) (ix2 r b)
      = ∑ k : Fin 64, lhs (ix2 r k) * rhs (ix2 k b) := by
  show FloatOps.matmul dot_S4096x64_S64x16_S4096x16_1_0_0_1_n_n none lhs rhs (constant S4096x16 .f32 0x00000000#32) (ix2 r b) = _
  rw [Ideal.matmul_constant_zero_apply]
  refine Cert.LibDot.contr_sum dot_S4096x64_S64x16_S4096x16_1_0_0_1_n_n 64 rfl rfl lhs rhs (ix2 r b) (fun k => ix2 r k) (fun k => ix2 k b) ?_ ?_
  · intro k q hk
    funext a
    apply Fin.ext
    match a with
    | ⟨0, _⟩ =>
      show (dot_S4096x64_S64x16_S4096x16_1_0_0_1_n_n.lhsIdx (ix2 r b) k 0).val = r.val
      unfold DotDims.lhsIdx
      rw [dif_neg (show ¬(0 : Fin S4096x64.rank) ∈ dot_S4096x64_S64x16_S4096x16_1_0_0_1_n_n.lhsBatch by decide),
        dif_pos (show (0 : Fin S4096x64.rank) ∈ dot_S4096x64_S64x16_S4096x16_1_0_0_1_n_n.lhsNonContracting by decide)]
      rfl
    | ⟨1, _⟩ => exact (dot_S4096x64_S64x16_S4096x16_1_0_0_1_n_n.lhsIdx_val_of_single rfl (ix2 r b) k).trans hk
  · intro k q hk
    funext a
    apply Fin.ext
    match a with
    | ⟨0, _⟩ => exact (dot_S4096x64_S64x16_S4096x16_1_0_0_1_n_n.rhsIdx_val_of_single rfl (ix2 r b) k).trans hk
    | ⟨1, _⟩ =>
      show (dot_S4096x64_S64x16_S4096x16_1_0_0_1_n_n.rhsIdx (ix2 r b) k 1).val = b.val
      unfold DotDims.rhsIdx
      rw [dif_neg (show ¬(1 : Fin S64x16.rank) ∈ dot_S4096x64_S64x16_S4096x16_1_0_0_1_n_n.rhsBatch by decide),
        dif_pos (show (1 : Fin S64x16.rank) ∈ dot_S4096x64_S64x16_S4096x16_1_0_0_1_n_n.rhsNonContracting by decide)]
      rfl

end Cert.KernelIdeal.Products

end
-- ==== Proof.Spec.lean ====
/-
  The function both programs compute, written once over plain finite index types.

  A batch of 1048576 rows of 8 features is normalised feature by feature with the batch mean and the (biased)
  batch variance, scaled and shifted, and each normalised row is sent through six dense layers with a hyperbolic
  tangent, a residual branch with a rectifier, and a one-output layer with the logistic function.

  The same chain is also written for SIXTEEN rows laid side by side in one long row ("folded"): a row of
  16·d entries holds feature f of the j-th of the sixteen rows at position j·d + f, the weights are the
  block-diagonal matrices with sixteen copies of W on the diagonal, and the biases are repeated sixteen times.
  Entry s of the folded chain's sixteen outputs is the plain chain of the s-th row.
-/
import Mathlib
import Idealize.ShloMosaic.PureOps.Ideal
import Idealize.ShloMosaic.PureOps.Ideal.Laws

noncomputable section

namespace Cert.Spec

open Idealize.ShloMosaic

/-- The word of zero. -/
def zero : EReal := Ideal.ofBits .f32 0x00000000#32
/-- The batch size 1048576 = 2^20 as a float word. -/
def cnt : EReal := Ideal.ofBits .f32 0x49800000#32
/-- The variance offset: the float nearest 1e-5. -/
def eps : EReal := Ideal.ofBits .f32 0x3727C5AC#32

theorem zero_eq : zero = 0 := Ideal.ofBits_zero_f32

/-- A dense layer before its activation: the row `h` against column `g` of `W`, plus the bias. -/
def lin {a b : ℕ} (W : Fin a → Fin b → EReal) (c : Fin b → EReal) (h : Fin a → EReal) (g : Fin b) : EReal :=
  (∑ f : Fin a, h f * W f g) + c g

/-- The weights and biases of the eight layers. -/
structure Weights where
  Wfm : Fin 8 → Fin 16 → EReal
  bfm : Fin 16 → EReal
  Wc1 : Fin 16 → Fin 16 → EReal
  bc1 : Fin 16 → EReal
  Wp1 : Fin 16 → Fin 12 → EReal
  bp1 : Fin 12 → EReal
  Wc2 : Fin 12 → Fin 8 → EReal
  bc2 : Fin 8 → EReal
  Wp2 : Fin 8 → Fin 4 → EReal
  bp2 : Fin 4 → EReal
  Wc3 : Fin 4 → Fin 4 → EReal
  bc3 : Fin 4 → EReal
  Wr : Fin 4 → Fin 4 → EReal
  br : Fin 4 → EReal
  Wh : Fin 4 → Fin 1 → EReal
  bh : Fin 1 → EReal

/-- The chain after normalisation, for one row. -/
def head (P : Weights) (h0 : Fin 8 → EReal) : EReal :=
  let h1 : Fin 16 → EReal := fun g => Ideal.tanh (lin P.Wfm P.bfm h0 g)
  let h2 : Fin 16 → EReal := fun g => Ideal.tanh (lin P.Wc1 P.bc1 h1 g)
  let h3 : Fin 12 → EReal := fun g => Ideal.tanh (lin P.Wp1 P.bp1 h2 g)
  let h4 : Fin 8 → EReal := fun g => Ideal.tanh (lin P.Wc2 P.bc2 h3 g)
  let h5 : Fin 4 → EReal := fun g => Ideal.tanh (lin P.Wp2 P.bp2 h4 g)
  let h6 : Fin 4 → EReal := fun g => Ideal.tanh (lin P.Wc3 P.bc3 h5 g)
  let h7 : Fin 4 → EReal := fun g => h6 g + max (lin P.Wr P.br h6 g) zero
  Ideal.logistic (lin P.Wh P.bh h7 0)

/-- Normalisation of one row, feature `f`: centred, divided by the root of variance plus offset, scaled, shifted. -/
def bn (mu va ga be x : Fin 8 → EReal) (f : Fin 8) : EReal :=
  (x f - mu f) * Ideal.rsqrt (va f + eps) * ga f + be f

/-- The batch mean of feature `f`. -/
def mean (X : Fin 1048576 → Fin 8 → EReal) (f : Fin 8) : EReal :=
  Ideal.div (zero + ∑ n : Fin 1048576, X n f) cnt

/-- The batch variance as the mean of the squared deviations from the mean. -/
def varDev (X : Fin 1048576 → Fin 8 → EReal) (f : Fin 8) : EReal :=
  Ideal.div (zero + ∑ n : Fin 1048576, (X n f - mean X f) * (X n f - mean X f)) cnt

/-- The batch variance as the mean of the squares minus the square of the mean. -/
def varSq (X : Fin 1048576 → Fin 8 → EReal) (f : Fin 8) : EReal :=
  Ideal.div (zero + ∑ n : Fin 1048576, X n f * X n f) cnt - mean X f * mean X f

/-- The result for row `n`. -/
def out (P : Weights) (ga be : Fin 8 → EReal) (X : Fin 1048576 → Fin 8 → EReal) (n : Fin 1048576) : EReal :=
  head P (bn (mean X) (varDev X) ga be (X n))

/-! ## Sixteen rows side by side -/

/-- The weights and biases of the eight layers for sixteen rows side by side. -/
structure FoldedWeights where
  Wfm : Fin 128 → Fin 256 → EReal
  bfm : Fin 256 → EReal
  Wc1 : Fin 256 → Fin 256 → EReal
  bc1 : Fin 256 → EReal
  Wp1 : Fin 256 → Fin 192 → EReal
  bp1 : Fin 192 → EReal
  Wc2 : Fin 192 → Fin 128 → EReal
  bc2 : Fin 128 → EReal
  Wp2 : Fin 128 → Fin 64 → EReal
  bp2 : Fin 64 → EReal
  Wc3 : Fin 64 → Fin 64 → EReal
  bc3 : Fin 64 → EReal
  Wr : Fin 64 → Fin 64 → EReal
  br : Fin 64 → EReal
  Wh : Fin 64 → Fin 16 → EReal
  bh : Fin 16 → EReal

/-- The chain after normalisation, for sixteen rows side by side; output `s` belongs to the `s`-th row. -/
def headF (Q : FoldedWeights) (H0 : Fin 128 → EReal) (s : Fin 16) : EReal :=
  let h1 : Fin 256 → EReal := fun g => Ideal.tanh (lin Q.Wfm Q.bfm H0 g)
  let h2 : Fin 256 → EReal := fun g => Ideal.tanh (lin Q.Wc1 Q.bc1 h1 g)
  let h3 : Fin 192 → EReal := fun g => Ideal.tanh (lin Q.Wp1 Q.bp1 h2 g)
  let h4 : Fin 128 → EReal := fun g => Ideal.tanh (lin Q.Wc2 Q.bc2 h3 g)
  let h5 : Fin 64 → EReal := fun g => Ideal.tanh (lin Q.Wp2 Q.bp2 h4 g)
  let h6 : Fin 64 → EReal := fun g => Ideal.tanh (lin Q.Wc3 Q.bc3 h5 g)
  let h7 : Fin 64 → EReal := fun g => h6 g + max (lin Q.Wr Q.br h6 g) zero
  Ideal.logistic (lin Q.Wh Q.bh h7 s)

/-- `Wf` is the block-diagonal matrix with sixteen copies of `W`: entry (a, b) is `W (a % din) (b % dout)` on the
    diagonal blocks (`a / din = b / dout`), and the product of the zero of the unit matrix with it elsewhere. -/
def IsBlockDiag {din dout Nin Nout : ℕ} (W : Fin din → Fin dout → EReal) (Wf : Fin Nin → Fin Nout → EReal) : Prop :=
  ∀ (a : Fin Nin) (b : Fin Nout) (ha : a.val % din < din) (hb : b.val % dout < dout),
    Wf a b = (if a.val / din = b.val / dout then (1 : EReal) else 0) * W ⟨a.val % din, ha⟩ ⟨b.val % dout, hb⟩

/-- `cf` is `c` repeated: entry `b` is `c (b % dout)`. -/
def IsTiled {dout Nout : ℕ} (c : Fin dout → EReal) (cf : Fin Nout → EReal) : Prop :=
  ∀ (b : Fin Nout) (hb : b.val % dout < dout), cf b = c ⟨b.val % dout, hb⟩

/-- `Q` is `P` laid out for sixteen rows side by side. -/
structure IsFolded (P : Weights) (Q : FoldedWeights) : Prop where
  Wfm : IsBlockDiag P.Wfm Q.Wfm
  bfm : IsTiled P.bfm Q.bfm
  Wc1 : IsBlockDiag P.Wc1 Q.Wc1
  bc1 : IsTiled P.bc1 Q.bc1
  Wp1 : IsBlockDiag P.Wp1 Q.Wp1
  bp1 : IsTiled P.bp1 Q.bp1
  Wc2 : IsBlockDiag P.Wc2 Q.Wc2
  bc2 : IsTiled P.bc2 Q.bc2
  Wp2 : IsBlockDiag P.Wp2 Q.Wp2
  bp2 : IsTiled P.bp2 Q.bp2
  Wc3 : IsBlockDiag P.Wc3 Q.Wc3
  bc3 : IsTiled P.bc3 Q.bc3
  Wr : IsBlockDiag P.Wr Q.Wr
  br : IsTiled P.br Q.br
  Wh : IsBlockDiag P.Wh Q.Wh
  bh : IsTiled P.bh Q.bh

end Cert.Spec

end
-- ==== Proof.KPayload.lean ====
/-
  What the main kernel body leaves in its output block, read at an entry.

  The body normalises its block of 4096 long rows (sixteen batch rows side by side in each) with the tiled mean,
  variance, scale and shift, and sends it through the eight layers against the block-diagonal weights: entry (r, s)
  of the [4096, 16] output block is output s of the side-by-side chain applied to long row r.
-/
import proofs.«112536_j65481071403406_2_alg».proof.Proof.Gen.KernelIdeal.Frame
import proofs.«112536_j65481071403406_2_alg».proof.Proof.KMatmul
import proofs.«112536_j65481071403406_2_alg».proof.Proof.Spec
import Idealize.ShloMosaic.Lib.Pipeline.Value
import Idealize.ShloMosaic.Lib.ValueLayout
import Idealize.ShloMosaic.Lib.ValueIdx

noncomputable section

namespace Cert.KernelIdeal.MainBody

open Cert.KernelIdeal Cert.KernelIdeal.Gen Cert.KernelIdeal.Products
open Idealize.ShloMosaic Idealize.ShloMosaic.ValueIdx

theorem hz : (![0, 0] : Fin 2 → Nat) = fun _ => 0 := funext fun a => by fin_cases a <;> rfl

/-- The folded weights and biases as the body's blocks hold them. -/
def foldedOf (x5 : Vec Ideal S128x256 .f32) (x6 : Vec Ideal S1x256 .f32) (x7 : Vec Ideal S256x256 .f32) (x8 : Vec Ideal S1x256 .f32) (x9 : Vec Ideal S256x192 .f32) (x10 : Vec Ideal S1x192 .f32) (x11 : Vec Ideal S192x128 .f32) (x12 : Vec Ideal S1x128 .f32) (x13 : Vec Ideal S128x64 .f32) (x14 : Vec Ideal S1x64 .f32) (x15 : Vec Ideal S64x64 .f32) (x16 : Vec Ideal S1x64 .f32) (x17 : Vec Ideal S64x64 .f32) (x18 : Vec Ideal S1x64 .f32) (x19 : Vec Ideal S64x16 .f32) (x20 : Vec Ideal S1x16 .f32) : Cert.Spec.FoldedWeights :=
  { Wfm := fun a b => x5 (ix2 a b), bfm := fun b => x6 (ix2 (0 : Fin 1) b)
    Wc1 := fun a b => x7 (ix2 a b), bc1 := fun b => x8 (ix2 (0 : Fin 1) b)
    Wp1 := fun a b => x9 (ix2 a b), bp1 := fun b => x10 (ix2 (0 : Fin 1) b)
    Wc2 := fun a b => x11 (ix2 a b), bc2 := fun b => x12 (ix2 (0 : Fin 1) b)
    Wp2 := fun a b => x13 (ix2 a b), bp2 := fun b => x14 (ix2 (0 : Fin 1) b)
    Wc3 := fun a b => x15 (ix2 a b), bc3 := fun b => x16 (ix2 (0 : Fin 1) b)
    Wr := fun a b => x17 (ix2 a b), br := fun b => x18 (ix2 (0 : Fin 1) b)
    Wh := fun a b => x19 (ix2 a b), bh := fun b => x20 (ix2 (0 : Fin 1) b) }

/-- Long row r of the block, normalised: entry l is centred by the tiled mean, divided by the root of the tiled
    variance plus the offset, scaled and shifted. -/
def normRow (x0 : Vec Ideal S4096x128 .f32) (x1 x2 x3 x4 : Vec Ideal S1x128 .f32) (r : Fin 4096) (l : Fin 128) : EReal :=
  (x0 (ix2 r l) - x1 (ix2 (0 : Fin 1) l)) * Ideal.rsqrt (x2 (ix2 (0 : Fin 1) l) + Cert.Spec.eps) * x3 (ix2 (0 : Fin 1) l)
    + x4 (ix2 (0 : Fin 1) l)

section Pointwise
variable {s : Shape} {φ : FTy}
theorem tanh_apply (a : FVec Ideal s φ) (i : s.Idx) : tanh a i = Ideal.tanh (a i) := rfl
theorem rsqrt_apply (a : FVec Ideal s φ) (i : s.Idx) : rsqrt a i = Ideal.rsqrt (a i) := rfl
theorem logistic_apply (a : FVec Ideal s φ) (i : s.Idx) : logistic a i = Ideal.logistic (a i) := rfl
end Pointwise

/-- Entry (r, s) of the output block is output s of the side-by-side chain of long row r. -/
theorem out_apply (x0 : Vec Ideal S4096x128 .f32) (x1 x2 x3 x4 : Vec Ideal S1x128 .f32) (x5 : Vec Ideal S128x256 .f32) (x6 : Vec Ideal S1x256 .f32) (x7 : Vec Ideal S256x256 .f32) (x8 : Vec Ideal S1x256 .f32) (x9 : Vec Ideal S256x192 .f32) (x10 : Vec Ideal S1x192 .f32) (x11 : Vec Ideal S192x128 .f32) (x12 : Vec Ideal S1x128 .f32) (x13 : Vec Ideal S128x64 .f32) (x14 : Vec Ideal S1x64 .f32) (x15 : Vec Ideal S64x64 .f32) (x16 : Vec Ideal S1x64 .f32) (x17 : Vec Ideal S64x64 .f32) (x18 : Vec Ideal S1x64 .f32) (x19 : Vec Ideal S64x16 .f32) (x20 : Vec Ideal S1x16 .f32) (r : Fin 4096) (s : Fin 16) :
    out1_21 (F := Ideal) x0 x1 x2 x3 x4 x5 x6 x7 x8 x9 x10 x11 x12 x13 x14 x15 x16 x17 x18 x19 x20 (ix2 r s)
      = Cert.Spec.headF (foldedOf x5 x6 x7 x8 x9 x10 x11 x12 x13 x14 x15 x16 x17 x18 x19 x20) (normRow x0 x1 x2 x3 x4 r) s := by
  unfold out1_21
  rw [View.canon_unit_zero hz]
  simp only [View.ld_unit_zero (S := S4096x128) hz, View.ld_unit_zero (S := S1x128) hz, View.ld_unit_zero (S := S128x256) hz,
    View.ld_unit_zero (S := S1x256) hz, View.ld_unit_zero (S := S256x256) hz, View.ld_unit_zero (S := S256x192) hz,
    View.ld_unit_zero (S := S1x192) hz, View.ld_unit_zero (S := S192x128) hz, View.ld_unit_zero (S := S128x64) hz,
    View.ld_unit_zero (S := S1x64) hz, View.ld_unit_zero (S := S64x64) hz, View.ld_unit_zero (S := S64x16) hz,
    View.ld_unit_zero (S := S1x16) hz]
  unfold k1_pay1 k1_pay4 k1_pay2 k1_pay3 k1_pay5
  simp only [shapeCast_self, logistic_apply, tanh_apply, rsqrt_apply, addf_apply, mulf_apply, subf_apply, maximumf_apply,
    truncf_apply, broadcast_apply, broadcastTo_1b_ab_apply,
    mm_128_256, mm_256_256, mm_256_192, mm_192_128, mm_128_64, mm_64_64, mm_64_16]
  rfl

end Cert.KernelIdeal.MainBody

end
-- ==== Proof.KFinal1.lean ====
/-
  The main region's result array.

  Point t of the grid of sixteen stages long rows 4096·t … 4096·t + 4095 of the folded input and the whole of every
  other operand (their block index never moves), and writes back rows 4096·t … of the [65536, 16] result. So every
  block written back is the same whole-array function read through the block: entry (R, s) is output s of the
  side-by-side chain of long row R, normalised with the tiled statistics; the sixteen blocks tile the array.
-/
import proofs.«112536_j65481071403406_2_alg».proof.Proof.Gen.KernelIdeal.Frame
import proofs.«112536_j65481071403406_2_alg».proof.Proof.KPayload
import Idealize.ShloMosaic.Lib.Pipeline.Value
import Idealize.ShloMosaic.Lib.ValueIdx

set_option maxRecDepth 16384

noncomputable section

namespace Cert.KernelIdeal.MainRegion

open Cert.KernelIdeal Cert.KernelIdeal.Gen Cert.KernelIdeal.MainBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The folded weights and biases as the region finds them. -/
def Q : Cert.Spec.FoldedWeights :=
  foldedOf (V c main_v34 : Vec Ideal S128x256 .f32) (V c main_v38 : Vec Ideal S1x256 .f32) (V c main_v45 : Vec Ideal S256x256 .f32) (V c main_v49 : Vec Ideal S1x256 .f32) (V c main_v56 : Vec Ideal S256x192 .f32) (V c main_v60 : Vec Ideal S1x192 .f32) (V c main_v67 : Vec Ideal S192x128 .f32) (V c main_v71 : Vec Ideal S1x128 .f32) (V c main_v78 : Vec Ideal S128x64 .f32) (V c main_v82 : Vec Ideal S1x64 .f32) (V c main_v89 : Vec Ideal S64x64 .f32) (V c main_v93 : Vec Ideal S1x64 .f32) (V c main_v100 : Vec Ideal S64x64 .f32) (V c main_v104 : Vec Ideal S1x64 .f32) (V c main_v111 : Vec Ideal S64x16 .f32) (V c main_v115 : Vec Ideal S1x16 .f32)

/-- A long row normalised with tiled statistics, scale and shift, over arrays of the region's shapes. -/
def rowNOf (A0 : Vec Ideal S65536x128 .f32) (a1 a2 a3 a4 : Vec Ideal S1x128 .f32) (R : Fin 65536) (l : Fin 128) : EReal :=
  (A0 (ix2 R l) - a1 (ix2 (0 : Fin 1) l)) * Ideal.rsqrt (a2 (ix2 (0 : Fin 1) l) + Cert.Spec.eps) * a3 (ix2 (0 : Fin 1) l)
    + a4 (ix2 (0 : Fin 1) l)

/-- Long row R of the folded input, normalised with the tiled statistics, scale and shift as the region finds them. -/
def rowN (R : Fin 65536) (l : Fin 128) : EReal :=
  rowNOf (V c main_v0) (V c main_v15) (V c main_v19) (V c main_v23) (V c main_v27) R l

/-- The whole result array: entry (R, s) is output s of the side-by-side chain of long row R. -/
def G : Vec Ideal S65536x16 .f32 := fun i => Cert.Spec.headF (Q V c) (rowN V c (i 0)) (i 1)

/-- The windows' index maps over the grid: the input rows and the output rows move with the point; every other
    operand stays at block (0, 0). -/
theorem idx_facts : ∀ t : Fin cfg1.N, win1_0.index t (0 : Fin 2) = t.val
    ∧ win1_0.index t (1 : Fin 2) = 0
    ∧ win1_21.index t (0 : Fin 2) = t.val
    ∧ win1_21.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = 0
    ∧ win1_13.index t (1 : Fin 2) = 0
    ∧ win1_14.index t (0 : Fin 2) = 0
    ∧ win1_14.index t (1 : Fin 2) = 0
    ∧ win1_15.index t (0 : Fin 2) = 0
    ∧ win1_15.index t (1 : Fin 2) = 0
    ∧ win1_16.index t (0 : Fin 2) = 0
    ∧ win1_16.index t (1 : Fin 2) = 0
    ∧ win1_17.index t (0 : Fin 2) = 0
    ∧ win1_17.index t (1 : Fin 2) = 0
    ∧ win1_18.index t (0 : Fin 2) = 0
    ∧ win1_18.index t (1 : Fin 2) = 0
    ∧ win1_19.index t (0 : Fin 2) = 0
    ∧ win1_19.index t (1 : Fin 2) = 0
    ∧ win1_20.index t (0 : Fin 2) = 0
    ∧ win1_20.index t (1 : Fin 2) = 0 :=
  (by decide +kernel : ∀ t : Fin grid1.N, _)

/-- Operand 1's block at any point is its whole array. -/
theorem blk_1 (t : Fin cfg1.N) : (iblk1 V c 1 t : Vec Ideal S1x128 .f32) = (V c main_v15 : Vec Ideal S1x128 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v15 (((cfg1.win 1).blk t).view.emb y) = V c main_v15 y
  refine congrArg _ (funext fun ax => Fin.ext ?_)
  match ax with
  | ⟨0, _⟩ => show win1_1.index t (0 : Fin 2) * 1 + 1 * (y 0).val = (y 0).val; omega
  | ⟨1, _⟩ => show win1_1.index t (1 : Fin 2) * 128 + 1 * (y 1).val = (y 1).val; omega

/-- Operand 2's block at any point is its whole array. -/
theorem blk_2 (t : Fin cfg1.N) : (iblk1 V c 2 t : Vec Ideal S1x128 .f32) = (V c main_v19 : Vec Ideal S1x128 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v19 (((cfg1.win 2).blk t).view.emb y) = V c main_v19 y
  refine congrArg _ (funext fun ax => Fin.ext ?_)
  match ax with
  | ⟨0, _⟩ => show win1_2.index t (0 : Fin 2) * 1 + 1 * (y 0).val = (y 0).val; omega
  | ⟨1, _⟩ => show win1_2.index t (1 : Fin 2) * 128 + 1 * (y 1).val = (y 1).val; omega

/-- Operand 3's block at any point is its whole array. -/
theorem blk_3 (t : Fin cfg1.N) : (iblk1 V c 3 t : Vec Ideal S1x128 .f32) = (V c main_v23 : Vec Ideal S1x128 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v23 (((cfg1.win 3).blk t).view.emb y) = V c main_v23 y
  refine congrArg _ (funext fun ax => Fin.ext ?_)
  match ax with
  | ⟨0, _⟩ => show win1_3.index t (0 : Fin 2) * 1 + 1 * (y 0).val = (y 0).val; omega
  | ⟨1, _⟩ => show win1_3.index t (1 : Fin 2) * 128 + 1 * (y 1).val = (y 1).val; omega

/-- Operand 4's block at any point is its whole array. -/
theorem blk_4 (t : Fin cfg1.N) : (iblk1 V c 4 t : Vec Ideal S1x128 .f32) = (V c main_v27 : Vec Ideal S1x128 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v27 (((cfg1.win 4).blk t).view.emb y) = V c main_v27 y
  refine congrArg _ (funext fun ax => Fin.ext ?_)
  match ax with
  | ⟨0, _⟩ => show win1_4.index t (0 : Fin 2) * 1 + 1 * (y 0).val = (y 0).val; omega
  | ⟨1, _⟩ => show win1_4.index t (1 : Fin 2) * 128 + 1 * (y 1).val = (y 1).val; omega

/-- Operand 5's block at any point is its whole array. -/
theorem blk_5 (t : Fin cfg1.N) : (iblk1 V c 5 t : Vec Ideal S128x256 .f32) = (V c main_v34 : Vec Ideal S128x256 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v34 (((cfg1.win 5).blk t).view.emb y) = V c main_v34 y
  refine congrArg _ (funext fun ax => Fin.ext ?_)
  match ax with
  | ⟨0, _⟩ => show win1_5.index t (0 : Fin 2) * 128 + 1 * (y 0).val = (y 0).val; omega
  | ⟨1, _⟩ => show win1_5.index t (1 : Fin 2) * 256 + 1 * (y 1).val = (y 1).val; omega

/-- Operand 6's block at any point is its whole array. -/
theorem blk_6 (t : Fin cfg1.N) : (iblk1 V c 6 t : Vec Ideal S1x256 .f32) = (V c main_v38 : Vec Ideal S1x256 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v38 (((cfg1.win 6).blk t).view.emb y) = V c main_v38 y
  refine congrArg _ (funext fun ax => Fin.ext ?_)
  match ax with
  | ⟨0, _⟩ => show win1_6.index t (0 : Fin 2) * 1 + 1 * (y 0).val = (y 0).val; omega
  | ⟨1, _⟩ => show win1_6.index t (1 : Fin 2) * 256 + 1 * (y 1).val = (y 1).val; omega

/-- Operand 7's block at any point is its whole array. -/
theorem blk_7 (t : Fin cfg1.N) : (iblk1 V c 7 t : Vec Ideal S256x256 .f32) = (V c main_v45 : Vec Ideal S256x256 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v45 (((cfg1.win 7).blk t).view.emb y) = V c main_v45 y
  refine congrArg _ (funext fun ax => Fin.ext ?_)
  match ax with
  | ⟨0, _⟩ => show win1_7.index t (0 : Fin 2) * 256 + 1 * (y 0).val = (y 0).val; omega
  | ⟨1, _⟩ => show win1_7.index t (1 : Fin 2) * 256 + 1 * (y 1).val = (y 1).val; omega

/-- Operand 8's block at any point is its whole array. -/
theorem blk_8 (t : Fin cfg1.N) : (iblk1 V c 8 t : Vec Ideal S1x256 .f32) = (V c main_v49 : Vec Ideal S1x256 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v49 (((cfg1.win 8).blk t).view.emb y) = V c main_v49 y
  refine congrArg _ (funext fun ax => Fin.ext ?_)
  match ax with
  | ⟨0, _⟩ => show win1_8.index t (0 : Fin 2) * 1 + 1 * (y 0).val = (y 0).val; omega
  | ⟨1, _⟩ => show win1_8.index t (1 : Fin 2) * 256 + 1 * (y 1).val = (y 1).val; omega

/-- Operand 9's block at any point is its whole array. -/
theorem blk_9 (t : Fin cfg1.N) : (iblk1 V c 9 t : Vec Ideal S256x192 .f32) = (V c main_v56 : Vec Ideal S256x192 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v56 (((cfg1.win 9).blk t).view.emb y) = V c main_v56 y
  refine congrArg _ (funext fun ax => Fin.ext ?_)
  match ax with
  | ⟨0, _⟩ => show win1_9.index t (0 : Fin 2) * 256 + 1 * (y 0).val = (y 0).val; omega
  | ⟨1, _⟩ => show win1_9.index t (1 : Fin 2) * 192 + 1 * (y 1).val = (y 1).val; omega

/-- Operand 10's block at any point is its whole array. -/
theorem blk_10 (t : Fin cfg1.N) : (iblk1 V c 10 t : Vec Ideal S1x192 .f32) = (V c main_v60 : Vec Ideal S1x192 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v60 (((cfg1.win 10).blk t).view.emb y) = V c main_v60 y
  refine congrArg _ (funext fun ax => Fin.ext ?_)
  match ax with
  | ⟨0, _⟩ => show win1_10.index t (0 : Fin 2) * 1 + 1 * (y 0).val = (y 0).val; omega
  | ⟨1, _⟩ => show win1_10.index t (1 : Fin 2) * 192 + 1 * (y 1).val = (y 1).val; omega

/-- Operand 11's block at any point is its whole array. -/
theorem blk_11 (t : Fin cfg1.N) : (iblk1 V c 11 t : Vec Ideal S192x128 .f32) = (V c main_v67 : Vec Ideal S192x128 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v67 (((cfg1.win 11).blk t).view.emb y) = V c main_v67 y
  refine congrArg _ (funext fun ax => Fin.ext ?_)
  match ax with
  | ⟨0, _⟩ => show win1_11.index t (0 : Fin 2) * 192 + 1 * (y 0).val = (y 0).val; omega
  | ⟨1, _⟩ => show win1_11.index t (1 : Fin 2) * 128 + 1 * (y 1).val = (y 1).val; omega

/-- Operand 12's block at any point is its whole array. -/
theorem blk_12 (t : Fin cfg1.N) : (iblk1 V c 12 t : Vec Ideal S1x128 .f32) = (V c main_v71 : Vec Ideal S1x128 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v71 (((cfg1.win 12).blk t).view.emb y) = V c main_v71 y
  refine congrArg _ (funext fun ax => Fin.ext ?_)
  match ax with
  | ⟨0, _⟩ => show win1_12.index t (0 : Fin 2) * 1 + 1 * (y 0).val = (y 0).val; omega
  | ⟨1, _⟩ => show win1_12.index t (1 : Fin 2) * 128 + 1 * (y 1).val = (y 1).val; omega

/-- Operand 13's block at any point is its whole array. -/
theorem blk_13 (t : Fin cfg1.N) : (iblk1 V c 13 t : Vec Ideal S128x64 .f32) = (V c main_v78 : Vec Ideal S128x64 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v78 (((cfg1.win 13).blk t).view.emb y) = V c main_v78 y
  refine congrArg _ (funext fun ax => Fin.ext ?_)
  match ax with
  | ⟨0, _⟩ => show win1_13.index t (0 : Fin 2) * 128 + 1 * (y 0).val = (y 0).val; omega
  | ⟨1, _⟩ => show win1_13.index t (1 : Fin 2) * 64 + 1 * (y 1).val = (y 1).val; omega

/-- Operand 14's block at any point is its whole array. -/
theorem blk_14 (t : Fin cfg1.N) : (iblk1 V c 14 t : Vec Ideal S1x64 .f32) = (V c main_v82 : Vec Ideal S1x64 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v82 (((cfg1.win 14).blk t).view.emb y) = V c main_v82 y
  refine congrArg _ (funext fun ax => Fin.ext ?_)
  match ax with
  | ⟨0, _⟩ => show win1_14.index t (0 : Fin 2) * 1 + 1 * (y 0).val = (y 0).val; omega
  | ⟨1, _⟩ => show win1_14.index t (1 : Fin 2) * 64 + 1 * (y 1).val = (y 1).val; omega

/-- Operand 15's block at any point is its whole array. -/
theorem blk_15 (t : Fin cfg1.N) : (iblk1 V c 15 t : Vec Ideal S64x64 .f32) = (V c main_v89 : Vec Ideal S64x64 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v89 (((cfg1.win 15).blk t).view.emb y) = V c main_v89 y
  refine congrArg _ (funext fun ax => Fin.ext ?_)
  match ax with
  | ⟨0, _⟩ => show win1_15.index t (0 : Fin 2) * 64 + 1 * (y 0).val = (y 0).val; omega
  | ⟨1, _⟩ => show win1_15.index t (1 : Fin 2) * 64 + 1 * (y 1).val = (y 1).val; omega

/-- Operand 16's block at any point is its whole array. -/
theorem blk_16 (t : Fin cfg1.N) : (iblk1 V c 16 t : Vec Ideal S1x64 .f32) = (V c main_v93 : Vec Ideal S1x64 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v93 (((cfg1.win 16).blk t).view.emb y) = V c main_v93 y
  refine congrArg _ (funext fun ax => Fin.ext ?_)
  match ax with
  | ⟨0, _⟩ => show win1_16.index t (0 : Fin 2) * 1 + 1 * (y 0).val = (y 0).val; omega
  | ⟨1, _⟩ => show win1_16.index t (1 : Fin 2) * 64 + 1 * (y 1).val = (y 1).val; omega

/-- Operand 17's block at any point is its whole array. -/
theorem blk_17 (t : Fin cfg1.N) : (iblk1 V c 17 t : Vec Ideal S64x64 .f32) = (V c main_v100 : Vec Ideal S64x64 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v100 (((cfg1.win 17).blk t).view.emb y) = V c main_v100 y
  refine congrArg _ (funext fun ax => Fin.ext ?_)
  match ax with
  | ⟨0, _⟩ => show win1_17.index t (0 : Fin 2) * 64 + 1 * (y 0).val = (y 0).val; omega
  | ⟨1, _⟩ => show win1_17.index t (1 : Fin 2) * 64 + 1 * (y 1).val = (y 1).val; omega

/-- Operand 18's block at any point is its whole array. -/
theorem blk_18 (t : Fin cfg1.N) : (iblk1 V c 18 t : Vec Ideal S1x64 .f32) = (V c main_v104 : Vec Ideal S1x64 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v104 (((cfg1.win 18).blk t).view.emb y) = V c main_v104 y
  refine congrArg _ (funext fun ax => Fin.ext ?_)
  match ax with
  | ⟨0, _⟩ => show win1_18.index t (0 : Fin 2) * 1 + 1 * (y 0).val = (y 0).val; omega
  | ⟨1, _⟩ => show win1_18.index t (1 : Fin 2) * 64 + 1 * (y 1).val = (y 1).val; omega

/-- Operand 19's block at any point is its whole array. -/
theorem blk_19 (t : Fin cfg1.N) : (iblk1 V c 19 t : Vec Ideal S64x16 .f32) = (V c main_v111 : Vec Ideal S64x16 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v111 (((cfg1.win 19).blk t).view.emb y) = V c main_v111 y
  refine congrArg _ (funext fun ax => Fin.ext ?_)
  match ax with
  | ⟨0, _⟩ => show win1_19.index t (0 : Fin 2) * 64 + 1 * (y 0).val = (y 0).val; omega
  | ⟨1, _⟩ => show win1_19.index t (1 : Fin 2) * 16 + 1 * (y 1).val = (y 1).val; omega

/-- Operand 20's block at any point is its whole array. -/
theorem blk_20 (t : Fin cfg1.N) : (iblk1 V c 20 t : Vec Ideal S1x16 .f32) = (V c main_v115 : Vec Ideal S1x16 .f32) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext y
  unfold iblk1
  rw [View.read_apply]
  show V c main_v115 (((cfg1.win 20).blk t).view.emb y) = V c main_v115 y
  refine congrArg _ (funext fun ax => Fin.ext ?_)
  match ax with
  | ⟨0, _⟩ => show win1_20.index t (0 : Fin 2) * 1 + 1 * (y 0).val = (y 0).val; omega
  | ⟨1, _⟩ => show win1_20.index t (1 : Fin 2) * 16 + 1 * (y 1).val = (y 1).val; omega

/-- The input's block at point t, at (r, l), is the folded input at long row 4096·t + r. -/
theorem blk_0 (t : Fin cfg1.N) (r : Fin 4096) (l : Fin 128) (h : t.val * 4096 + r.val < 65536) :
    (iblk1 V c 0 t : Vec Ideal S4096x128 .f32) (ix2 r l) = (V c main_v0 : Vec Ideal S65536x128 .f32) (ix2 ⟨t.val * 4096 + r.val, h⟩ l) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  unfold iblk1
  rw [View.read_apply]
  show V c main_v0 (((cfg1.win 0).blk t).view.emb (ix2 r l)) = V c main_v0 (ix2 ⟨t.val * 4096 + r.val, h⟩ l)
  refine congrArg _ (funext fun ax => Fin.ext ?_)
  match ax with
  | ⟨0, _⟩ => show win1_0.index t (0 : Fin 2) * 4096 + 1 * r.val = t.val * 4096 + r.val; omega
  | ⟨1, _⟩ => show win1_0.index t (1 : Fin 2) * 128 + 1 * l.val = l.val; omega

/-- Where entry (r, s) of the output's block at point t sits in the result array. -/
theorem emb_out (t : Fin cfg1.N) (r : Fin 4096) (s : Fin 16) (h : t.val * 4096 + r.val < 65536) :
    ((cfg1.win 21).blk t).view.emb (ix2 r s) = (ix2 ⟨t.val * 4096 + r.val, h⟩ s : S65536x16.Idx) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  funext ax
  apply Fin.ext
  match ax with
  | ⟨0, _⟩ => show win1_21.index t (0 : Fin 2) * 4096 + 1 * r.val = t.val * 4096 + r.val; omega
  | ⟨1, _⟩ => show win1_21.index t (1 : Fin 2) * 16 + 1 * s.val = s.val; omega

/-- What point t writes back is block t of the whole-array function. -/
theorem flushed_eq (t : Fin cfg1.N) :
    (dat1 V c).flushed 21 t = ((cfg1.win 21).blk t).view.read (Elt Ideal) (G V c) := by
  have hN : cfg1.N = 16 := N_1
  show (cfg1.win 21).cut (grid1.coords t) ((dat1 V c).after 21 t) = _
  rw [after1_21]
  funext y
  obtain ⟨r, s, rfl⟩ : ∃ (r : Fin 4096) (s : Fin 16), y = ix2 r s := ⟨y 0, y 1, eq_ix2 y⟩
  have ht : t.val * 4096 + r.val < 65536 := by have := t.isLt; have := r.isLt; omega
  show out1_21 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (ix2 r s) = G V c (((cfg1.win 21).blk t).view.emb (ix2 r s))
  rw [emb_out t r s ht]
  refine (out_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) r s).trans ?_
  rw [blk_1 V c t, blk_2 V c t, blk_3 V c t, blk_4 V c t, blk_5 V c t, blk_6 V c t, blk_7 V c t, blk_8 V c t, blk_9 V c t, blk_10 V c t, blk_11 V c t, blk_12 V c t, blk_13 V c t, blk_14 V c t, blk_15 V c t, blk_16 V c t, blk_17 V c t, blk_18 V c t, blk_19 V c t, blk_20 V c t]
  show Cert.Spec.headF (Q V c) _ s = Cert.Spec.headF (Q V c) (rowN V c ⟨t.val * 4096 + r.val, ht⟩) s
  refine congrArg (fun H => Cert.Spec.headF (Q V c) H s) (funext fun l => ?_)
  unfold normRow rowN rowNOf
  rw [blk_0 V c t r l ht]

/-- An index of the result array is in point t's block iff its row is among the block's 4096 rows. -/
theorem mem_blk (t : Fin cfg1.N) (i : S65536x16.Idx) :
    i ∈ ((cfg1.win 21).blk t).view.set ↔ ∀ a : Fin 2, win1_21.index t a * S4096x16.size a ≤ (i a).val ∧ (i a).val < win1_21.index t a * S4096x16.size a + S4096x16.size a := by
  show i ∈ ((View.whole main_v116).slice (win1_21.rect t)).set ↔ _
  rw [View.set_slice_whole, Rect.mem_set_unit]
  exact Iff.rfl

/-- The sixteen blocks cover the result array: row R lies in block R / 4096. -/
theorem cover (i : S65536x16.Idx) :
    ∃ t : Fin cfg1.N, (cfg1.win 21).flush t = true ∧ i ∈ ((cfg1.win 21).blk t).view.set := by
  have hN : cfg1.N = 16 := N_1
  have hi0 : (i 0).val < 65536 := (i 0).isLt
  have hi1 : (i 1).val < 16 := (i 1).isLt
  let t : Fin cfg1.N := ⟨(i 0).val / 4096, by omega⟩
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := idx_facts t
  refine ⟨t, flush1_21 t, ?_⟩
  rw [mem_blk]
  intro a
  have tv : t.val = (i 0).val / 4096 := rfl
  match a with
  | ⟨0, _⟩ => show win1_21.index t (0 : Fin 2) * 4096 ≤ (i 0).val ∧ (i 0).val < win1_21.index t (0 : Fin 2) * 4096 + 4096; omega
  | ⟨1, _⟩ => show win1_21.index t (1 : Fin 2) * 16 ≤ (i 1).val ∧ (i 1).val < win1_21.index t (1 : Fin 2) * 16 + 16; omega

/-- The result array after the region holds the whole-array function. -/
theorem final : (dat1 V c).arrAt 21 cfg1.N = G V c :=
  (dat1 V c).arrAt_eq_of_cover 21 (G V c) (fun t _ => flushed_eq V c t) cover

end Cert.KernelIdeal.MainRegion

end
-- ==== Proof.KTail.lean ====
/-
  The kernel program's result read at a batch row.

  After the main region one reshape lays the [65536, 16] result out as [1048576, 1]: batch row n is entry
  (n / 16, n % 16), the same row-major position. So batch row n of the program's result is output n % 16 of the
  side-by-side chain of long row n / 16.
-/
import proofs.«112536_j65481071403406_2_alg».proof.Proof.Gen.KernelIdeal.Frame
import proofs.«112536_j65481071403406_2_alg».proof.Proof.KFinal1
import Idealize.ShloMosaic.Lib.Pipeline.Value
import Idealize.ShloMosaic.Lib.StableHlo.Run
import Idealize.ShloMosaic.Lib.ValueIdx

noncomputable section

namespace Cert.KernelIdeal.Tail

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- The program's result is the reshape of the main region's result array. -/
theorem result_reshape :
    (W21 m ρ c (Proc.devRef .tc main_v117) : Vec Ideal S1048576x1 .f32)
      = shapeCast S1048576x1 (W20 m ρ c (Proc.devRef .tc main_v116) : Vec Ideal S65536x16 .f32) shapeCasts_S65536x16_S1048576x1 := by
  dsimp only [W21, hostOps2]
  after_results
  rfl

/-- The main region's result array is the whole-array function of the region's entry contents. -/
theorem region_result :
    (W20 m ρ c (Proc.devRef .tc main_v116) : Vec Ideal S65536x16 .f32) = Cert.KernelIdeal.MainRegion.G (V19 m ρ) c :=
  (W20_arr m ρ c 21).trans (Cert.KernelIdeal.MainRegion.final (V19 m ρ) c)

/-- Batch row n of the result is entry (n / 16, n % 16) of the main region's result. -/
theorem result_row (n : Fin 1048576) (h1 : n.val / 16 < 65536) (h2 : n.val % 16 < 16) :
    (W21 m ρ c (Proc.devRef .tc main_v117) : Vec Ideal S1048576x1 .f32) (ix2 n (0 : Fin 1))
      = Cert.KernelIdeal.MainRegion.G (V19 m ρ) c (ix2 ⟨n.val / 16, h1⟩ ⟨n.val % 16, h2⟩) := by
  rw [result_reshape, region_result]
  refine shapeCast_apply _ _ (ix2 n (0 : Fin 1)) (ix2 ⟨n.val / 16, h1⟩ ⟨n.val % 16, h2⟩) ?_
  rw [Shape.rowMajor_val_two, Shape.rowMajor_val_two]
  show n.val / 16 * 16 + n.val % 16 = n.val * 1 + 0
  omega

end Cert.KernelIdeal.Tail

end
-- ==== Proof.MidStats.lean ====
/-
  What the main kernel reads, entry by entry, in terms of the program's arguments and of the statistics kernel's
  two results.

  The input of 1048576 rows of 8 features is viewed as 65536 rows of 128: entry (R, l) of the view is feature
  l % 8 of row 16 R + l / 8. The statistics kernel leaves two rows of 128 partial sums; read as sixteen rows of
  eight and summed down the sixteen rows they give the eight sums of the features and of their squares, hence,
  divided by the batch size, the batch means and the mean squares, and the variances as mean square minus squared
  mean. Each of the four rows of eight (means, variances, scale, shift) is then repeated sixteen times into a row
  of 128, whose entry l is entry l % 8 of the row of eight. The host operations that follow build the folded
  weights and biases and write none of these five arrays, so the main kernel finds them as described.
-/
import proofs.«112536_j65481071403406_2_alg».proof.Proof.Gen.KernelIdeal.Frame
import proofs.«112536_j65481071403406_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.MidS

open Cert.KernelIdeal Cert.KernelIdeal.Gen Idealize.ShloMosaic Idealize.ShloMosaic.TcCoe Idealize.SL.Sem ValueIdx

variable (m : (ℓ : Loc nD τ sig) → Buf (Elt Ideal) ℓ) (ρ : Dev nD → PrngReg) (c : Dev nD)

/-- The side goal "no operation of this stretch writes the buffer": the stretch's operations listed, each one's
    result buffer told apart from the buffer by deciding the inequality of the two references. -/
macro "no_write" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Walks buffer `b` back from region 1's entry through the sixteen stretches of host operations that build the
    folded weights and biases, none of which writes `b`: the goal `W19 … b = X` becomes `W3 … b = X`. -/
macro "carry_back" b:term : tactic =>
  `(tactic| (refine (StableHlo.after_of_forall_not_mem (b := Proc.devRef .tc $b) hostOps1_16 _ (by no_write hostOps1_16)).trans ?_
             refine (StableHlo.after_of_forall_not_mem (b := Proc.devRef .tc $b) hostOps1_15 _ (by no_write hostOps1_15)).trans ?_
             refine (StableHlo.after_of_forall_not_mem (b := Proc.devRef .tc $b) hostOps1_14 _ (by no_write hostOps1_14)).trans ?_
             refine (StableHlo.after_of_forall_not_mem (b := Proc.devRef .tc $b) hostOps1_13 _ (by no_write hostOps1_13)).trans ?_
             refine (StableHlo.after_of_forall_not_mem (b := Proc.devRef .tc $b) hostOps1_12 _ (by no_write hostOps1_12)).trans ?_
             refine (StableHlo.after_of_forall_not_mem (b := Proc.devRef .tc $b) hostOps1_11 _ (by no_write hostOps1_11)).trans ?_
             refine (StableHlo.after_of_forall_not_mem (b := Proc.devRef .tc $b) hostOps1_10 _ (by no_write hostOps1_10)).trans ?_
             refine (StableHlo.after_of_forall_not_mem (b := Proc.devRef .tc $b) hostOps1_9 _ (by no_write hostOps1_9)).trans ?_
             refine (StableHlo.after_of_forall_not_mem (b := Proc.devRef .tc $b) hostOps1_8 _ (by no_write hostOps1_8)).trans ?_
             refine (StableHlo.after_of_forall_not_mem (b := Proc.devRef .tc $b) hostOps1_7 _ (by no_write hostOps1_7)).trans ?_
             refine (StableHlo.after_of_forall_not_mem (b := Proc.devRef .tc $b) hostOps1_6 _ (by no_write hostOps1_6)).trans ?_
             refine (StableHlo.after_of_forall_not_mem (b := Proc.devRef .tc $b) hostOps1_5 _ (by no_write hostOps1_5)).trans ?_
             refine (StableHlo.after_of_forall_not_mem (b := Proc.devRef .tc $b) hostOps1_4 _ (by no_write hostOps1_4)).trans ?_
             refine (StableHlo.after_of_forall_not_mem (b := Proc.devRef .tc $b) hostOps1_3 _ (by no_write hostOps1_3)).trans ?_
             refine (StableHlo.after_of_forall_not_mem (b := Proc.devRef .tc $b) hostOps1_2 _ (by no_write hostOps1_2)).trans ?_
             refine (StableHlo.after_of_forall_not_mem (b := Proc.devRef .tc $b) hostOps1_1 _ (by no_write hostOps1_1)).trans ?_))

/-! ## The pure operations -/

/-- Sixteen copies of a row of eight entries laid side by side in one row of 128: entry `l` is entry `l % 8`. -/
def tile16 (v : FVec Ideal S8 .f32) : FVec Ideal S1x128 .f32 :=
  shapeCast S1x128
    (shapeCast S128
      (broadcastInDim S16x8 ![0, 1] Gen.bcast_S1x8_S16x8_0_1 (shapeCast S1x8 v Gen.shapeCasts_S8_S1x8))
      Gen.shapeCasts_S16x8_S128)
    Gen.shapeCasts_S128_S1x128

/-- A row of 128 entries read as sixteen rows of eight and summed down the sixteen rows, starting from the zero word. -/
def colSum (s : FVec Ideal S1x128 .f32) : FVec Ideal S8 .f32 :=
  Host.reduceAdd (F := Ideal) (shapeCast S16x8 s Gen.shapeCasts_S1x128_S16x8)
    (constant (F := Ideal) S_ .f32 0x00000000#32) Gen.reducesTo_S16x8_S8_d0 Gen.h_S_

/-- The batch size as a row of eight equal entries. -/
def cntVec : FVec Ideal S8 .f32 :=
  broadcastInDim S8 ![] Gen.bcast_S_S8 (constant (F := Ideal) S_ .f32 0x49800000#32)

/-- The eight batch means from the row of 128 partial sums. -/
def meanVec (s : FVec Ideal S1x128 .f32) : FVec Ideal S8 .f32 :=
  Host.divf (F := Ideal) (φ := .f32) (colSum s) cntVec

/-- The eight batch variances (mean of squares minus square of mean) from the two rows of 128 partial sums. -/
def varVec (s q : FVec Ideal S1x128 .f32) : FVec Ideal S8 .f32 :=
  subf (F := Ideal) (φ := .f32) (Host.divf (F := Ideal) (φ := .f32) (colSum q) cntVec) (mulf (F := Ideal) (φ := .f32) (meanVec s) (meanVec s))

theorem tile16_apply (v : FVec Ideal S8 .f32) (l : Fin 128) :
    tile16 v (ix2 (0 : Fin 1) l) = v (ix1 ⟨l.val % 8, by omega⟩) := by
  unfold tile16
  refine (shapeCast_a_1a_apply _ Gen.shapeCasts_S128_S1x128 (0 : Fin 1) l).trans ?_
  refine (shapeCast_apply _ Gen.shapeCasts_S16x8_S128 (ix1 l)
    (ix2 (⟨l.val / 8, by omega⟩ : Fin 16) (⟨l.val % 8, by omega⟩ : Fin 8)) ?_).trans ?_
  · rw [Shape.rowMajor_val_two, Shape.rowMajor_val_one]
    show l.val / 8 * 8 + l.val % 8 = l.val
    omega
  refine (broadcastInDim_apply _ Gen.bcast_S1x8_S16x8_0_1 _
    (ix2 (⟨l.val / 8, by omega⟩ : Fin 16) (⟨l.val % 8, by omega⟩ : Fin 8))
    (ix2 (0 : Fin 1) (⟨l.val % 8, by omega⟩ : Fin 8)) ?_).trans ?_
  · intro a
    match a with
    | ⟨0, _⟩ => rfl
    | ⟨1, _⟩ => rfl
  exact shapeCast_a_1a_apply v Gen.shapeCasts_S8_S1x8 (0 : Fin 1) ⟨l.val % 8, by omega⟩

theorem colSum_apply (s : FVec Ideal S1x128 .f32) (f : Fin 8) :
    colSum s (ix1 f) = Cert.Spec.zero + ∑ k : Fin 16, s (ix2 (0 : Fin 1) ⟨k.val * 8 + f.val, by omega⟩) := by
  unfold colSum
  simp only [Host.reduceAdd, Ideal.hostReduceAdd_def]
  rw [Ideal.hostReduceAdd_single Gen.reducesTo_S16x8_S8_d0 (by decide)]
  refine congrArg₂ (· + ·) rfl (Finset.sum_congr rfl fun k _ => ?_)
  have hk : k.val < 16 := k.isLt
  refine shapeCast_apply s Gen.shapeCasts_S1x128_S16x8 _ (ix2 (0 : Fin 1) ⟨k.val * 8 + f.val, by omega⟩) ?_
  rw [Shape.rowMajor_val_two, Shape.rowMajor_val_two]
  show 0 * 128 + (k.val * 8 + f.val) = k.val * 8 + f.val
  omega

theorem cntVec_apply (f : Fin 8) : cntVec (ix1 f) = Cert.Spec.cnt := by
  unfold cntVec
  exact broadcastInDim_apply _ Gen.bcast_S_S8 _ (ix1 f) ix0 (fun a => a.elim0)

theorem meanVec_apply (s : FVec Ideal S1x128 .f32) (f : Fin 8) :
    meanVec s (ix1 f)
      = Ideal.div (Cert.Spec.zero + ∑ k : Fin 16, s (ix2 (0 : Fin 1) ⟨k.val * 8 + f.val, by omega⟩)) Cert.Spec.cnt := by
  show Ideal.div (colSum s (ix1 f)) (cntVec (ix1 f)) = _
  rw [colSum_apply, cntVec_apply]

theorem varVec_apply (s q : FVec Ideal S1x128 .f32) (f : Fin 8) :
    varVec s q (ix1 f)
      = Ideal.div (Cert.Spec.zero + ∑ k : Fin 16, q (ix2 (0 : Fin 1) ⟨k.val * 8 + f.val, by omega⟩)) Cert.Spec.cnt
        - Ideal.div (Cert.Spec.zero + ∑ k : Fin 16, s (ix2 (0 : Fin 1) ⟨k.val * 8 + f.val, by omega⟩)) Cert.Spec.cnt
          * Ideal.div (Cert.Spec.zero + ∑ k : Fin 16, s (ix2 (0 : Fin 1) ⟨k.val * 8 + f.val, by omega⟩)) Cert.Spec.cnt := by
  show Ideal.div (colSum q (ix1 f)) (cntVec (ix1 f)) - meanVec s (ix1 f) * meanVec s (ix1 f) = _
  rw [colSum_apply, cntVec_apply, meanVec_apply]

/-! ## The arrays region 1 reads, as whole arrays -/

/-- The input reshaped: 16 consecutive rows of 8 features become one row of 128. -/
theorem x_arr : W1 m ρ c (Proc.devRef .tc main_v0)
    = (shapeCast S65536x128 (m ((c : Thread nD τ).loc main_arg0)) Gen.shapeCasts_S1048576x8_S65536x128 :
        FVec Ideal S65536x128 .f32) := by
  show StableHlo.after hostOps0 (W0 m ρ c) (Proc.devRef .tc main_v0) = _
  after_results
  rfl

/-- Entry (R, l) of the folded input is feature `l % 8` of row `16 R + l / 8`. -/
theorem reshape_rows (x : FVec Ideal S1048576x8 .f32) (R : Fin 65536) (l : Fin 128) :
    shapeCast S65536x128 x Gen.shapeCasts_S1048576x8_S65536x128 (ix2 R l)
      = x (ix2 ⟨R.val * 16 + l.val / 8, by omega⟩ ⟨l.val % 8, by omega⟩) := by
  refine shapeCast_apply x _ (ix2 R l) _ ?_
  rw [Shape.rowMajor_val_two, Shape.rowMajor_val_two]
  show (R.val * 16 + l.val / 8) * 8 + l.val % 8 = R.val * 128 + l.val
  omega

theorem x_rows (R : Fin 65536) (l : Fin 128) :
    W1 m ρ c (Proc.devRef .tc main_v0) (ix2 R l)
      = m ((c : Thread nD τ).loc main_arg0) (ix2 ⟨R.val * 16 + l.val / 8, by omega⟩ ⟨l.val % 8, by omega⟩) := by
  rw [x_arr]
  exact reshape_rows _ R l

/-- The folded input is an input window of the statistics kernel, so that kernel leaves it as it found it, and no
    later host operation writes it: region 1 reads what the first reshape produced. -/
theorem x_rows_kept : W19 m ρ c (Proc.devRef .tc main_v0) = W1 m ρ c (Proc.devRef .tc main_v0) := by
  carry_back main_v0
  refine (StableHlo.after_of_forall_not_mem (b := Proc.devRef .tc main_v0) hostOps1 _ (by no_write hostOps1)).trans ?_
  refine (W2_arr m ρ c (0 : Fin cfg0.W)).trans ?_
  refine ((dat0 (V1 m ρ) c).arrAt_in (0 : Fin cfg0.W) rfl cfg0.N).trans ?_
  exact A_eq0 (V1 m ρ) c 0

/-- The scale and the shift are arguments: nothing before region 1 writes them. -/
theorem arg1_kept : W2 m ρ c (Proc.devRef .tc main_arg1) = m ((c : Thread nD τ).loc main_arg1) :=
  (W2_of_ne m ρ c main_arg1 (by decide)).trans
    (StableHlo.after_of_forall_not_mem (b := Proc.devRef .tc main_arg1) hostOps0 _ (by no_write hostOps0))

theorem arg2_kept : W2 m ρ c (Proc.devRef .tc main_arg2) = m ((c : Thread nD τ).loc main_arg2) :=
  (W2_of_ne m ρ c main_arg2 (by decide)).trans
    (StableHlo.after_of_forall_not_mem (b := Proc.devRef .tc main_arg2) hostOps0 _ (by no_write hostOps0))

theorem mean_arr : W19 m ρ c (Proc.devRef .tc main_v15)
    = tile16 (meanVec (W2 m ρ c (Proc.devRef .tc main_v1_0))) := by
  carry_back main_v15
  show StableHlo.after hostOps1 (W2 m ρ c) (Proc.devRef .tc main_v15) = _
  after_results
  rfl

theorem var_arr : W19 m ρ c (Proc.devRef .tc main_v19)
    = tile16 (varVec (W2 m ρ c (Proc.devRef .tc main_v1_0)) (W2 m ρ c (Proc.devRef .tc main_v1_1))) := by
  carry_back main_v19
  show StableHlo.after hostOps1 (W2 m ρ c) (Proc.devRef .tc main_v19) = _
  after_results
  rfl

theorem gamma_arr : W19 m ρ c (Proc.devRef .tc main_v23) = tile16 (m ((c : Thread nD τ).loc main_arg1)) := by
  carry_back main_v23
  rw [← arg1_kept m ρ c]
  show StableHlo.after hostOps1 (W2 m ρ c) (Proc.devRef .tc main_v23) = _
  after_results
  rfl

theorem beta_arr : W19 m ρ c (Proc.devRef .tc main_v27) = tile16 (m ((c : Thread nD τ).loc main_arg2)) := by
  carry_back main_v27
  rw [← arg2_kept m ρ c]
  show StableHlo.after hostOps1 (W2 m ρ c) (Proc.devRef .tc main_v27) = _
  after_results
  rfl

/-! ## The same at an index

The two rows of partial sums the statistics kernel leaves enter as variables `s`, `q` with the equations that say
so, so that whatever closed form is known for them can be put in their place. -/

theorem mean_tile_of (s : FVec Ideal S1x128 .f32) (hs : W2 m ρ c (Proc.devRef .tc main_v1_0) = s) (l : Fin 128) :
    W19 m ρ c (Proc.devRef .tc main_v15) (ix2 (0 : Fin 1) l)
      = Ideal.div (Cert.Spec.zero + ∑ k : Fin 16, s (ix2 (0 : Fin 1) ⟨k.val * 8 + l.val % 8, by omega⟩))
          Cert.Spec.cnt := by
  rw [mean_arr, hs, tile16_apply]
  exact meanVec_apply s ⟨l.val % 8, by omega⟩

theorem var_tile_of (s q : FVec Ideal S1x128 .f32) (hs : W2 m ρ c (Proc.devRef .tc main_v1_0) = s)
    (hq : W2 m ρ c (Proc.devRef .tc main_v1_1) = q) (l : Fin 128) :
    W19 m ρ c (Proc.devRef .tc main_v19) (ix2 (0 : Fin 1) l)
      = Ideal.div (Cert.Spec.zero + ∑ k : Fin 16, q (ix2 (0 : Fin 1) ⟨k.val * 8 + l.val % 8, by omega⟩)) Cert.Spec.cnt
        - Ideal.div (Cert.Spec.zero + ∑ k : Fin 16, s (ix2 (0 : Fin 1) ⟨k.val * 8 + l.val % 8, by omega⟩)) Cert.Spec.cnt
          * Ideal.div (Cert.Spec.zero + ∑ k : Fin 16, s (ix2 (0 : Fin 1) ⟨k.val * 8 + l.val % 8, by omega⟩))
              Cert.Spec.cnt := by
  rw [var_arr, hs, hq, tile16_apply]
  exact varVec_apply s q ⟨l.val % 8, by omega⟩

/-- The same with the statistics kernel's results themselves in place of `s` and `q`. -/
theorem mean_tile (l : Fin 128) :
    W19 m ρ c (Proc.devRef .tc main_v15) (ix2 (0 : Fin 1) l)
      = Ideal.div (Cert.Spec.zero + Finset.sum (M := EReal) Finset.univ fun k : Fin 16 =>
          W2 m ρ c (Proc.devRef .tc main_v1_0) (ix2 (0 : Fin 1) ⟨k.val * 8 + l.val % 8, by omega⟩)) Cert.Spec.cnt :=
  mean_tile_of m ρ c _ rfl l

theorem var_tile (l : Fin 128) :
    W19 m ρ c (Proc.devRef .tc main_v19) (ix2 (0 : Fin 1) l)
      = Ideal.div (Cert.Spec.zero + Finset.sum (M := EReal) Finset.univ fun k : Fin 16 =>
          W2 m ρ c (Proc.devRef .tc main_v1_1) (ix2 (0 : Fin 1) ⟨k.val * 8 + l.val % 8, by omega⟩)) Cert.Spec.cnt
        - Ideal.div (Cert.Spec.zero + Finset.sum (M := EReal) Finset.univ fun k : Fin 16 =>
            W2 m ρ c (Proc.devRef .tc main_v1_0) (ix2 (0 : Fin 1) ⟨k.val * 8 + l.val % 8, by omega⟩)) Cert.Spec.cnt
          * Ideal.div (Cert.Spec.zero + Finset.sum (M := EReal) Finset.univ fun k : Fin 16 =>
            W2 m ρ c (Proc.devRef .tc main_v1_0) (ix2 (0 : Fin 1) ⟨k.val * 8 + l.val % 8, by omega⟩)) Cert.Spec.cnt :=
  var_tile_of m ρ c _ _ rfl rfl l

theorem gamma_tile (l : Fin 128) :
    W19 m ρ c (Proc.devRef .tc main_v23) (ix2 (0 : Fin 1) l)
      = m ((c : Thread nD τ).loc main_arg1) (ix1 ⟨l.val % 8, by omega⟩) := by
  rw [gamma_arr]
  exact tile16_apply _ l

theorem beta_tile (l : Fin 128) :
    W19 m ρ c (Proc.devRef .tc main_v27) (ix2 (0 : Fin 1) l)
      = m ((c : Thread nD τ).loc main_arg2) (ix1 ⟨l.val % 8, by omega⟩) := by
  rw [beta_arr]
  exact tile16_apply _ l

end Cert.KernelIdeal.MidS
-- ==== Proof.MidWeightsPure.lean ====
import Mathlib
import proofs.«112536_j65481071403406_2_alg».proof.KernelIdeal
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Mid

open Cert.KernelIdeal Idealize.ShloMosaic Idealize.ShloMosaic.ValueIdx

/-! # The pure terms the host operations build for the second kernel's weights, read at an entry

Three families, each over variable arrays: the unit matrix built from two iotas and a comparison; the block
matrix kron(E, W) built from two rank-4 broadcasts, a product and a reshape, one per pair of layer widths; and a
bias repeated sixteen times, one per layer width. -/

/-- The comparison of the row number (plus zero) with the column number, converted to a float: one on the
    diagonal, zero off it. Row and column numbers are below 16, so their 32-bit words are equal only if they are. -/
theorem eye_apply (h : S_.BroadcastsInDim S16x16 (![] : Fin 0 → Fin S16x16.rank)) (p q : Fin 16) :
    (uitofp (F := Ideal) .f32 (cmpi .eq (addi (iotaInDim S16x16 32 0) (broadcastInDim S16x16 ![] h (constantI S_ 32 0#32)))
      (iotaInDim S16x16 32 1)) : FVec Ideal S16x16 .f32) (ix2 p q) = if p.val = q.val then (1 : EReal) else 0 := by
  have hp := p.isLt
  have hq := q.isLt
  have hb : broadcastInDim S16x16 ![] h (constantI S_ 32 0#32) (ix2 p q) = 0#32 :=
    broadcastInDim_scalar_apply h (constantI S_ 32 0#32) (ix2 p q)
  have hw : cmpi .eq (addi (iotaInDim S16x16 32 0) (broadcastInDim S16x16 ![] h (constantI S_ 32 0#32)))
      (iotaInDim S16x16 32 1) (ix2 p q) = if p.val = q.val then 1#1 else 0#1 := by
    show IntOp.cmpi .eq (IntOp.addi (BitVec.ofNat 32 p.val) (broadcastInDim S16x16 ![] h (constantI S_ 32 0#32) (ix2 p q)))
      (BitVec.ofNat 32 q.val) = _
    rw [hb]
    show BitVec.ofBool (BitVec.ofNat 32 p.val + 0#32 == BitVec.ofNat 32 q.val) = _
    rw [BitVec.add_zero]
    by_cases e : p.val = q.val
    · rw [if_pos e, e, beq_self_eq_true]; rfl
    · rw [if_neg e]
      have hne : BitVec.ofNat 32 p.val ≠ BitVec.ofNat 32 q.val := fun E => e (by
        have := congrArg BitVec.toNat E
        rw [BitVec.toNat_ofNat, BitVec.toNat_ofNat, Nat.mod_eq_of_lt (by omega), Nat.mod_eq_of_lt (by omega)] at this
        exact this)
      rw [beq_eq_false_iff_ne.mpr hne]; rfl
  show (((cmpi .eq (addi (iotaInDim S16x16 32 0) (broadcastInDim S16x16 ![] h (constantI S_ 32 0#32)))
      (iotaInDim S16x16 32 1) (ix2 p q)).toNat : ℝ) : EReal) = _
  rw [hw]
  by_cases e : p.val = q.val
  · rw [if_pos e, if_pos e]; show (((1 : ℕ) : ℝ) : EReal) = 1; norm_num
  · rw [if_neg e, if_neg e]; show (((0 : ℕ) : ℝ) : EReal) = 0; norm_num

/-- A vector of 16 entries laid out as one row, repeated on 16 rows, flattened row by row, and laid out as
    one row again: entry (0, b) is entry b % 16 of the vector. -/
theorem tile16_apply (x : FVec Ideal S16 .f32) (h1 : S16.ShapeCasts S1x16)
    (h2 : S1x16.BroadcastsInDim S16x16 (![0, 1] : Fin 2 → Fin S16x16.rank)) (h3 : S16x16.ShapeCasts S256)
    (h4 : S256.ShapeCasts S1x256) (b : Fin 256) :
    shapeCast S1x256 (shapeCast S256 (broadcastInDim S16x16 ![0, 1] h2 (shapeCast S1x16 x h1)) h3) h4 (ix2 (0 : Fin 1) b)
      = x (ix1 ⟨b.val % 16, Nat.mod_lt _ (by norm_num)⟩) := by
  have hb := b.isLt
  refine (shapeCast_apply _ h4 (ix2 (0 : Fin 1) b) (ix1 b) ?_).trans ?_
  · rw [Shape.rowMajor_val_one, Shape.rowMajor_val_two]
    show b.val = 0 * 256 + b.val
    omega
  refine (shapeCast_apply _ h3 (ix1 b) (ix2 (⟨b.val / 16, by omega⟩ : Fin 16) (⟨b.val % 16, by omega⟩ : Fin 16)) ?_).trans ?_
  · rw [Shape.rowMajor_val_one, Shape.rowMajor_val_two]
    show b.val / 16 * 16 + b.val % 16 = b.val
    omega
  refine (broadcastInDim_apply _ h2 _ _ (ix2 (0 : Fin 1) (⟨b.val % 16, by omega⟩ : Fin 16)) ?_).trans ?_
  · intro a
    match a with
    | ⟨0, _⟩ => rfl
    | ⟨1, _⟩ => rfl
  refine (shapeCast_apply _ h1 _ (ix1 (⟨b.val % 16, by omega⟩ : Fin 16)) ?_).trans rfl
  rw [Shape.rowMajor_val_one, Shape.rowMajor_val_two]
  show b.val % 16 = 0 * 16 + b.val % 16
  omega

/-- A vector of 12 entries laid out as one row, repeated on 16 rows, flattened row by row, and laid out as
    one row again: entry (0, b) is entry b % 12 of the vector. -/
theorem tile12_apply (x : FVec Ideal S12 .f32) (h1 : S12.ShapeCasts S1x12)
    (h2 : S1x12.BroadcastsInDim S16x12 (![0, 1] : Fin 2 → Fin S16x12.rank)) (h3 : S16x12.ShapeCasts S192)
    (h4 : S192.ShapeCasts S1x192) (b : Fin 192) :
    shapeCast S1x192 (shapeCast S192 (broadcastInDim S16x12 ![0, 1] h2 (shapeCast S1x12 x h1)) h3) h4 (ix2 (0 : Fin 1) b)
      = x (ix1 ⟨b.val % 12, Nat.mod_lt _ (by norm_num)⟩) := by
  have hb := b.isLt
  refine (shapeCast_apply _ h4 (ix2 (0 : Fin 1) b) (ix1 b) ?_).trans ?_
  · rw [Shape.rowMajor_val_one, Shape.rowMajor_val_two]
    show b.val = 0 * 192 + b.val
    omega
  refine (shapeCast_apply _ h3 (ix1 b) (ix2 (⟨b.val / 12, by omega⟩ : Fin 16) (⟨b.val % 12, by omega⟩ : Fin 12)) ?_).trans ?_
  · rw [Shape.rowMajor_val_one, Shape.rowMajor_val_two]
    show b.val / 12 * 12 + b.val % 12 = b.val
    omega
  refine (broadcastInDim_apply _ h2 _ _ (ix2 (0 : Fin 1) (⟨b.val % 12, by omega⟩ : Fin 12)) ?_).trans ?_
  · intro a
    match a with
    | ⟨0, _⟩ => rfl
    | ⟨1, _⟩ => rfl
  refine (shapeCast_apply _ h1 _ (ix1 (⟨b.val % 12, by omega⟩ : Fin 12)) ?_).trans rfl
  rw [Shape.rowMajor_val_one, Shape.rowMajor_val_two]
  show b.val % 12 = 0 * 12 + b.val % 12
  omega

/-- A vector of 8 entries laid out as one row, repeated on 16 rows, flattened row by row, and laid out as
    one row again: entry (0, b) is entry b % 8 of the vector. -/
theorem tile8_apply (x : FVec Ideal S8 .f32) (h1 : S8.ShapeCasts S1x8)
    (h2 : S1x8.BroadcastsInDim S16x8 (![0, 1] : Fin 2 → Fin S16x8.rank)) (h3 : S16x8.ShapeCasts S128)
    (h4 : S128.ShapeCasts S1x128) (b : Fin 128) :
    shapeCast S1x128 (shapeCast S128 (broadcastInDim S16x8 ![0, 1] h2 (shapeCast S1x8 x h1)) h3) h4 (ix2 (0 : Fin 1) b)
      = x (ix1 ⟨b.val % 8, Nat.mod_lt _ (by norm_num)⟩) := by
  have hb := b.isLt
  refine (shapeCast_apply _ h4 (ix2 (0 : Fin 1) b) (ix1 b) ?_).trans ?_
  · rw [Shape.rowMajor_val_one, Shape.rowMajor_val_two]
    show b.val = 0 * 128 + b.val
    omega
  refine (shapeCast_apply _ h3 (ix1 b) (ix2 (⟨b.val / 8, by omega⟩ : Fin 16) (⟨b.val % 8, by omega⟩ : Fin 8)) ?_).trans ?_
  · rw [Shape.rowMajor_val_one, Shape.rowMajor_val_two]
    show b.val / 8 * 8 + b.val % 8 = b.val
    omega
  refine (broadcastInDim_apply _ h2 _ _ (ix2 (0 : Fin 1) (⟨b.val % 8, by omega⟩ : Fin 8)) ?_).trans ?_
  · intro a
    match a with
    | ⟨0, _⟩ => rfl
    | ⟨1, _⟩ => rfl
  refine (shapeCast_apply _ h1 _ (ix1 (⟨b.val % 8, by omega⟩ : Fin 8)) ?_).trans rfl
  rw [Shape.rowMajor_val_one, Shape.rowMajor_val_two]
  show b.val % 8 = 0 * 8 + b.val % 8
  omega

/-- A vector of 4 entries laid out as one row, repeated on 16 rows, flattened row by row, and laid out as
    one row again: entry (0, b) is entry b % 4 of the vector. -/
theorem tile4_apply (x : FVec Ideal S4 .f32) (h1 : S4.ShapeCasts S1x4)
    (h2 : S1x4.BroadcastsInDim S16x4 (![0, 1] : Fin 2 → Fin S16x4.rank)) (h3 : S16x4.ShapeCasts S64)
    (h4 : S64.ShapeCasts S1x64) (b : Fin 64) :
    shapeCast S1x64 (shapeCast S64 (broadcastInDim S16x4 ![0, 1] h2 (shapeCast S1x4 x h1)) h3) h4 (ix2 (0 : Fin 1) b)
      = x (ix1 ⟨b.val % 4, Nat.mod_lt _ (by norm_num)⟩) := by
  have hb := b.isLt
  refine (shapeCast_apply _ h4 (ix2 (0 : Fin 1) b) (ix1 b) ?_).trans ?_
  · rw [Shape.rowMajor_val_one, Shape.rowMajor_val_two]
    show b.val = 0 * 64 + b.val
    omega
  refine (shapeCast_apply _ h3 (ix1 b) (ix2 (⟨b.val / 4, by omega⟩ : Fin 16) (⟨b.val % 4, by omega⟩ : Fin 4)) ?_).trans ?_
  · rw [Shape.rowMajor_val_one, Shape.rowMajor_val_two]
    show b.val / 4 * 4 + b.val % 4 = b.val
    omega
  refine (broadcastInDim_apply _ h2 _ _ (ix2 (0 : Fin 1) (⟨b.val % 4, by omega⟩ : Fin 4)) ?_).trans ?_
  · intro a
    match a with
    | ⟨0, _⟩ => rfl
    | ⟨1, _⟩ => rfl
  refine (shapeCast_apply _ h1 _ (ix1 (⟨b.val % 4, by omega⟩ : Fin 4)) ?_).trans rfl
  rw [Shape.rowMajor_val_one, Shape.rowMajor_val_two]
  show b.val % 4 = 0 * 4 + b.val % 4
  omega

/-- A vector of 1 entry laid out as one row, repeated on 16 rows, flattened row by row, and laid out as
    one row again: entry (0, b) is entry b % 1 of the vector. -/
theorem tile1_apply (x : FVec Ideal S1 .f32) (h1 : S1.ShapeCasts S1x1)
    (h2 : S1x1.BroadcastsInDim S16x1 (![0, 1] : Fin 2 → Fin S16x1.rank)) (h3 : S16x1.ShapeCasts S16)
    (h4 : S16.ShapeCasts S1x16) (b : Fin 16) :
    shapeCast S1x16 (shapeCast S16 (broadcastInDim S16x1 ![0, 1] h2 (shapeCast S1x1 x h1)) h3) h4 (ix2 (0 : Fin 1) b)
      = x (ix1 ⟨b.val % 1, Nat.mod_lt _ (by norm_num)⟩) := by
  have hb := b.isLt
  refine (shapeCast_apply _ h4 (ix2 (0 : Fin 1) b) (ix1 b) ?_).trans ?_
  · rw [Shape.rowMajor_val_one, Shape.rowMajor_val_two]
    show b.val = 0 * 16 + b.val
    omega
  refine (shapeCast_apply _ h3 (ix1 b) (ix2 (⟨b.val / 1, by omega⟩ : Fin 16) (⟨b.val % 1, by omega⟩ : Fin 1)) ?_).trans ?_
  · rw [Shape.rowMajor_val_one, Shape.rowMajor_val_two]
    show b.val / 1 * 1 + b.val % 1 = b.val
    omega
  refine (broadcastInDim_apply _ h2 _ _ (ix2 (0 : Fin 1) (⟨b.val % 1, by omega⟩ : Fin 1)) ?_).trans ?_
  · intro a
    match a with
    | ⟨0, _⟩ => rfl
    | ⟨1, _⟩ => first | rfl | exact Nat.mod_one _
  refine (shapeCast_apply _ h1 _ (ix1 (⟨b.val % 1, by omega⟩ : Fin 1)) ?_).trans rfl
  rw [Shape.rowMajor_val_one, Shape.rowMajor_val_two]
  show b.val % 1 = 0 * 1 + b.val % 1
  omega

/-- The block matrix of E and W read at an entry: the product over [16, 8, 16, 16] at (j', f, j, g) is E[j', j] · W[f, g],
    and its row-major flattening to [128, 256] sends (a, b) to (a / 8, a % 8, b / 16, b % 16). -/
theorem kron8x16_apply (E : FVec Ideal S16x16 .f32) (W : FVec Ideal S8x16 .f32)
    (h1 : S16x16.BroadcastsInDim S16x1x16x1 (![0, 2] : Fin 2 → Fin S16x1x16x1.rank))
    (h2 : S8x16.BroadcastsInDim S1x8x1x16 (![1, 3] : Fin 2 → Fin S1x8x1x16.rank))
    (h3 : S16x1x16x1.BroadcastsInDim S16x8x16x16 (![0, 1, 2, 3] : Fin 4 → Fin S16x8x16x16.rank))
    (h4 : S1x8x1x16.BroadcastsInDim S16x8x16x16 (![0, 1, 2, 3] : Fin 4 → Fin S16x8x16x16.rank))
    (h5 : S16x8x16x16.ShapeCasts S128x256) (a : Fin 128) (b : Fin 256) :
    shapeCast S128x256 (mulf (broadcastInDim S16x8x16x16 ![0, 1, 2, 3] h3 (broadcastInDim S16x1x16x1 ![0, 2] h1 E))
        (broadcastInDim S16x8x16x16 ![0, 1, 2, 3] h4 (broadcastInDim S1x8x1x16 ![1, 3] h2 W))) h5 (ix2 a b)
      = E (ix2 (⟨a.val / 8, by omega⟩ : Fin 16) (⟨b.val / 16, by omega⟩ : Fin 16))
        * W (ix2 (⟨a.val % 8, Nat.mod_lt _ (by norm_num)⟩ : Fin 8) (⟨b.val % 16, Nat.mod_lt _ (by norm_num)⟩ : Fin 16)) := by
  have ha := a.isLt
  have hb := b.isLt
  refine (shapeCast_apply _ h5 (ix2 a b)
    (ix4 (⟨a.val / 8, by omega⟩ : Fin 16) (⟨a.val % 8, by omega⟩ : Fin 8)
      (⟨b.val / 16, by omega⟩ : Fin 16) (⟨b.val % 16, by omega⟩ : Fin 16)) ?_).trans ?_
  · rw [Shape.rowMajor_val_four, Shape.rowMajor_val_two]
    show ((a.val / 8 * 8 + a.val % 8) * 16 + b.val / 16) * 16 + b.val % 16 = a.val * 256 + b.val
    omega
  refine (mulf_apply _ _ _).trans ?_
  refine congrArg₂ (· * ·) ?_ ?_
  · refine (broadcastInDim_apply _ h3 _ _
      (ix4 (⟨a.val / 8, by omega⟩ : Fin 16) (0 : Fin 1) (⟨b.val / 16, by omega⟩ : Fin 16) (0 : Fin 1)) ?_).trans ?_
    · intro k
      match k with
      | ⟨0, _⟩ => rfl
      | ⟨1, _⟩ => rfl
      | ⟨2, _⟩ => rfl
      | ⟨3, _⟩ => rfl
    refine broadcastInDim_apply _ h1 _ _ _ ?_
    intro k
    match k with
    | ⟨0, _⟩ => rfl
    | ⟨1, _⟩ => rfl
  · refine (broadcastInDim_apply _ h4 _ _
      (ix4 (0 : Fin 1) (⟨a.val % 8, by omega⟩ : Fin 8) (0 : Fin 1) (⟨b.val % 16, by omega⟩ : Fin 16)) ?_).trans ?_
    · intro k
      match k with
      | ⟨0, _⟩ => rfl
      | ⟨1, _⟩ => rfl
      | ⟨2, _⟩ => rfl
      | ⟨3, _⟩ => rfl
    refine broadcastInDim_apply _ h2 _ _ _ ?_
    intro k
    match k with
    | ⟨0, _⟩ => rfl
    | ⟨1, _⟩ => rfl

/-- The block matrix of E and W read at an entry: the product over [16, 16, 16, 16] at (j', f, j, g) is E[j', j] · W[f, g],
    and its row-major flattening to [256, 256] sends (a, b) to (a / 16, a % 16, b / 16, b % 16). -/
theorem kron16x16_apply (E : FVec Ideal S16x16 .f32) (W : FVec Ideal S16x16 .f32)
    (h1 : S16x16.BroadcastsInDim S16x1x16x1 (![0, 2] : Fin 2 → Fin S16x1x16x1.rank))
    (h2 : S16x16.BroadcastsInDim S1x16x1x16 (![1, 3] : Fin 2 → Fin S1x16x1x16.rank))
    (h3 : S16x1x16x1.BroadcastsInDim S16x16x16x16 (![0, 1, 2, 3] : Fin 4 → Fin S16x16x16x16.rank))
    (h4 : S1x16x1x16.BroadcastsInDim S16x16x16x16 (![0, 1, 2, 3] : Fin 4 → Fin S16x16x16x16.rank))
    (h5 : S16x16x16x16.ShapeCasts S256x256) (a : Fin 256) (b : Fin 256) :
    shapeCast S256x256 (mulf (broadcastInDim S16x16x16x16 ![0, 1, 2, 3] h3 (broadcastInDim S16x1x16x1 ![0, 2] h1 E))
        (broadcastInDim S16x16x16x16 ![0, 1, 2, 3] h4 (broadcastInDim S1x16x1x16 ![1, 3] h2 W))) h5 (ix2 a b)
      = E (ix2 (⟨a.val / 16, by omega⟩ : Fin 16) (⟨b.val / 16, by omega⟩ : Fin 16))
        * W (ix2 (⟨a.val % 16, Nat.mod_lt _ (by norm_num)⟩ : Fin 16) (⟨b.val % 16, Nat.mod_lt _ (by norm_num)⟩ : Fin 16)) := by
  have ha := a.isLt
  have hb := b.isLt
  refine (shapeCast_apply _ h5 (ix2 a b)
    (ix4 (⟨a.val / 16, by omega⟩ : Fin 16) (⟨a.val % 16, by omega⟩ : Fin 16)
      (⟨b.val / 16, by omega⟩ : Fin 16) (⟨b.val % 16, by omega⟩ : Fin 16)) ?_).trans ?_
  · rw [Shape.rowMajor_val_four, Shape.rowMajor_val_two]
    show ((a.val / 16 * 16 + a.val % 16) * 16 + b.val / 16) * 16 + b.val % 16 = a.val * 256 + b.val
    omega
  refine (mulf_apply _ _ _).trans ?_
  refine congrArg₂ (· * ·) ?_ ?_
  · refine (broadcastInDim_apply _ h3 _ _
      (ix4 (⟨a.val / 16, by omega⟩ : Fin 16) (0 : Fin 1) (⟨b.val / 16, by omega⟩ : Fin 16) (0 : Fin 1)) ?_).trans ?_
    · intro k
      match k with
      | ⟨0, _⟩ => rfl
      | ⟨1, _⟩ => rfl
      | ⟨2, _⟩ => rfl
      | ⟨3, _⟩ => rfl
    refine broadcastInDim_apply _ h1 _ _ _ ?_
    intro k
    match k with
    | ⟨0, _⟩ => rfl
    | ⟨1, _⟩ => rfl
  · refine (broadcastInDim_apply _ h4 _ _
      (ix4 (0 : Fin 1) (⟨a.val % 16, by omega⟩ : Fin 16) (0 : Fin 1) (⟨b.val % 16, by omega⟩ : Fin 16)) ?_).trans ?_
    · intro k
      match k with
      | ⟨0, _⟩ => rfl
      | ⟨1, _⟩ => rfl
      | ⟨2, _⟩ => rfl
      | ⟨3, _⟩ => rfl
    refine broadcastInDim_apply _ h2 _ _ _ ?_
    intro k
    match k with
    | ⟨0, _⟩ => rfl
    | ⟨1, _⟩ => rfl

/-- The block matrix of E and W read at an entry: the product over [16, 16, 16, 12] at (j', f, j, g) is E[j', j] · W[f, g],
    and its row-major flattening to [256, 192] sends (a, b) to (a / 16, a % 16, b / 12, b % 12). -/
theorem kron16x12_apply (E : FVec Ideal S16x16 .f32) (W : FVec Ideal S16x12 .f32)
    (h1 : S16x16.BroadcastsInDim S16x1x16x1 (![0, 2] : Fin 2 → Fin S16x1x16x1.rank))
    (h2 : S16x12.BroadcastsInDim S1x16x1x12 (![1, 3] : Fin 2 → Fin S1x16x1x12.rank))
    (h3 : S16x1x16x1.BroadcastsInDim S16x16x16x12 (![0, 1, 2, 3] : Fin 4 → Fin S16x16x16x12.rank))
    (h4 : S1x16x1x12.BroadcastsInDim S16x16x16x12 (![0, 1, 2, 3] : Fin 4 → Fin S16x16x16x12.rank))
    (h5 : S16x16x16x12.ShapeCasts S256x192) (a : Fin 256) (b : Fin 192) :
    shapeCast S256x192 (mulf (broadcastInDim S16x16x16x12 ![0, 1, 2, 3] h3 (broadcastInDim S16x1x16x1 ![0, 2] h1 E))
        (broadcastInDim S16x16x16x12 ![0, 1, 2, 3] h4 (broadcastInDim S1x16x1x12 ![1, 3] h2 W))) h5 (ix2 a b)
      = E (ix2 (⟨a.val / 16, by omega⟩ : Fin 16) (⟨b.val / 12, by omega⟩ : Fin 16))
        * W (ix2 (⟨a.val % 16, Nat.mod_lt _ (by norm_num)⟩ : Fin 16) (⟨b.val % 12, Nat.mod_lt _ (by norm_num)⟩ : Fin 12)) := by
  have ha := a.isLt
  have hb := b.isLt
  refine (shapeCast_apply _ h5 (ix2 a b)
    (ix4 (⟨a.val / 16, by omega⟩ : Fin 16) (⟨a.val % 16, by omega⟩ : Fin 16)
      (⟨b.val / 12, by omega⟩ : Fin 16) (⟨b.val % 12, by omega⟩ : Fin 12)) ?_).trans ?_
  · rw [Shape.rowMajor_val_four, Shape.rowMajor_val_two]
    show ((a.val / 16 * 16 + a.val % 16) * 16 + b.val / 12) * 12 + b.val % 12 = a.val * 192 + b.val
    omega
  refine (mulf_apply _ _ _).trans ?_
  refine congrArg₂ (· * ·) ?_ ?_
  · refine (broadcastInDim_apply _ h3 _ _
      (ix4 (⟨a.val / 16, by omega⟩ : Fin 16) (0 : Fin 1) (⟨b.val / 12, by omega⟩ : Fin 16) (0 : Fin 1)) ?_).trans ?_
    · intro k
      match k with
      | ⟨0, _⟩ => rfl
      | ⟨1, _⟩ => rfl
      | ⟨2, _⟩ => rfl
      | ⟨3, _⟩ => rfl
    refine broadcastInDim_apply _ h1 _ _ _ ?_
    intro k
    match k with
    | ⟨0, _⟩ => rfl
    | ⟨1, _⟩ => rfl
  · refine (broadcastInDim_apply _ h4 _ _
      (ix4 (0 : Fin 1) (⟨a.val % 16, by omega⟩ : Fin 16) (0 : Fin 1) (⟨b.val % 12, by omega⟩ : Fin 12)) ?_).trans ?_
    · intro k
      match k with
      | ⟨0, _⟩ => rfl
      | ⟨1, _⟩ => rfl
      | ⟨2, _⟩ => rfl
      | ⟨3, _⟩ => rfl
    refine broadcastInDim_apply _ h2 _ _ _ ?_
    intro k
    match k with
    | ⟨0, _⟩ => rfl
    | ⟨1, _⟩ => rfl

/-- The block matrix of E and W read at an entry: the product over [16, 12, 16, 8] at (j', f, j, g) is E[j', j] · W[f, g],
    and its row-major flattening to [192, 128] sends (a, b) to (a / 12, a % 12, b / 8, b % 8). -/
theorem kron12x8_apply (E : FVec Ideal S16x16 .f32) (W : FVec Ideal S12x8 .f32)
    (h1 : S16x16.BroadcastsInDim S16x1x16x1 (![0, 2] : Fin 2 → Fin S16x1x16x1.rank))
    (h2 : S12x8.BroadcastsInDim S1x12x1x8 (![1, 3] : Fin 2 → Fin S1x12x1x8.rank))
    (h3 : S16x1x16x1.BroadcastsInDim S16x12x16x8 (![0, 1, 2, 3] : Fin 4 → Fin S16x12x16x8.rank))
    (h4 : S1x12x1x8.BroadcastsInDim S16x12x16x8 (![0, 1, 2, 3] : Fin 4 → Fin S16x12x16x8.rank))
    (h5 : S16x12x16x8.ShapeCasts S192x128) (a : Fin 192) (b : Fin 128) :
    shapeCast S192x128 (mulf (broadcastInDim S16x12x16x8 ![0, 1, 2, 3] h3 (broadcastInDim S16x1x16x1 ![0, 2] h1 E))
        (broadcastInDim S16x12x16x8 ![0, 1, 2, 3] h4 (broadcastInDim S1x12x1x8 ![1, 3] h2 W))) h5 (ix2 a b)
      = E (ix2 (⟨a.val / 12, by omega⟩ : Fin 16) (⟨b.val / 8, by omega⟩ : Fin 16))
        * W (ix2 (⟨a.val % 12, Nat.mod_lt _ (by norm_num)⟩ : Fin 12) (⟨b.val % 8, Nat.mod_lt _ (by norm_num)⟩ : Fin 8)) := by
  have ha := a.isLt
  have hb := b.isLt
  refine (shapeCast_apply _ h5 (ix2 a b)
    (ix4 (⟨a.val / 12, by omega⟩ : Fin 16) (⟨a.val % 12, by omega⟩ : Fin 12)
      (⟨b.val / 8, by omega⟩ : Fin 16) (⟨b.val % 8, by omega⟩ : Fin 8)) ?_).trans ?_
  · rw [Shape.rowMajor_val_four, Shape.rowMajor_val_two]
    show ((a.val / 12 * 12 + a.val % 12) * 16 + b.val / 8) * 8 + b.val % 8 = a.val * 128 + b.val
    omega
  refine (mulf_apply _ _ _).trans ?_
  refine congrArg₂ (· * ·) ?_ ?_
  · refine (broadcastInDim_apply _ h3 _ _
      (ix4 (⟨a.val / 12, by omega⟩ : Fin 16) (0 : Fin 1) (⟨b.val / 8, by omega⟩ : Fin 16) (0 : Fin 1)) ?_).trans ?_
    · intro k
      match k with
      | ⟨0, _⟩ => rfl
      | ⟨1, _⟩ => rfl
      | ⟨2, _⟩ => rfl
      | ⟨3, _⟩ => rfl
    refine broadcastInDim_apply _ h1 _ _ _ ?_
    intro k
    match k with
    | ⟨0, _⟩ => rfl
    | ⟨1, _⟩ => rfl
  · refine (broadcastInDim_apply _ h4 _ _
      (ix4 (0 : Fin 1) (⟨a.val % 12, by omega⟩ : Fin 12) (0 : Fin 1) (⟨b.val % 8, by omega⟩ : Fin 8)) ?_).trans ?_
    · intro k
      match k with
      | ⟨0, _⟩ => rfl
      | ⟨1, _⟩ => rfl
      | ⟨2, _⟩ => rfl
      | ⟨3, _⟩ => rfl
    refine broadcastInDim_apply _ h2 _ _ _ ?_
    intro k
    match k with
    | ⟨0, _⟩ => rfl
    | ⟨1, _⟩ => rfl

/-- The block matrix of E and W read at an entry: the product over [16, 8, 16, 4] at (j', f, j, g) is E[j', j] · W[f, g],
    and its row-major flattening to [128, 64] sends (a, b) to (a / 8, a % 8, b / 4, b % 4). -/
theorem kron8x4_apply (E : FVec Ideal S16x16 .f32) (W : FVec Ideal S8x4 .f32)
    (h1 : S16x16.BroadcastsInDim S16x1x16x1 (![0, 2] : Fin 2 → Fin S16x1x16x1.rank))
    (h2 : S8x4.BroadcastsInDim S1x8x1x4 (![1, 3] : Fin 2 → Fin S1x8x1x4.rank))
    (h3 : S16x1x16x1.BroadcastsInDim S16x8x16x4 (![0, 1, 2, 3] : Fin 4 → Fin S16x8x16x4.rank))
    (h4 : S1x8x1x4.BroadcastsInDim S16x8x16x4 (![0, 1, 2, 3] : Fin 4 → Fin S16x8x16x4.rank))
    (h5 : S16x8x16x4.ShapeCasts S128x64) (a : Fin 128) (b : Fin 64) :
    shapeCast S128x64 (mulf (broadcastInDim S16x8x16x4 ![0, 1, 2, 3] h3 (broadcastInDim S16x1x16x1 ![0, 2] h1 E))
        (broadcastInDim S16x8x16x4 ![0, 1, 2, 3] h4 (broadcastInDim S1x8x1x4 ![1, 3] h2 W))) h5 (ix2 a b)
      = E (ix2 (⟨a.val / 8, by omega⟩ : Fin 16) (⟨b.val / 4, by omega⟩ : Fin 16))
        * W (ix2 (⟨a.val % 8, Nat.mod_lt _ (by norm_num)⟩ : Fin 8) (⟨b.val % 4, Nat.mod_lt _ (by norm_num)⟩ : Fin 4)) := by
  have ha := a.isLt
  have hb := b.isLt
  refine (shapeCast_apply _ h5 (ix2 a b)
    (ix4 (⟨a.val / 8, by omega⟩ : Fin 16) (⟨a.val % 8, by omega⟩ : Fin 8)
      (⟨b.val / 4, by omega⟩ : Fin 16) (⟨b.val % 4, by omega⟩ : Fin 4)) ?_).trans ?_
  · rw [Shape.rowMajor_val_four, Shape.rowMajor_val_two]
    show ((a.val / 8 * 8 + a.val % 8) * 16 + b.val / 4) * 4 + b.val % 4 = a.val * 64 + b.val
    omega
  refine (mulf_apply _ _ _).trans ?_
  refine congrArg₂ (· * ·) ?_ ?_
  · refine (broadcastInDim_apply _ h3 _ _
      (ix4 (⟨a.val / 8, by omega⟩ : Fin 16) (0 : Fin 1) (⟨b.val / 4, by omega⟩ : Fin 16) (0 : Fin 1)) ?_).trans ?_
    · intro k
      match k with
      | ⟨0, _⟩ => rfl
      | ⟨1, _⟩ => rfl
      | ⟨2, _⟩ => rfl
      | ⟨3, _⟩ => rfl
    refine broadcastInDim_apply _ h1 _ _ _ ?_
    intro k
    match k with
    | ⟨0, _⟩ => rfl
    | ⟨1, _⟩ => rfl
  · refine (broadcastInDim_apply _ h4 _ _
      (ix4 (0 : Fin 1) (⟨a.val % 8, by omega⟩ : Fin 8) (0 : Fin 1) (⟨b.val % 4, by omega⟩ : Fin 4)) ?_).trans ?_
    · intro k
      match k with
      | ⟨0, _⟩ => rfl
      | ⟨1, _⟩ => rfl
      | ⟨2, _⟩ => rfl
      | ⟨3, _⟩ => rfl
    refine broadcastInDim_apply _ h2 _ _ _ ?_
    intro k
    match k with
    | ⟨0, _⟩ => rfl
    | ⟨1, _⟩ => rfl

/-- The block matrix of E and W read at an entry: the product over [16, 4, 16, 4] at (j', f, j, g) is E[j', j] · W[f, g],
    and its row-major flattening to [64, 64] sends (a, b) to (a / 4, a % 4, b / 4, b % 4). -/
theorem kron4x4_apply (E : FVec Ideal S16x16 .f32) (W : FVec Ideal S4x4 .f32)
    (h1 : S16x16.BroadcastsInDim S16x1x16x1 (![0, 2] : Fin 2 → Fin S16x1x16x1.rank))
    (h2 : S4x4.BroadcastsInDim S1x4x1x4 (![1, 3] : Fin 2 → Fin S1x4x1x4.rank))
    (h3 : S16x1x16x1.BroadcastsInDim S16x4x16x4 (![0, 1, 2, 3] : Fin 4 → Fin S16x4x16x4.rank))
    (h4 : S1x4x1x4.BroadcastsInDim S16x4x16x4 (![0, 1, 2, 3] : Fin 4 → Fin S16x4x16x4.rank))
    (h5 : S16x4x16x4.ShapeCasts S64x64) (a : Fin 64) (b : Fin 64) :
    shapeCast S64x64 (mulf (broadcastInDim S16x4x16x4 ![0, 1, 2, 3] h3 (broadcastInDim S16x1x16x1 ![0, 2] h1 E))
        (broadcastInDim S16x4x16x4 ![0, 1, 2, 3] h4 (broadcastInDim S1x4x1x4 ![1, 3] h2 W))) h5 (ix2 a b)
      = E (ix2 (⟨a.val / 4, by omega⟩ : Fin 16) (⟨b.val / 4, by omega⟩ : Fin 16))
        * W (ix2 (⟨a.val % 4, Nat.mod_lt _ (by norm_num)⟩ : Fin 4) (⟨b.val % 4, Nat.mod_lt _ (by norm_num)⟩ : Fin 4)) := by
  have ha := a.isLt
  have hb := b.isLt
  refine (shapeCast_apply _ h5 (ix2 a b)
    (ix4 (⟨a.val / 4, by omega⟩ : Fin 16) (⟨a.val % 4, by omega⟩ : Fin 4)
      (⟨b.val / 4, by omega⟩ : Fin 16) (⟨b.val % 4, by omega⟩ : Fin 4)) ?_).trans ?_
  · rw [Shape.rowMajor_val_four, Shape.rowMajor_val_two]
    show ((a.val / 4 * 4 + a.val % 4) * 16 + b.val / 4) * 4 + b.val % 4 = a.val * 64 + b.val
    omega
  refine (mulf_apply _ _ _).trans ?_
  refine congrArg₂ (· * ·) ?_ ?_
  · refine (broadcastInDim_apply _ h3 _ _
      (ix4 (⟨a.val / 4, by omega⟩ : Fin 16) (0 : Fin 1) (⟨b.val / 4, by omega⟩ : Fin 16) (0 : Fin 1)) ?_).trans ?_
    · intro k
      match k with
      | ⟨0, _⟩ => rfl
      | ⟨1, _⟩ => rfl
      | ⟨2, _⟩ => rfl
      | ⟨3, _⟩ => rfl
    refine broadcastInDim_apply _ h1 _ _ _ ?_
    intro k
    match k with
    | ⟨0, _⟩ => rfl
    | ⟨1, _⟩ => rfl
  · refine (broadcastInDim_apply _ h4 _ _
      (ix4 (0 : Fin 1) (⟨a.val % 4, by omega⟩ : Fin 4) (0 : Fin 1) (⟨b.val % 4, by omega⟩ : Fin 4)) ?_).trans ?_
    · intro k
      match k with
      | ⟨0, _⟩ => rfl
      | ⟨1, _⟩ => rfl
      | ⟨2, _⟩ => rfl
      | ⟨3, _⟩ => rfl
    refine broadcastInDim_apply _ h2 _ _ _ ?_
    intro k
    match k with
    | ⟨0, _⟩ => rfl
    | ⟨1, _⟩ => rfl

/-- The block matrix of E and W read at an entry: the product over [16, 4, 16, 1] at (j', f, j, g) is E[j', j] · W[f, g],
    and its row-major flattening to [64, 16] sends (a, b) to (a / 4, a % 4, b / 1, b % 1). -/
theorem kron4x1_apply (E : FVec Ideal S16x16 .f32) (W : FVec Ideal S4x1 .f32)
    (h1 : S16x16.BroadcastsInDim S16x1x16x1 (![0, 2] : Fin 2 → Fin S16x1x16x1.rank))
    (h2 : S4x1.BroadcastsInDim S1x4x1x1 (![1, 3] : Fin 2 → Fin S1x4x1x1.rank))
    (h3 : S16x1x16x1.BroadcastsInDim S16x4x16x1 (![0, 1, 2, 3] : Fin 4 → Fin S16x4x16x1.rank))
    (h4 : S1x4x1x1.BroadcastsInDim S16x4x16x1 (![0, 1, 2, 3] : Fin 4 → Fin S16x4x16x1.rank))
    (h5 : S16x4x16x1.ShapeCasts S64x16) (a : Fin 64) (b : Fin 16) :
    shapeCast S64x16 (mulf (broadcastInDim S16x4x16x1 ![0, 1, 2, 3] h3 (broadcastInDim S16x1x16x1 ![0, 2] h1 E))
        (broadcastInDim S16x4x16x1 ![0, 1, 2, 3] h4 (broadcastInDim S1x4x1x1 ![1, 3] h2 W))) h5 (ix2 a b)
      = E (ix2 (⟨a.val / 4, by omega⟩ : Fin 16) (⟨b.val / 1, by omega⟩ : Fin 16))
        * W (ix2 (⟨a.val % 4, Nat.mod_lt _ (by norm_num)⟩ : Fin 4) (⟨b.val % 1, Nat.mod_lt _ (by norm_num)⟩ : Fin 1)) := by
  have ha := a.isLt
  have hb := b.isLt
  refine (shapeCast_apply _ h5 (ix2 a b)
    (ix4 (⟨a.val / 4, by omega⟩ : Fin 16) (⟨a.val % 4, by omega⟩ : Fin 4)
      (⟨b.val / 1, by omega⟩ : Fin 16) (⟨b.val % 1, by omega⟩ : Fin 1)) ?_).trans ?_
  · rw [Shape.rowMajor_val_four, Shape.rowMajor_val_two]
    show ((a.val / 4 * 4 + a.val % 4) * 16 + b.val / 1) * 1 + b.val % 1 = a.val * 16 + b.val
    omega
  refine (mulf_apply _ _ _).trans ?_
  refine congrArg₂ (· * ·) ?_ ?_
  · refine (broadcastInDim_apply _ h3 _ _
      (ix4 (⟨a.val / 4, by omega⟩ : Fin 16) (0 : Fin 1) (⟨b.val / 1, by omega⟩ : Fin 16) (0 : Fin 1)) ?_).trans ?_
    · intro k
      match k with
      | ⟨0, _⟩ => rfl
      | ⟨1, _⟩ => rfl
      | ⟨2, _⟩ => rfl
      | ⟨3, _⟩ => rfl
    refine broadcastInDim_apply _ h1 _ _ _ ?_
    intro k
    match k with
    | ⟨0, _⟩ => rfl
    | ⟨1, _⟩ => rfl
  · refine (broadcastInDim_apply _ h4 _ _
      (ix4 (0 : Fin 1) (⟨a.val % 4, by omega⟩ : Fin 4) (0 : Fin 1) (⟨b.val % 1, by omega⟩ : Fin 1)) ?_).trans ?_
    · intro k
      match k with
      | ⟨0, _⟩ => rfl
      | ⟨1, _⟩ => rfl
      | ⟨2, _⟩ => rfl
      | ⟨3, _⟩ => first | rfl | exact Nat.mod_one _
    refine broadcastInDim_apply _ h2 _ _ _ ?_
    intro k
    match k with
    | ⟨0, _⟩ => rfl
    | ⟨1, _⟩ => first | rfl | exact Nat.mod_one _

end Cert.KernelIdeal.Mid

end
-- ==== Proof.MidWeightsKeep.lean ====
import proofs.«112536_j65481071403406_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Mid

open Cert.KernelIdeal Cert.KernelIdeal.Gen Idealize.ShloMosaic Idealize.ShloMosaic.TcCoe Idealize.SL.Sem ValueIdx

/-! # Buffers that a stretch of host operations leaves alone

Each stretch of host operations between the two kernels writes the buffers listed here and no other, so any other
buffer holds after the stretch what it held before. Chained, this carries a buffer written in one stretch forward to the
second kernel's entry, and carries an argument of the program back to the launch memory. -/

variable {F : FTy → Type} [FloatOps F]
variable (m : (ℓ : Loc nD τ sig) → Buf (Elt F) ℓ) (ρ : Dev nD → PrngReg) (c : Dev nD)

/-- What the reshape before the first kernel writes. -/
abbrev wr0 : List (Ref sig .tc) := [main_v0]
/-- What stretch `hostOps1` writes. -/
abbrev wr1 : List (Ref sig .tc) := [main_v2, main_cst, main_v3, main_v4, main_cst_0, main_v5, main_cst_1, main_v6, main_v7, main_cst_2, main_v8, main_v9, main_v10, main_v11, main_v12, main_v13, main_v14, main_v15, main_v16, main_v17, main_v18, main_v19, main_v20, main_v21, main_v22, main_v23, main_v24, main_v25, main_v26, main_v27, main_v28, main_v29, main_c, main_v30, main_v31, main_v32, main_v33]
/-- What stretch `hostOps1_1` writes. -/
abbrev wr1_1 : List (Ref sig .tc) := [main_call0_v0, main_call0_v1, main_call0_v2, main_call0_v3, main_call0_v4, main_v34]
/-- What stretch `hostOps1_2` writes. -/
abbrev wr1_2 : List (Ref sig .tc) := [main_v35, main_v36, main_v37, main_v38, main_v39, main_v40, main_c_3, main_v41, main_v42, main_v43, main_v44]
/-- What stretch `hostOps1_3` writes. -/
abbrev wr1_3 : List (Ref sig .tc) := [main_call1_v0, main_call1_v1, main_call1_v2, main_call1_v3, main_call1_v4, main_v45]
/-- What stretch `hostOps1_4` writes. -/
abbrev wr1_4 : List (Ref sig .tc) := [main_v46, main_v47, main_v48, main_v49, main_v50, main_v51, main_c_4, main_v52, main_v53, main_v54, main_v55]
/-- What stretch `hostOps1_5` writes. -/
abbrev wr1_5 : List (Ref sig .tc) := [main_call2_v0, main_call2_v1, main_call2_v2, main_call2_v3, main_call2_v4, main_v56]
/-- What stretch `hostOps1_6` writes. -/
abbrev wr1_6 : List (Ref sig .tc) := [main_v57, main_v58, main_v59, main_v60, main_v61, main_v62, main_c_5, main_v63, main_v64, main_v65, main_v66]
/-- What stretch `hostOps1_7` writes. -/
abbrev wr1_7 : List (Ref sig .tc) := [main_call3_v0, main_call3_v1, main_call3_v2, main_call3_v3, main_call3_v4, main_v67]
/-- What stretch `hostOps1_8` writes. -/
abbrev wr1_8 : List (Ref sig .tc) := [main_v68, main_v69, main_v70, main_v71, main_v72, main_v73, main_c_6, main_v74, main_v75, main_v76, main_v77]
/-- What stretch `hostOps1_9` writes. -/
abbrev wr1_9 : List (Ref sig .tc) := [main_call4_v0, main_call4_v1, main_call4_v2, main_call4_v3, main_call4_v4, main_v78]
/-- What stretch `hostOps1_10` writes. -/
abbrev wr1_10 : List (Ref sig .tc) := [main_v79, main_v80, main_v81, main_v82, main_v83, main_v84, main_c_7, main_v85, main_v86, main_v87, main_v88]
/-- What stretch `hostOps1_11` writes. -/
abbrev wr1_11 : List (Ref sig .tc) := [main_call5_v0, main_call5_v1, main_call5_v2, main_call5_v3, main_call5_v4, main_v89]
/-- What stretch `hostOps1_12` writes. -/
abbrev wr1_12 : List (Ref sig .tc) := [main_v90, main_v91, main_v92, main_v93, main_v94, main_v95, main_c_8, main_v96, main_v97, main_v98, main_v99]
/-- What stretch `hostOps1_13` writes. -/
abbrev wr1_13 : List (Ref sig .tc) := [main_call6_v0, main_call6_v1, main_call6_v2, main_call6_v3, main_call6_v4, main_v100]
/-- What stretch `hostOps1_14` writes. -/
abbrev wr1_14 : List (Ref sig .tc) := [main_v101, main_v102, main_v103, main_v104, main_v105, main_v106, main_c_9, main_v107, main_v108, main_v109, main_v110]
/-- What stretch `hostOps1_15` writes. -/
abbrev wr1_15 : List (Ref sig .tc) := [main_call7_v0, main_call7_v1, main_call7_v2, main_call7_v3, main_call7_v4, main_v111]
/-- What stretch `hostOps1_16` writes. -/
abbrev wr1_16 : List (Ref sig .tc) := [main_v112, main_v113, main_v114, main_v115]

theorem keep0 (r : Ref sig .tc) (hr : r ∉ wr0) : W1 m ρ c (Proc.devRef .tc r) = W0 m ρ c (Proc.devRef .tc r) := by
  refine StableHlo.after_of_forall_not_mem (b := Proc.devRef .tc r) _ _ (List.forall_iff_forall_mem.mp ?_)
  simp only [hostOps0, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1 (r : Ref sig .tc) (hr : r ∉ wr1) :
    W3 m ρ c (Proc.devRef .tc r) = W2 m ρ c (Proc.devRef .tc r) := by
  refine StableHlo.after_of_forall_not_mem (b := Proc.devRef .tc r) _ _ (List.forall_iff_forall_mem.mp ?_)
  simp only [hostOps1, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_1 (r : Ref sig .tc) (hr : r ∉ wr1_1) :
    W4 m ρ c (Proc.devRef .tc r) = W3 m ρ c (Proc.devRef .tc r) := by
  refine StableHlo.after_of_forall_not_mem (b := Proc.devRef .tc r) _ _ (List.forall_iff_forall_mem.mp ?_)
  simp only [hostOps1_1, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_2 (r : Ref sig .tc) (hr : r ∉ wr1_2) :
    W5 m ρ c (Proc.devRef .tc r) = W4 m ρ c (Proc.devRef .tc r) := by
  refine StableHlo.after_of_forall_not_mem (b := Proc.devRef .tc r) _ _ (List.forall_iff_forall_mem.mp ?_)
  simp only [hostOps1_2, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_3 (r : Ref sig .tc) (hr : r ∉ wr1_3) :
    W6 m ρ c (Proc.devRef .tc r) = W5 m ρ c (Proc.devRef .tc r) := by
  refine StableHlo.after_of_forall_not_mem (b := Proc.devRef .tc r) _ _ (List.forall_iff_forall_mem.mp ?_)
  simp only [hostOps1_3, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_4 (r : Ref sig .tc) (hr : r ∉ wr1_4) :
    W7 m ρ c (Proc.devRef .tc r) = W6 m ρ c (Proc.devRef .tc r) := by
  refine StableHlo.after_of_forall_not_mem (b := Proc.devRef .tc r) _ _ (List.forall_iff_forall_mem.mp ?_)
  simp only [hostOps1_4, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_5 (r : Ref sig .tc) (hr : r ∉ wr1_5) :
    W8 m ρ c (Proc.devRef .tc r) = W7 m ρ c (Proc.devRef .tc r) := by
  refine StableHlo.after_of_forall_not_mem (b := Proc.devRef .tc r) _ _ (List.forall_iff_forall_mem.mp ?_)
  simp only [hostOps1_5, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_6 (r : Ref sig .tc) (hr : r ∉ wr1_6) :
    W9 m ρ c (Proc.devRef .tc r) = W8 m ρ c (Proc.devRef .tc r) := by
  refine StableHlo.after_of_forall_not_mem (b := Proc.devRef .tc r) _ _ (List.forall_iff_forall_mem.mp ?_)
  simp only [hostOps1_6, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_7 (r : Ref sig .tc) (hr : r ∉ wr1_7) :
    W10 m ρ c (Proc.devRef .tc r) = W9 m ρ c (Proc.devRef .tc r) := by
  refine StableHlo.after_of_forall_not_mem (b := Proc.devRef .tc r) _ _ (List.forall_iff_forall_mem.mp ?_)
  simp only [hostOps1_7, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_8 (r : Ref sig .tc) (hr : r ∉ wr1_8) :
    W11 m ρ c (Proc.devRef .tc r) = W10 m ρ c (Proc.devRef .tc r) := by
  refine StableHlo.after_of_forall_not_mem (b := Proc.devRef .tc r) _ _ (List.forall_iff_forall_mem.mp ?_)
  simp only [hostOps1_8, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_9 (r : Ref sig .tc) (hr : r ∉ wr1_9) :
    W12 m ρ c (Proc.devRef .tc r) = W11 m ρ c (Proc.devRef .tc r) := by
  refine StableHlo.after_of_forall_not_mem (b := Proc.devRef .tc r) _ _ (List.forall_iff_forall_mem.mp ?_)
  simp only [hostOps1_9, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_10 (r : Ref sig .tc) (hr : r ∉ wr1_10) :
    W13 m ρ c (Proc.devRef .tc r) = W12 m ρ c (Proc.devRef .tc r) := by
  refine StableHlo.after_of_forall_not_mem (b := Proc.devRef .tc r) _ _ (List.forall_iff_forall_mem.mp ?_)
  simp only [hostOps1_10, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_11 (r : Ref sig .tc) (hr : r ∉ wr1_11) :
    W14 m ρ c (Proc.devRef .tc r) = W13 m ρ c (Proc.devRef .tc r) := by
  refine StableHlo.after_of_forall_not_mem (b := Proc.devRef .tc r) _ _ (List.forall_iff_forall_mem.mp ?_)
  simp only [hostOps1_11, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_12 (r : Ref sig .tc) (hr : r ∉ wr1_12) :
    W15 m ρ c (Proc.devRef .tc r) = W14 m ρ c (Proc.devRef .tc r) := by
  refine StableHlo.after_of_forall_not_mem (b := Proc.devRef .tc r) _ _ (List.forall_iff_forall_mem.mp ?_)
  simp only [hostOps1_12, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_13 (r : Ref sig .tc) (hr : r ∉ wr1_13) :
    W16 m ρ c (Proc.devRef .tc r) = W15 m ρ c (Proc.devRef .tc r) := by
  refine StableHlo.after_of_forall_not_mem (b := Proc.devRef .tc r) _ _ (List.forall_iff_forall_mem.mp ?_)
  simp only [hostOps1_13, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_14 (r : Ref sig .tc) (hr : r ∉ wr1_14) :
    W17 m ρ c (Proc.devRef .tc r) = W16 m ρ c (Proc.devRef .tc r) := by
  refine StableHlo.after_of_forall_not_mem (b := Proc.devRef .tc r) _ _ (List.forall_iff_forall_mem.mp ?_)
  simp only [hostOps1_14, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_15 (r : Ref sig .tc) (hr : r ∉ wr1_15) :
    W18 m ρ c (Proc.devRef .tc r) = W17 m ρ c (Proc.devRef .tc r) := by
  refine StableHlo.after_of_forall_not_mem (b := Proc.devRef .tc r) _ _ (List.forall_iff_forall_mem.mp ?_)
  simp only [hostOps1_15, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)
theorem keep1_16 (r : Ref sig .tc) (hr : r ∉ wr1_16) :
    W19 m ρ c (Proc.devRef .tc r) = W18 m ρ c (Proc.devRef .tc r) := by
  refine StableHlo.after_of_forall_not_mem (b := Proc.devRef .tc r) _ _ (List.forall_iff_forall_mem.mp ?_)
  simp only [hostOps1_16, List.Forall, StableHlo.nullary_writes, StableHlo.unary_writes, StableHlo.binary_writes,
    StableHlo.reshape_writes, Finset.mem_singleton]
  repeat' apply And.intro
  all_goals
    refine StableHlo.devRef_ne_of_ne fun e => ?_
    subst e
    exact hr (by decide)

/-! ## Forward: from the stretch that wrote a buffer to the second kernel's entry -/

/-- Everything written after the contents `W18`. -/
abbrev after18 : List (Ref sig .tc) := wr1_16
/-- Everything written after the contents `W17`. -/
abbrev after17 : List (Ref sig .tc) := wr1_15 ++ after18
/-- Everything written after the contents `W16`. -/
abbrev after16 : List (Ref sig .tc) := wr1_14 ++ after17
/-- Everything written after the contents `W15`. -/
abbrev after15 : List (Ref sig .tc) := wr1_13 ++ after16
/-- Everything written after the contents `W14`. -/
abbrev after14 : List (Ref sig .tc) := wr1_12 ++ after15
/-- Everything written after the contents `W13`. -/
abbrev after13 : List (Ref sig .tc) := wr1_11 ++ after14
/-- Everything written after the contents `W12`. -/
abbrev after12 : List (Ref sig .tc) := wr1_10 ++ after13
/-- Everything written after the contents `W11`. -/
abbrev after11 : List (Ref sig .tc) := wr1_9 ++ after12
/-- Everything written after the contents `W10`. -/
abbrev after10 : List (Ref sig .tc) := wr1_8 ++ after11
/-- Everything written after the contents `W9`. -/
abbrev after9 : List (Ref sig .tc) := wr1_7 ++ after10
/-- Everything written after the contents `W8`. -/
abbrev after8 : List (Ref sig .tc) := wr1_6 ++ after9
/-- Everything written after the contents `W7`. -/
abbrev after7 : List (Ref sig .tc) := wr1_5 ++ after8
/-- Everything written after the contents `W6`. -/
abbrev after6 : List (Ref sig .tc) := wr1_4 ++ after7
/-- Everything written after the contents `W5`. -/
abbrev after5 : List (Ref sig .tc) := wr1_3 ++ after6
/-- Everything written after the contents `W4`. -/
abbrev after4 : List (Ref sig .tc) := wr1_2 ++ after5
/-- Everything written after the contents `W3`. -/
abbrev after3 : List (Ref sig .tc) := wr1_1 ++ after4

theorem from18 (r : Ref sig .tc) (hr : r ∉ after18) : W19 m ρ c (Proc.devRef .tc r) = W18 m ρ c (Proc.devRef .tc r) :=
  keep1_16 m ρ c r hr
theorem from17 (r : Ref sig .tc) (hr : r ∉ after17) : W19 m ρ c (Proc.devRef .tc r) = W17 m ρ c (Proc.devRef .tc r) :=
  (from18 m ρ c r fun h => hr (List.mem_append_right _ h)).trans (keep1_15 m ρ c r fun h => hr (List.mem_append_left _ h))
theorem from16 (r : Ref sig .tc) (hr : r ∉ after16) : W19 m ρ c (Proc.devRef .tc r) = W16 m ρ c (Proc.devRef .tc r) :=
  (from17 m ρ c r fun h => hr (List.mem_append_right _ h)).trans (keep1_14 m ρ c r fun h => hr (List.mem_append_left _ h))
theorem from15 (r : Ref sig .tc) (hr : r ∉ after15) : W19 m ρ c (Proc.devRef .tc r) = W15 m ρ c (Proc.devRef .tc r) :=
  (from16 m ρ c r fun h => hr (List.mem_append_right _ h)).trans (keep1_13 m ρ c r fun h => hr (List.mem_append_left _ h))
theorem from14 (r : Ref sig .tc) (hr : r ∉ after14) : W19 m ρ c (Proc.devRef .tc r) = W14 m ρ c (Proc.devRef .tc r) :=
  (from15 m ρ c r fun h => hr (List.mem_append_right _ h)).trans (keep1_12 m ρ c r fun h => hr (List.mem_append_left _ h))
theorem from13 (r : Ref sig .tc) (hr : r ∉ after13) : W19 m ρ c (Proc.devRef .tc r) = W13 m ρ c (Proc.devRef .tc r) :=
  (from14 m ρ c r fun h => hr (List.mem_append_right _ h)).trans (keep1_11 m ρ c r fun h => hr (List.mem_append_left _ h))
theorem from12 (r : Ref sig .tc) (hr : r ∉ after12) : W19 m ρ c (Proc.devRef .tc r) = W12 m ρ c (Proc.devRef .tc r) :=
  (from13 m ρ c r fun h => hr (List.mem_append_right _ h)).trans (keep1_10 m ρ c r fun h => hr (List.mem_append_left _ h))
theorem from11 (r : Ref sig .tc) (hr : r ∉ after11) : W19 m ρ c (Proc.devRef .tc r) = W11 m ρ c (Proc.devRef .tc r) :=
  (from12 m ρ c r fun h => hr (List.mem_append_right _ h)).trans (keep1_9 m ρ c r fun h => hr (List.mem_append_left _ h))
theorem from10 (r : Ref sig .tc) (hr : r ∉ after10) : W19 m ρ c (Proc.devRef .tc r) = W10 m ρ c (Proc.devRef .tc r) :=
  (from11 m ρ c r fun h => hr (List.mem_append_right _ h)).trans (keep1_8 m ρ c r fun h => hr (List.mem_append_left _ h))
theorem from9 (r : Ref sig .tc) (hr : r ∉ after9) : W19 m ρ c (Proc.devRef .tc r) = W9 m ρ c (Proc.devRef .tc r) :=
  (from10 m ρ c r fun h => hr (List.mem_append_right _ h)).trans (keep1_7 m ρ c r fun h => hr (List.mem_append_left _ h))
theorem from8 (r : Ref sig .tc) (hr : r ∉ after8) : W19 m ρ c (Proc.devRef .tc r) = W8 m ρ c (Proc.devRef .tc r) :=
  (from9 m ρ c r fun h => hr (List.mem_append_right _ h)).trans (keep1_6 m ρ c r fun h => hr (List.mem_append_left _ h))
theorem from7 (r : Ref sig .tc) (hr : r ∉ after7) : W19 m ρ c (Proc.devRef .tc r) = W7 m ρ c (Proc.devRef .tc r) :=
  (from8 m ρ c r fun h => hr (List.mem_append_right _ h)).trans (keep1_5 m ρ c r fun h => hr (List.mem_append_left _ h))
theorem from6 (r : Ref sig .tc) (hr : r ∉ after6) : W19 m ρ c (Proc.devRef .tc r) = W6 m ρ c (Proc.devRef .tc r) :=
  (from7 m ρ c r fun h => hr (List.mem_append_right _ h)).trans (keep1_4 m ρ c r fun h => hr (List.mem_append_left _ h))
theorem from5 (r : Ref sig .tc) (hr : r ∉ after5) : W19 m ρ c (Proc.devRef .tc r) = W5 m ρ c (Proc.devRef .tc r) :=
  (from6 m ρ c r fun h => hr (List.mem_append_right _ h)).trans (keep1_3 m ρ c r fun h => hr (List.mem_append_left _ h))
theorem from4 (r : Ref sig .tc) (hr : r ∉ after4) : W19 m ρ c (Proc.devRef .tc r) = W4 m ρ c (Proc.devRef .tc r) :=
  (from5 m ρ c r fun h => hr (List.mem_append_right _ h)).trans (keep1_2 m ρ c r fun h => hr (List.mem_append_left _ h))
theorem from3 (r : Ref sig .tc) (hr : r ∉ after3) : W19 m ρ c (Proc.devRef .tc r) = W3 m ρ c (Proc.devRef .tc r) :=
  (from4 m ρ c r fun h => hr (List.mem_append_right _ h)).trans (keep1_1 m ρ c r fun h => hr (List.mem_append_left _ h))

/-! ## Backward: a buffer nothing has written yet holds the launch memory -/

/-- Everything the host operations write up to the contents `W3`. -/
abbrev upto3 : List (Ref sig .tc) := wr1 ++ wr0
/-- Everything the host operations write up to the contents `W4`. -/
abbrev upto4 : List (Ref sig .tc) := wr1_1 ++ upto3
/-- Everything the host operations write up to the contents `W5`. -/
abbrev upto5 : List (Ref sig .tc) := wr1_2 ++ upto4
/-- Everything the host operations write up to the contents `W6`. -/
abbrev upto6 : List (Ref sig .tc) := wr1_3 ++ upto5
/-- Everything the host operations write up to the contents `W7`. -/
abbrev upto7 : List (Ref sig .tc) := wr1_4 ++ upto6
/-- Everything the host operations write up to the contents `W8`. -/
abbrev upto8 : List (Ref sig .tc) := wr1_5 ++ upto7
/-- Everything the host operations write up to the contents `W9`. -/
abbrev upto9 : List (Ref sig .tc) := wr1_6 ++ upto8
/-- Everything the host operations write up to the contents `W10`. -/
abbrev upto10 : List (Ref sig .tc) := wr1_7 ++ upto9
/-- Everything the host operations write up to the contents `W11`. -/
abbrev upto11 : List (Ref sig .tc) := wr1_8 ++ upto10
/-- Everything the host operations write up to the contents `W12`. -/
abbrev upto12 : List (Ref sig .tc) := wr1_9 ++ upto11
/-- Everything the host operations write up to the contents `W13`. -/
abbrev upto13 : List (Ref sig .tc) := wr1_10 ++ upto12
/-- Everything the host operations write up to the contents `W14`. -/
abbrev upto14 : List (Ref sig .tc) := wr1_11 ++ upto13
/-- Everything the host operations write up to the contents `W15`. -/
abbrev upto15 : List (Ref sig .tc) := wr1_12 ++ upto14
/-- Everything the host operations write up to the contents `W16`. -/
abbrev upto16 : List (Ref sig .tc) := wr1_13 ++ upto15
/-- Everything the host operations write up to the contents `W17`. -/
abbrev upto17 : List (Ref sig .tc) := wr1_14 ++ upto16
/-- Everything the host operations write up to the contents `W18`. -/
abbrev upto18 : List (Ref sig .tc) := wr1_15 ++ upto17

theorem launch3 (r : Ref sig .tc) (hr : r ∉ upto3) (h0 : ∀ w, Pipeline.arrRef spec0 w ≠ r) :
    W3 m ρ c (Proc.devRef .tc r) = m ((c : Thread nD τ).loc r) :=
  (keep1 m ρ c r fun h => hr (List.mem_append_left _ h)).trans
    ((W2_of_ne m ρ c r h0).trans (keep0 m ρ c r fun h => hr (List.mem_append_right _ h)))
theorem launch4 (r : Ref sig .tc) (hr : r ∉ upto4) (h0 : ∀ w, Pipeline.arrRef spec0 w ≠ r) :
    W4 m ρ c (Proc.devRef .tc r) = m ((c : Thread nD τ).loc r) :=
  (keep1_1 m ρ c r fun h => hr (List.mem_append_left _ h)).trans (launch3 m ρ c r (fun h => hr (List.mem_append_right _ h)) h0)
theorem launch5 (r : Ref sig .tc) (hr : r ∉ upto5) (h0 : ∀ w, Pipeline.arrRef spec0 w ≠ r) :
    W5 m ρ c (Proc.devRef .tc r) = m ((c : Thread nD τ).loc r) :=
  (keep1_2 m ρ c r fun h => hr (List.mem_append_left _ h)).trans (launch4 m ρ c r (fun h => hr (List.mem_append_right _ h)) h0)
theorem launch6 (r : Ref sig .tc) (hr : r ∉ upto6) (h0 : ∀ w, Pipeline.arrRef spec0 w ≠ r) :
    W6 m ρ c (Proc.devRef .tc r) = m ((c : Thread nD τ).loc r) :=
  (keep1_3 m ρ c r fun h => hr (List.mem_append_left _ h)).trans (launch5 m ρ c r (fun h => hr (List.mem_append_right _ h)) h0)
theorem launch7 (r : Ref sig .tc) (hr : r ∉ upto7) (h0 : ∀ w, Pipeline.arrRef spec0 w ≠ r) :
    W7 m ρ c (Proc.devRef .tc r) = m ((c : Thread nD τ).loc r) :=
  (keep1_4 m ρ c r fun h => hr (List.mem_append_left _ h)).trans (launch6 m ρ c r (fun h => hr (List.mem_append_right _ h)) h0)
theorem launch8 (r : Ref sig .tc) (hr : r ∉ upto8) (h0 : ∀ w, Pipeline.arrRef spec0 w ≠ r) :
    W8 m ρ c (Proc.devRef .tc r) = m ((c : Thread nD τ).loc r) :=
  (keep1_5 m ρ c r fun h => hr (List.mem_append_left _ h)).trans (launch7 m ρ c r (fun h => hr (List.mem_append_right _ h)) h0)
theorem launch9 (r : Ref sig .tc) (hr : r ∉ upto9) (h0 : ∀ w, Pipeline.arrRef spec0 w ≠ r) :
    W9 m ρ c (Proc.devRef .tc r) = m ((c : Thread nD τ).loc r) :=
  (keep1_6 m ρ c r fun h => hr (List.mem_append_left _ h)).trans (launch8 m ρ c r (fun h => hr (List.mem_append_right _ h)) h0)
theorem launch10 (r : Ref sig .tc) (hr : r ∉ upto10) (h0 : ∀ w, Pipeline.arrRef spec0 w ≠ r) :
    W10 m ρ c (Proc.devRef .tc r) = m ((c : Thread nD τ).loc r) :=
  (keep1_7 m ρ c r fun h => hr (List.mem_append_left _ h)).trans (launch9 m ρ c r (fun h => hr (List.mem_append_right _ h)) h0)
theorem launch11 (r : Ref sig .tc) (hr : r ∉ upto11) (h0 : ∀ w, Pipeline.arrRef spec0 w ≠ r) :
    W11 m ρ c (Proc.devRef .tc r) = m ((c : Thread nD τ).loc r) :=
  (keep1_8 m ρ c r fun h => hr (List.mem_append_left _ h)).trans (launch10 m ρ c r (fun h => hr (List.mem_append_right _ h)) h0)
theorem launch12 (r : Ref sig .tc) (hr : r ∉ upto12) (h0 : ∀ w, Pipeline.arrRef spec0 w ≠ r) :
    W12 m ρ c (Proc.devRef .tc r) = m ((c : Thread nD τ).loc r) :=
  (keep1_9 m ρ c r fun h => hr (List.mem_append_left _ h)).trans (launch11 m ρ c r (fun h => hr (List.mem_append_right _ h)) h0)
theorem launch13 (r : Ref sig .tc) (hr : r ∉ upto13) (h0 : ∀ w, Pipeline.arrRef spec0 w ≠ r) :
    W13 m ρ c (Proc.devRef .tc r) = m ((c : Thread nD τ).loc r) :=
  (keep1_10 m ρ c r fun h => hr (List.mem_append_left _ h)).trans (launch12 m ρ c r (fun h => hr (List.mem_append_right _ h)) h0)
theorem launch14 (r : Ref sig .tc) (hr : r ∉ upto14) (h0 : ∀ w, Pipeline.arrRef spec0 w ≠ r) :
    W14 m ρ c (Proc.devRef .tc r) = m ((c : Thread nD τ).loc r) :=
  (keep1_11 m ρ c r fun h => hr (List.mem_append_left _ h)).trans (launch13 m ρ c r (fun h => hr (List.mem_append_right _ h)) h0)
theorem launch15 (r : Ref sig .tc) (hr : r ∉ upto15) (h0 : ∀ w, Pipeline.arrRef spec0 w ≠ r) :
    W15 m ρ c (Proc.devRef .tc r) = m ((c : Thread nD τ).loc r) :=
  (keep1_12 m ρ c r fun h => hr (List.mem_append_left _ h)).trans (launch14 m ρ c r (fun h => hr (List.mem_append_right _ h)) h0)
theorem launch16 (r : Ref sig .tc) (hr : r ∉ upto16) (h0 : ∀ w, Pipeline.arrRef spec0 w ≠ r) :
    W16 m ρ c (Proc.devRef .tc r) = m ((c : Thread nD τ).loc r) :=
  (keep1_13 m ρ c r fun h => hr (List.mem_append_left _ h)).trans (launch15 m ρ c r (fun h => hr (List.mem_append_right _ h)) h0)
theorem launch17 (r : Ref sig .tc) (hr : r ∉ upto17) (h0 : ∀ w, Pipeline.arrRef spec0 w ≠ r) :
    W17 m ρ c (Proc.devRef .tc r) = m ((c : Thread nD τ).loc r) :=
  (keep1_14 m ρ c r fun h => hr (List.mem_append_left _ h)).trans (launch16 m ρ c r (fun h => hr (List.mem_append_right _ h)) h0)
theorem launch18 (r : Ref sig .tc) (hr : r ∉ upto18) (h0 : ∀ w, Pipeline.arrRef spec0 w ≠ r) :
    W18 m ρ c (Proc.devRef .tc r) = m ((c : Thread nD τ).loc r) :=
  (keep1_15 m ρ c r fun h => hr (List.mem_append_left _ h)).trans (launch17 m ρ c r (fun h => hr (List.mem_append_right _ h)) h0)

end Cert.KernelIdeal.Mid

end
-- ==== Proof.MidWeights.lean ====
import proofs.«112536_j65481071403406_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws
import proofs.«112536_j65481071403406_2_alg».proof.Proof.MidWeightsPure
import proofs.«112536_j65481071403406_2_alg».proof.Proof.MidWeightsKeep

noncomputable section

namespace Cert.KernelIdeal.Mid

open Cert.KernelIdeal Cert.KernelIdeal.Gen Idealize.ShloMosaic Idealize.ShloMosaic.TcCoe Idealize.SL.Sem ValueIdx

/-! # The second kernel's weights and biases, read at an entry

Between the two kernels the host builds, for each of the eight dense layers, the block matrix kron(I, W) with
sixteen copies of the layer's weight matrix W on the diagonal, and the layer's bias repeated sixteen times. Here
each of these sixteen buffers, as the second kernel finds it, is first identified with a pure term of the launch
memory's argument (an equation of whole arrays) and then read at an entry:
kron(I, W)[a, b] = I[a / din, b / dout] · W[a % din, b % dout] with I[p, q] one if p = q and zero otherwise, and
the repeated bias at (0, b) is the bias at b % dout. -/

/-- The 16 × 16 unit matrix as the host operations build it: the comparison of the row iota (plus a zero) with the
    column iota, converted to a float. -/
def eyeT : FVec Ideal S16x16 .f32 :=
  uitofp (F := Ideal) .f32 (cmpi .eq (addi (iotaInDim S16x16 32 0) (broadcastInDim S16x16 ![] bcast_S_S16x16 (constantI S_ 32 0#32)))
    (iotaInDim S16x16 32 1))

theorem eyeT_at (p q : Fin 16) : eyeT (ix2 p q) = if p.val = q.val then (1 : EReal) else 0 :=
  eye_apply bcast_S_S16x16 p q

/-- The block matrix kron(E, W) for W of 8 rows and 16 columns, as the host operations build it. -/
def kron8x16 (E : FVec Ideal S16x16 .f32) (W : FVec Ideal S8x16 .f32) : FVec Ideal S128x256 .f32 :=
  shapeCast S128x256 (mulf
    (broadcastInDim S16x8x16x16 ![0, 1, 2, 3] bcast_S16x1x16x1_S16x8x16x16_0_1_2_3 (broadcastInDim S16x1x16x1 ![0, 2] bcast_S16x16_S16x1x16x1_0_2 E))
    (broadcastInDim S16x8x16x16 ![0, 1, 2, 3] bcast_S1x8x1x16_S16x8x16x16_0_1_2_3 (broadcastInDim S1x8x1x16 ![1, 3] bcast_S8x16_S1x8x1x16_1_3 W)))
    shapeCasts_S16x8x16x16_S128x256

theorem kron8x16_at (E : FVec Ideal S16x16 .f32) (W : FVec Ideal S8x16 .f32) (a : Fin 128) (b : Fin 256) :
    kron8x16 E W (ix2 a b)
      = E (ix2 (⟨a.val / 8, by omega⟩ : Fin 16) (⟨b.val / 16, by omega⟩ : Fin 16))
        * W (ix2 (⟨a.val % 8, Nat.mod_lt _ (by norm_num)⟩ : Fin 8) (⟨b.val % 16, Nat.mod_lt _ (by norm_num)⟩ : Fin 16)) :=
  kron8x16_apply E W _ _ _ _ _ a b

/-- The block matrix kron(E, W) for W of 16 rows and 16 columns, as the host operations build it. -/
def kron16x16 (E : FVec Ideal S16x16 .f32) (W : FVec Ideal S16x16 .f32) : FVec Ideal S256x256 .f32 :=
  shapeCast S256x256 (mulf
    (broadcastInDim S16x16x16x16 ![0, 1, 2, 3] bcast_S16x1x16x1_S16x16x16x16_0_1_2_3 (broadcastInDim S16x1x16x1 ![0, 2] bcast_S16x16_S16x1x16x1_0_2 E))
    (broadcastInDim S16x16x16x16 ![0, 1, 2, 3] bcast_S1x16x1x16_S16x16x16x16_0_1_2_3 (broadcastInDim S1x16x1x16 ![1, 3] bcast_S16x16_S1x16x1x16_1_3 W)))
    shapeCasts_S16x16x16x16_S256x256

theorem kron16x16_at (E : FVec Ideal S16x16 .f32) (W : FVec Ideal S16x16 .f32) (a : Fin 256) (b : Fin 256) :
    kron16x16 E W (ix2 a b)
      = E (ix2 (⟨a.val / 16, by omega⟩ : Fin 16) (⟨b.val / 16, by omega⟩ : Fin 16))
        * W (ix2 (⟨a.val % 16, Nat.mod_lt _ (by norm_num)⟩ : Fin 16) (⟨b.val % 16, Nat.mod_lt _ (by norm_num)⟩ : Fin 16)) :=
  kron16x16_apply E W _ _ _ _ _ a b

/-- The block matrix kron(E, W) for W of 16 rows and 12 columns, as the host operations build it. -/
def kron16x12 (E : FVec Ideal S16x16 .f32) (W : FVec Ideal S16x12 .f32) : FVec Ideal S256x192 .f32 :=
  shapeCast S256x192 (mulf
    (broadcastInDim S16x16x16x12 ![0, 1, 2, 3] bcast_S16x1x16x1_S16x16x16x12_0_1_2_3 (broadcastInDim S16x1x16x1 ![0, 2] bcast_S16x16_S16x1x16x1_0_2 E))
    (broadcastInDim S16x16x16x12 ![0, 1, 2, 3] bcast_S1x16x1x12_S16x16x16x12_0_1_2_3 (broadcastInDim S1x16x1x12 ![1, 3] bcast_S16x12_S1x16x1x12_1_3 W)))
    shapeCasts_S16x16x16x12_S256x192

theorem kron16x12_at (E : FVec Ideal S16x16 .f32) (W : FVec Ideal S16x12 .f32) (a : Fin 256) (b : Fin 192) :
    kron16x12 E W (ix2 a b)
      = E (ix2 (⟨a.val / 16, by omega⟩ : Fin 16) (⟨b.val / 12, by omega⟩ : Fin 16))
        * W (ix2 (⟨a.val % 16, Nat.mod_lt _ (by norm_num)⟩ : Fin 16) (⟨b.val % 12, Nat.mod_lt _ (by norm_num)⟩ : Fin 12)) :=
  kron16x12_apply E W _ _ _ _ _ a b

/-- The block matrix kron(E, W) for W of 12 rows and 8 columns, as the host operations build it. -/
def kron12x8 (E : FVec Ideal S16x16 .f32) (W : FVec Ideal S12x8 .f32) : FVec Ideal S192x128 .f32 :=
  shapeCast S192x128 (mulf
    (broadcastInDim S16x12x16x8 ![0, 1, 2, 3] bcast_S16x1x16x1_S16x12x16x8_0_1_2_3 (broadcastInDim S16x1x16x1 ![0, 2] bcast_S16x16_S16x1x16x1_0_2 E))
    (broadcastInDim S16x12x16x8 ![0, 1, 2, 3] bcast_S1x12x1x8_S16x12x16x8_0_1_2_3 (broadcastInDim S1x12x1x8 ![1, 3] bcast_S12x8_S1x12x1x8_1_3 W)))
    shapeCasts_S16x12x16x8_S192x128

theorem kron12x8_at (E : FVec Ideal S16x16 .f32) (W : FVec Ideal S12x8 .f32) (a : Fin 192) (b : Fin 128) :
    kron12x8 E W (ix2 a b)
      = E (ix2 (⟨a.val / 12, by omega⟩ : Fin 16) (⟨b.val / 8, by omega⟩ : Fin 16))
        * W (ix2 (⟨a.val % 12, Nat.mod_lt _ (by norm_num)⟩ : Fin 12) (⟨b.val % 8, Nat.mod_lt _ (by norm_num)⟩ : Fin 8)) :=
  kron12x8_apply E W _ _ _ _ _ a b

/-- A bias of 16 entries repeated sixteen times, as the host operations build it. -/
def tile16 (x : FVec Ideal S16 .f32) : FVec Ideal S1x256 .f32 :=
  shapeCast S1x256 (shapeCast S256 (broadcastInDim S16x16 ![0, 1] bcast_S1x16_S16x16_0_1 (shapeCast S1x16 x shapeCasts_S16_S1x16))
    shapeCasts_S16x16_S256) shapeCasts_S256_S1x256

theorem tile16_at (x : FVec Ideal S16 .f32) (b : Fin 256) :
    tile16 x (ix2 (0 : Fin 1) b) = x (ix1 ⟨b.val % 16, Nat.mod_lt _ (by norm_num)⟩) :=
  tile16_apply x _ _ _ _ b

/-- A bias of 12 entries repeated sixteen times, as the host operations build it. -/
def tile12 (x : FVec Ideal S12 .f32) : FVec Ideal S1x192 .f32 :=
  shapeCast S1x192 (shapeCast S192 (broadcastInDim S16x12 ![0, 1] bcast_S1x12_S16x12_0_1 (shapeCast S1x12 x shapeCasts_S12_S1x12))
    shapeCasts_S16x12_S192) shapeCasts_S192_S1x192

theorem tile12_at (x : FVec Ideal S12 .f32) (b : Fin 192) :
    tile12 x (ix2 (0 : Fin 1) b) = x (ix1 ⟨b.val % 12, Nat.mod_lt _ (by norm_num)⟩) :=
  tile12_apply x _ _ _ _ b

/-- A bias of 8 entries repeated sixteen times, as the host operations build it. -/
def tile8 (x : FVec Ideal S8 .f32) : FVec Ideal S1x128 .f32 :=
  shapeCast S1x128 (shapeCast S128 (broadcastInDim S16x8 ![0, 1] bcast_S1x8_S16x8_0_1 (shapeCast S1x8 x shapeCasts_S8_S1x8))
    shapeCasts_S16x8_S128) shapeCasts_S128_S1x128

theorem tile8_at (x : FVec Ideal S8 .f32) (b : Fin 128) :
    tile8 x (ix2 (0 : Fin 1) b) = x (ix1 ⟨b.val % 8, Nat.mod_lt _ (by norm_num)⟩) :=
  tile8_apply x _ _ _ _ b

variable (m : (ℓ : Loc nD τ sig) → Buf (Elt Ideal) ℓ) (ρ : Dev nD → PrngReg) (c : Dev nD)

/-! ## Layer fm: weights [8, 16] from `main_arg3`, bias from `main_arg4` -/

theorem eye_step_fm (V : Valuation τ sig (Elt Ideal)) :
    StableHlo.after (hostOps1 (F := Ideal)) V (Proc.devRef .tc main_v33) = eyeT := by
  simp only [hostOps1]
  after_results
  rfl

theorem kron_step_fm (V : Valuation τ sig (Elt Ideal)) :
    StableHlo.after (hostOps1_1 (F := Ideal)) V (Proc.devRef .tc main_v34)
      = kron8x16 (V (Proc.devRef .tc main_v33)) (V (Proc.devRef .tc main_arg3)) := by
  simp only [hostOps1_1]
  after_results
  rfl

theorem tile_step_fm (V : Valuation τ sig (Elt Ideal)) :
    StableHlo.after (hostOps1_2 (F := Ideal)) V (Proc.devRef .tc main_v38) = tile16 (V (Proc.devRef .tc main_arg4)) := by
  simp only [hostOps1_2]
  after_results
  rfl

/-- The second kernel finds the block matrix of the unit matrix and the launch's `main_arg3` in `main_v34`. -/
theorem W_fm_eq : W19 m ρ c (Proc.devRef .tc main_v34) = kron8x16 eyeT (m ((c : Thread nD τ).loc main_arg3)) :=
  (from4 m ρ c main_v34 (by decide)).trans ((kron_step_fm (W3 m ρ c)).trans
    (congrArg₂ kron8x16 (eye_step_fm (W2 m ρ c)) (launch3 m ρ c main_arg3 (by decide) (by decide))))

/-- The second kernel finds the launch's `main_arg4`, repeated sixteen times, in `main_v38`. -/
theorem B_fm_eq : W19 m ρ c (Proc.devRef .tc main_v38) = tile16 (m ((c : Thread nD τ).loc main_arg4)) :=
  (from5 m ρ c main_v38 (by decide)).trans ((tile_step_fm (W4 m ρ c)).trans
    (congrArg tile16 (launch4 m ρ c main_arg4 (by decide) (by decide))))

theorem w_fm (a : Fin 128) (b : Fin 256) :
    W19 m ρ c (Proc.devRef .tc main_v34) (ix2 a b)
      = (if a.val / 8 = b.val / 16 then (1 : EReal) else 0)
        * m ((c : Thread nD τ).loc main_arg3) (ix2 (⟨a.val % 8, Nat.mod_lt _ (by norm_num)⟩ : Fin 8) (⟨b.val % 16, Nat.mod_lt _ (by norm_num)⟩ : Fin 16)) := by
  refine (congrFun (W_fm_eq m ρ c) (ix2 a b)).trans ((kron8x16_at _ _ a b).trans ?_)
  rw [eyeT_at]

theorem b_fm (b : Fin 256) :
    W19 m ρ c (Proc.devRef .tc main_v38) (ix2 (0 : Fin 1) b)
      = m ((c : Thread nD τ).loc main_arg4) (ix1 (⟨b.val % 16, Nat.mod_lt _ (by norm_num)⟩ : Fin 16)) :=
  (congrFun (B_fm_eq m ρ c) (ix2 (0 : Fin 1) b)).trans (tile16_at _ b)

/-! ## Layer c1: weights [16, 16] from `main_arg5`, bias from `main_arg6` -/

theorem eye_step_c1 (V : Valuation τ sig (Elt Ideal)) :
    StableHlo.after (hostOps1_2 (F := Ideal)) V (Proc.devRef .tc main_v44) = eyeT := by
  simp only [hostOps1_2]
  after_results
  rfl

theorem kron_step_c1 (V : Valuation τ sig (Elt Ideal)) :
    StableHlo.after (hostOps1_3 (F := Ideal)) V (Proc.devRef .tc main_v45)
      = kron16x16 (V (Proc.devRef .tc main_v44)) (V (Proc.devRef .tc main_arg5)) := by
  simp only [hostOps1_3]
  after_results
  rfl

theorem tile_step_c1 (V : Valuation τ sig (Elt Ideal)) :
    StableHlo.after (hostOps1_4 (F := Ideal)) V (Proc.devRef .tc main_v49) = tile16 (V (Proc.devRef .tc main_arg6)) := by
  simp only [hostOps1_4]
  after_results
  rfl

/-- The second kernel finds the block matrix of the unit matrix and the launch's `main_arg5` in `main_v45`. -/
theorem W_c1_eq : W19 m ρ c (Proc.devRef .tc main_v45) = kron16x16 eyeT (m ((c : Thread nD τ).loc main_arg5)) :=
  (from6 m ρ c main_v45 (by decide)).trans ((kron_step_c1 (W5 m ρ c)).trans
    (congrArg₂ kron16x16 (eye_step_c1 (W4 m ρ c)) (launch5 m ρ c main_arg5 (by decide) (by decide))))

/-- The second kernel finds the launch's `main_arg6`, repeated sixteen times, in `main_v49`. -/
theorem B_c1_eq : W19 m ρ c (Proc.devRef .tc main_v49) = tile16 (m ((c : Thread nD τ).loc main_arg6)) :=
  (from7 m ρ c main_v49 (by decide)).trans ((tile_step_c1 (W6 m ρ c)).trans
    (congrArg tile16 (launch6 m ρ c main_arg6 (by decide) (by decide))))

theorem w_c1 (a : Fin 256) (b : Fin 256) :
    W19 m ρ c (Proc.devRef .tc main_v45) (ix2 a b)
      = (if a.val / 16 = b.val / 16 then (1 : EReal) else 0)
        * m ((c : Thread nD τ).loc main_arg5) (ix2 (⟨a.val % 16, Nat.mod_lt _ (by norm_num)⟩ : Fin 16) (⟨b.val % 16, Nat.mod_lt _ (by norm_num)⟩ : Fin 16)) := by
  refine (congrFun (W_c1_eq m ρ c) (ix2 a b)).trans ((kron16x16_at _ _ a b).trans ?_)
  rw [eyeT_at]

theorem b_c1 (b : Fin 256) :
    W19 m ρ c (Proc.devRef .tc main_v49) (ix2 (0 : Fin 1) b)
      = m ((c : Thread nD τ).loc main_arg6) (ix1 (⟨b.val % 16, Nat.mod_lt _ (by norm_num)⟩ : Fin 16)) :=
  (congrFun (B_c1_eq m ρ c) (ix2 (0 : Fin 1) b)).trans (tile16_at _ b)

/-! ## Layer p1: weights [16, 12] from `main_arg7`, bias from `main_arg8` -/

theorem eye_step_p1 (V : Valuation τ sig (Elt Ideal)) :
    StableHlo.after (hostOps1_4 (F := Ideal)) V (Proc.devRef .tc main_v55) = eyeT := by
  simp only [hostOps1_4]
  after_results
  rfl

theorem kron_step_p1 (V : Valuation τ sig (Elt Ideal)) :
    StableHlo.after (hostOps1_5 (F := Ideal)) V (Proc.devRef .tc main_v56)
      = kron16x12 (V (Proc.devRef .tc main_v55)) (V (Proc.devRef .tc main_arg7)) := by
  simp only [hostOps1_5]
  after_results
  rfl

theorem tile_step_p1 (V : Valuation τ sig (Elt Ideal)) :
    StableHlo.after (hostOps1_6 (F := Ideal)) V (Proc.devRef .tc main_v60) = tile12 (V (Proc.devRef .tc main_arg8)) := by
  simp only [hostOps1_6]
  after_results
  rfl

/-- The second kernel finds the block matrix of the unit matrix and the launch's `main_arg7` in `main_v56`. -/
theorem W_p1_eq : W19 m ρ c (Proc.devRef .tc main_v56) = kron16x12 eyeT (m ((c : Thread nD τ).loc main_arg7)) :=
  (from8 m ρ c main_v56 (by decide)).trans ((kron_step_p1 (W7 m ρ c)).trans
    (congrArg₂ kron16x12 (eye_step_p1 (W6 m ρ c)) (launch7 m ρ c main_arg7 (by decide) (by decide))))

/-- The second kernel finds the launch's `main_arg8`, repeated sixteen times, in `main_v60`. -/
theorem B_p1_eq : W19 m ρ c (Proc.devRef .tc main_v60) = tile12 (m ((c : Thread nD τ).loc main_arg8)) :=
  (from9 m ρ c main_v60 (by decide)).trans ((tile_step_p1 (W8 m ρ c)).trans
    (congrArg tile12 (launch8 m ρ c main_arg8 (by decide) (by decide))))

theorem w_p1 (a : Fin 256) (b : Fin 192) :
    W19 m ρ c (Proc.devRef .tc main_v56) (ix2 a b)
      = (if a.val / 16 = b.val / 12 then (1 : EReal) else 0)
        * m ((c : Thread nD τ).loc main_arg7) (ix2 (⟨a.val % 16, Nat.mod_lt _ (by norm_num)⟩ : Fin 16) (⟨b.val % 12, Nat.mod_lt _ (by norm_num)⟩ : Fin 12)) := by
  refine (congrFun (W_p1_eq m ρ c) (ix2 a b)).trans ((kron16x12_at _ _ a b).trans ?_)
  rw [eyeT_at]

theorem b_p1 (b : Fin 192) :
    W19 m ρ c (Proc.devRef .tc main_v60) (ix2 (0 : Fin 1) b)
      = m ((c : Thread nD τ).loc main_arg8) (ix1 (⟨b.val % 12, Nat.mod_lt _ (by norm_num)⟩ : Fin 12)) :=
  (congrFun (B_p1_eq m ρ c) (ix2 (0 : Fin 1) b)).trans (tile12_at _ b)

/-! ## Layer c2: weights [12, 8] from `main_arg9`, bias from `main_arg10` -/

theorem eye_step_c2 (V : Valuation τ sig (Elt Ideal)) :
    StableHlo.after (hostOps1_6 (F := Ideal)) V (Proc.devRef .tc main_v66) = eyeT := by
  simp only [hostOps1_6]
  after_results
  rfl

theorem kron_step_c2 (V : Valuation τ sig (Elt Ideal)) :
    StableHlo.after (hostOps1_7 (F := Ideal)) V (Proc.devRef .tc main_v67)
      = kron12x8 (V (Proc.devRef .tc main_v66)) (V (Proc.devRef .tc main_arg9)) := by
  simp only [hostOps1_7]
  after_results
  rfl

theorem tile_step_c2 (V : Valuation τ sig (Elt Ideal)) :
    StableHlo.after (hostOps1_8 (F := Ideal)) V (Proc.devRef .tc main_v71) = tile8 (V (Proc.devRef .tc main_arg10)) := by
  simp only [hostOps1_8]
  after_results
  rfl

/-- The second kernel finds the block matrix of the unit matrix and the launch's `main_arg9` in `main_v67`. -/
theorem W_c2_eq : W19 m ρ c (Proc.devRef .tc main_v67) = kron12x8 eyeT (m ((c : Thread nD τ).loc main_arg9)) :=
  (from10 m ρ c main_v67 (by decide)).trans ((kron_step_c2 (W9 m ρ c)).trans
    (congrArg₂ kron12x8 (eye_step_c2 (W8 m ρ c)) (launch9 m ρ c main_arg9 (by decide) (by decide))))

/-- The second kernel finds the launch's `main_arg10`, repeated sixteen times, in `main_v71`. -/
theorem B_c2_eq : W19 m ρ c (Proc.devRef .tc main_v71) = tile8 (m ((c : Thread nD τ).loc main_arg10)) :=
  (from11 m ρ c main_v71 (by decide)).trans ((tile_step_c2 (W10 m ρ c)).trans
    (congrArg tile8 (launch10 m ρ c main_arg10 (by decide) (by decide))))

theorem w_c2 (a : Fin 192) (b : Fin 128) :
    W19 m ρ c (Proc.devRef .tc main_v67) (ix2 a b)
      = (if a.val / 12 = b.val / 8 then (1 : EReal) else 0)
        * m ((c : Thread nD τ).loc main_arg9) (ix2 (⟨a.val % 12, Nat.mod_lt _ (by norm_num)⟩ : Fin 12) (⟨b.val % 8, Nat.mod_lt _ (by norm_num)⟩ : Fin 8)) := by
  refine (congrFun (W_c2_eq m ρ c) (ix2 a b)).trans ((kron12x8_at _ _ a b).trans ?_)
  rw [eyeT_at]

theorem b_c2 (b : Fin 128) :
    W19 m ρ c (Proc.devRef .tc main_v71) (ix2 (0 : Fin 1) b)
      = m ((c : Thread nD τ).loc main_arg10) (ix1 (⟨b.val % 8, Nat.mod_lt _ (by norm_num)⟩ : Fin 8)) :=
  (congrFun (B_c2_eq m ρ c) (ix2 (0 : Fin 1) b)).trans (tile8_at _ b)

end Cert.KernelIdeal.Mid

end
-- ==== Proof.MidWeightsB.lean ====
/-
  The block-diagonal weights and the repeated biases of the last four dense layers, read at an entry.

  Between the two kernels the host builds, for each layer, the matrix kron(E, W) — E the 16 × 16 unit matrix made from
  two index grids and a comparison, W the layer's weight matrix — and the layer's bias repeated sixteen times. Entry
  (a, b) of kron(E, W) is E[a / din, b / dout] · W[a % din, b % dout], and E[p, q] is 1 if p = q and 0 otherwise; entry
  (0, b) of the repeated bias is entry b % dout of the bias.

  Each array is first identified, as a whole array, with a pure term of the launch memory: the stretch of host
  operations that writes it is unfolded over an arbitrary valuation, later stretches leave the array alone, and the
  stretches before it leave the program's arguments alone. The pure term is then read at an entry.
-/
import proofs.«112536_j65481071403406_2_alg».proof.Proof.MidWeightsPure
import proofs.«112536_j65481071403406_2_alg».proof.Proof.MidWeightsKeep

noncomputable section

namespace Cert.KernelIdeal.MidB

open Cert.KernelIdeal Cert.KernelIdeal.Gen Cert.KernelIdeal.Mid Idealize.ShloMosaic Idealize.ShloMosaic.TcCoe
  Idealize.SL.Sem ValueIdx

/-! ## The pure terms -/

/-- The 16 × 16 unit matrix as the host spells it: row number plus zero compared with column number, as a float. -/
def eyeB : FVec Ideal S16x16 .f32 :=
  uitofp (F := Ideal) .f32 (cmpi .eq (addi (iotaInDim S16x16 32 0)
    (broadcastInDim S16x16 ![] bcast_S_S16x16 (constantI S_ 32 0#32))) (iotaInDim S16x16 32 1))

/-- kron(E, W) for a 4 × 1 matrix W, as the host spells it. -/
def kron4x1B (E : FVec Ideal S16x16 .f32) (W : FVec Ideal S4x1 .f32) : FVec Ideal S64x16 .f32 :=
  shapeCast S64x16 (mulf
    (broadcastInDim S16x4x16x1 ![0, 1, 2, 3] bcast_S16x1x16x1_S16x4x16x1_0_1_2_3
      (broadcastInDim S16x1x16x1 ![0, 2] bcast_S16x16_S16x1x16x1_0_2 E))
    (broadcastInDim S16x4x16x1 ![0, 1, 2, 3] bcast_S1x4x1x1_S16x4x16x1_0_1_2_3
      (broadcastInDim S1x4x1x1 ![1, 3] bcast_S4x1_S1x4x1x1_1_3 W))) shapeCasts_S16x4x16x1_S64x16

/-- kron(E, W) for a 4 × 4 matrix W, as the host spells it. -/
def kron4x4B (E : FVec Ideal S16x16 .f32) (W : FVec Ideal S4x4 .f32) : FVec Ideal S64x64 .f32 :=
  shapeCast S64x64 (mulf
    (broadcastInDim S16x4x16x4 ![0, 1, 2, 3] bcast_S16x1x16x1_S16x4x16x4_0_1_2_3
      (broadcastInDim S16x1x16x1 ![0, 2] bcast_S16x16_S16x1x16x1_0_2 E))
    (broadcastInDim S16x4x16x4 ![0, 1, 2, 3] bcast_S1x4x1x4_S16x4x16x4_0_1_2_3
      (broadcastInDim S1x4x1x4 ![1, 3] bcast_S4x4_S1x4x1x4_1_3 W))) shapeCasts_S16x4x16x4_S64x64

/-- kron(E, W) for an 8 × 4 matrix W, as the host spells it. -/
def kron8x4B (E : FVec Ideal S16x16 .f32) (W : FVec Ideal S8x4 .f32) : FVec Ideal S128x64 .f32 :=
  shapeCast S128x64 (mulf
    (broadcastInDim S16x8x16x4 ![0, 1, 2, 3] bcast_S16x1x16x1_S16x8x16x4_0_1_2_3
      (broadcastInDim S16x1x16x1 ![0, 2] bcast_S16x16_S16x1x16x1_0_2 E))
    (broadcastInDim S16x8x16x4 ![0, 1, 2, 3] bcast_S1x8x1x4_S16x8x16x4_0_1_2_3
      (broadcastInDim S1x8x1x4 ![1, 3] bcast_S8x4_S1x8x1x4_1_3 W))) shapeCasts_S16x8x16x4_S128x64

/-- A one-entry bias repeated sixteen times, as the host spells it. -/
def tile1B (x : FVec Ideal S1 .f32) : FVec Ideal S1x16 .f32 :=
  shapeCast S1x16 (shapeCast S16 (broadcastInDim S16x1 ![0, 1] bcast_S1x1_S16x1_0_1
    (shapeCast S1x1 x shapeCasts_S1_S1x1)) shapeCasts_S16x1_S16) shapeCasts_S16_S1x16

/-- A four-entry bias repeated sixteen times, as the host spells it. -/
def tile4B (x : FVec Ideal S4 .f32) : FVec Ideal S1x64 .f32 :=
  shapeCast S1x64 (shapeCast S64 (broadcastInDim S16x4 ![0, 1] bcast_S1x4_S16x4_0_1
    (shapeCast S1x4 x shapeCasts_S4_S1x4)) shapeCasts_S16x4_S64) shapeCasts_S64_S1x64

/-- The unit matrix read at an entry. -/
theorem eyeB_apply (p q : Fin 16) : eyeB (ix2 p q) = if p.val = q.val then (1 : EReal) else 0 :=
  eye_apply _ p q

/-! ## The output layer (4 → 1) -/

theorem bias_h_step (V : Valuation τ sig (Elt Ideal)) :
    StableHlo.after (hostOps1_16 (F := Ideal)) V (Proc.devRef .tc main_v115)
      = tile1B (V (Proc.devRef .tc main_arg18)) := by
  simp only [hostOps1_16]; after_results; rfl

theorem eye_step14 (V : Valuation τ sig (Elt Ideal)) :
    StableHlo.after (hostOps1_14 (F := Ideal)) V (Proc.devRef .tc main_v110) = eyeB := by
  simp only [hostOps1_14]; after_results; rfl

theorem kron_h_step (V : Valuation τ sig (Elt Ideal)) :
    StableHlo.after (hostOps1_15 (F := Ideal)) V (Proc.devRef .tc main_v111)
      = kron4x1B (V (Proc.devRef .tc main_v110)) (V (Proc.devRef .tc main_arg17)) := by
  simp only [hostOps1_15]; after_results; rfl

variable (m : (ℓ : Loc nD τ sig) → Buf (Elt Ideal) ℓ) (ρ : Dev nD → PrngReg) (c : Dev nD)

/-- The output layer's repeated bias, as a whole array. -/
theorem b_h_arr : W19 m ρ c (Proc.devRef .tc main_v115) = tile1B (m ((c : Thread nD τ).loc main_arg18)) :=
  (bias_h_step (W18 m ρ c)).trans (congrArg tile1B (launch18 m ρ c main_arg18 (by decide) (by decide)))

/-- The output layer's block-diagonal weights, as a whole array. -/
theorem w_h_arr : W19 m ρ c (Proc.devRef .tc main_v111) = kron4x1B eyeB (m ((c : Thread nD τ).loc main_arg17)) :=
  (from18 m ρ c main_v111 (by decide)).trans ((kron_h_step (W17 m ρ c)).trans
    (congrArg₂ kron4x1B (eye_step14 (W16 m ρ c)) (launch17 m ρ c main_arg17 (by decide) (by decide))))

/-- The output layer's repeated bias at an entry. -/
theorem b_h (b : Fin 16) : W19 m ρ c (Proc.devRef .tc main_v115) (ix2 0 b)
    = m ((c : Thread nD τ).loc main_arg18) (ix1 ⟨b.val % 1, by omega⟩) :=
  (congrFun (b_h_arr m ρ c) (ix2 0 b)).trans (tile1_apply _ _ _ _ _ b)

/-- The output layer's block-diagonal weights at an entry. -/
theorem w_h (a : Fin 64) (b : Fin 16) : W19 m ρ c (Proc.devRef .tc main_v111) (ix2 a b)
    = (if a.val / 4 = b.val / 1 then (1 : EReal) else 0)
      * m ((c : Thread nD τ).loc main_arg17) (ix2 ⟨a.val % 4, by omega⟩ ⟨b.val % 1, by omega⟩) := by
  refine (congrFun (w_h_arr m ρ c) (ix2 a b)).trans ?_
  refine (kron4x1_apply _ _ _ _ _ _ _ a b).trans ?_
  rw [eyeB_apply]

/-! ## The residual layer (4 → 4) -/

theorem bias_r_step (V : Valuation τ sig (Elt Ideal)) :
    StableHlo.after (hostOps1_14 (F := Ideal)) V (Proc.devRef .tc main_v104)
      = tile4B (V (Proc.devRef .tc main_arg16)) := by
  simp only [hostOps1_14]; after_results; rfl

theorem eye_step12 (V : Valuation τ sig (Elt Ideal)) :
    StableHlo.after (hostOps1_12 (F := Ideal)) V (Proc.devRef .tc main_v99) = eyeB := by
  simp only [hostOps1_12]; after_results; rfl

theorem kron_r_step (V : Valuation τ sig (Elt Ideal)) :
    StableHlo.after (hostOps1_13 (F := Ideal)) V (Proc.devRef .tc main_v100)
      = kron4x4B (V (Proc.devRef .tc main_v99)) (V (Proc.devRef .tc main_arg15)) := by
  simp only [hostOps1_13]; after_results; rfl

/-- The repeated bias, as a whole array. -/
theorem b_r_arr : W19 m ρ c (Proc.devRef .tc main_v104) = tile4B (m ((c : Thread nD τ).loc main_arg16)) :=
  (from17 m ρ c main_v104 (by decide)).trans ((bias_r_step (W16 m ρ c)).trans
    (congrArg tile4B (launch16 m ρ c main_arg16 (by decide) (by decide))))

/-- The block-diagonal weights, as a whole array. -/
theorem w_r_arr : W19 m ρ c (Proc.devRef .tc main_v100) = kron4x4B eyeB (m ((c : Thread nD τ).loc main_arg15)) :=
  (from16 m ρ c main_v100 (by decide)).trans ((kron_r_step (W15 m ρ c)).trans
    (congrArg₂ kron4x4B (eye_step12 (W14 m ρ c)) (launch15 m ρ c main_arg15 (by decide) (by decide))))

/-- The repeated bias at an entry. -/
theorem b_r (b : Fin 64) : W19 m ρ c (Proc.devRef .tc main_v104) (ix2 0 b)
    = m ((c : Thread nD τ).loc main_arg16) (ix1 ⟨b.val % 4, by omega⟩) :=
  (congrFun (b_r_arr m ρ c) (ix2 0 b)).trans (tile4_apply _ _ _ _ _ b)

/-- The block-diagonal weights at an entry. -/
theorem w_r (a : Fin 64) (b : Fin 64) : W19 m ρ c (Proc.devRef .tc main_v100) (ix2 a b)
    = (if a.val / 4 = b.val / 4 then (1 : EReal) else 0)
      * m ((c : Thread nD τ).loc main_arg15) (ix2 ⟨a.val % 4, by omega⟩ ⟨b.val % 4, by omega⟩) := by
  refine (congrFun (w_r_arr m ρ c) (ix2 a b)).trans ?_
  refine (kron4x4_apply _ _ _ _ _ _ _ a b).trans ?_
  rw [eyeB_apply]

/-! ## The sixth layer (4 → 4) -/

theorem bias_c3_step (V : Valuation τ sig (Elt Ideal)) :
    StableHlo.after (hostOps1_12 (F := Ideal)) V (Proc.devRef .tc main_v93)
      = tile4B (V (Proc.devRef .tc main_arg14)) := by
  simp only [hostOps1_12]; after_results; rfl

theorem eye_step10 (V : Valuation τ sig (Elt Ideal)) :
    StableHlo.after (hostOps1_10 (F := Ideal)) V (Proc.devRef .tc main_v88) = eyeB := by
  simp only [hostOps1_10]; after_results; rfl

theorem kron_c3_step (V : Valuation τ sig (Elt Ideal)) :
    StableHlo.after (hostOps1_11 (F := Ideal)) V (Proc.devRef .tc main_v89)
      = kron4x4B (V (Proc.devRef .tc main_v88)) (V (Proc.devRef .tc main_arg13)) := by
  simp only [hostOps1_11]; after_results; rfl

/-- The repeated bias, as a whole array. -/
theorem b_c3_arr : W19 m ρ c (Proc.devRef .tc main_v93) = tile4B (m ((c : Thread nD τ).loc main_arg14)) :=
  (from15 m ρ c main_v93 (by decide)).trans ((bias_c3_step (W14 m ρ c)).trans
    (congrArg tile4B (launch14 m ρ c main_arg14 (by decide) (by decide))))

/-- The block-diagonal weights, as a whole array. -/
theorem w_c3_arr : W19 m ρ c (Proc.devRef .tc main_v89) = kron4x4B eyeB (m ((c : Thread nD τ).loc main_arg13)) :=
  (from14 m ρ c main_v89 (by decide)).trans ((kron_c3_step (W13 m ρ c)).trans
    (congrArg₂ kron4x4B (eye_step10 (W12 m ρ c)) (launch13 m ρ c main_arg13 (by decide) (by decide))))

/-- The repeated bias at an entry. -/
theorem b_c3 (b : Fin 64) : W19 m ρ c (Proc.devRef .tc main_v93) (ix2 0 b)
    = m ((c : Thread nD τ).loc main_arg14) (ix1 ⟨b.val % 4, by omega⟩) :=
  (congrFun (b_c3_arr m ρ c) (ix2 0 b)).trans (tile4_apply _ _ _ _ _ b)

/-- The block-diagonal weights at an entry. -/
theorem w_c3 (a : Fin 64) (b : Fin 64) : W19 m ρ c (Proc.devRef .tc main_v89) (ix2 a b)
    = (if a.val / 4 = b.val / 4 then (1 : EReal) else 0)
      * m ((c : Thread nD τ).loc main_arg13) (ix2 ⟨a.val % 4, by omega⟩ ⟨b.val % 4, by omega⟩) := by
  refine (congrFun (w_c3_arr m ρ c) (ix2 a b)).trans ?_
  refine (kron4x4_apply _ _ _ _ _ _ _ a b).trans ?_
  rw [eyeB_apply]

/-! ## The fifth layer (8 → 4) -/

theorem bias_p2_step (V : Valuation τ sig (Elt Ideal)) :
    StableHlo.after (hostOps1_10 (F := Ideal)) V (Proc.devRef .tc main_v82)
      = tile4B (V (Proc.devRef .tc main_arg12)) := by
  simp only [hostOps1_10]; after_results; rfl

theorem eye_step8 (V : Valuation τ sig (Elt Ideal)) :
    StableHlo.after (hostOps1_8 (F := Ideal)) V (Proc.devRef .tc main_v77) = eyeB := by
  simp only [hostOps1_8]; after_results; rfl

theorem kron_p2_step (V : Valuation τ sig (Elt Ideal)) :
    StableHlo.after (hostOps1_9 (F := Ideal)) V (Proc.devRef .tc main_v78)
      = kron8x4B (V (Proc.devRef .tc main_v77)) (V (Proc.devRef .tc main_arg11)) := by
  simp only [hostOps1_9]; after_results; rfl

/-- The repeated bias, as a whole array. -/
theorem b_p2_arr : W19 m ρ c (Proc.devRef .tc main_v82) = tile4B (m ((c : Thread nD τ).loc main_arg12)) :=
  (from13 m ρ c main_v82 (by decide)).trans ((bias_p2_step (W12 m ρ c)).trans
    (congrArg tile4B (launch12 m ρ c main_arg12 (by decide) (by decide))))

/-- The block-diagonal weights, as a whole array. -/
theorem w_p2_arr : W19 m ρ c (Proc.devRef .tc main_v78) = kron8x4B eyeB (m ((c : Thread nD τ).loc main_arg11)) :=
  (from12 m ρ c main_v78 (by decide)).trans ((kron_p2_step (W11 m ρ c)).trans
    (congrArg₂ kron8x4B (eye_step8 (W10 m ρ c)) (launch11 m ρ c main_arg11 (by decide) (by decide))))

/-- The repeated bias at an entry. -/
theorem b_p2 (b : Fin 64) : W19 m ρ c (Proc.devRef .tc main_v82) (ix2 0 b)
    = m ((c : Thread nD τ).loc main_arg12) (ix1 ⟨b.val % 4, by omega⟩) :=
  (congrFun (b_p2_arr m ρ c) (ix2 0 b)).trans (tile4_apply _ _ _ _ _ b)

/-- The block-diagonal weights at an entry. -/
theorem w_p2 (a : Fin 128) (b : Fin 64) : W19 m ρ c (Proc.devRef .tc main_v78) (ix2 a b)
    = (if a.val / 8 = b.val / 4 then (1 : EReal) else 0)
      * m ((c : Thread nD τ).loc main_arg11) (ix2 ⟨a.val % 8, by omega⟩ ⟨b.val % 4, by omega⟩) := by
  refine (congrFun (w_p2_arr m ρ c) (ix2 a b)).trans ?_
  refine (kron8x4_apply _ _ _ _ _ _ _ a b).trans ?_
  rw [eyeB_apply]

end Cert.KernelIdeal.MidB

end
-- ==== Proof.KStats.lean ====
/-
  The statistics region, read as sums.

  The region walks a grid of sixteen points. At point t it stages block t — rows 4096·t … 4096·t + 4095 — of the
  [65536,128] array of rows, and keeps two [1,128] output rows whose block never moves and which are written back once,
  after the last point. At point 0 both rows are set to zero; at every point the first row gains the column sums of
  the block and the second row the column sums of the block's squares.

  Read over the extended reals: the stored zero and each reduction's starting word are 0 and 0 + x = x, so after
  point n lane l of the first row is the sum over the blocks 0 … n of the sums of column l over the block's rows (by
  induction on the point), and likewise for the squares. The last point's block is the whole [1,128] array, so at the
  region's exit the two output arrays hold these sums over all sixteen blocks, and the array of rows, an input, is
  unchanged.
-/
import proofs.«112536_j65481071403406_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.Stats

open Cert.KernelIdeal Cert.KernelIdeal.Gen ValueIdx

section AnyValues

variable {F : FTy → Type} [FloatOps F]

theorem offsets_zero : (![0, 0] : Fin 2 → Nat) = fun _ => 0 := funext fun a => by fin_cases a <;> rfl

/-- Away from the first grid point the body leaves, in the first output's buffer holding `xo1`, the running column sums
    plus the column sums of the block `x`: its one covering store's payload, whose loads read the whole buffers. -/
theorem out_B_1 (c : Dev nD) (i : grid0.Coords) (a1 : Memref sig .tc .vmem S4096x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S4096x128 .f32) (xo1 xo2 : Vec F S1x128 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  rw [View.canon_unit_zero offsets_zero]
  simp only [View.readAt_eq_ld, h1.read_unread, h2.read_unread, View.ld_unit_zero (S := S4096x128) offsets_zero,
    View.ld_unit_zero (S := S1x128) offsets_zero]

/-- … and in the second output's buffer holding `xo2`, the running sums plus the column sums of the squared block. -/
theorem out_B_2 (c : Dev nD) (i : grid0.Coords) (a1 : Memref sig .tc .vmem S4096x128 .f32) (h1 : a1.IsWhole)
    (a2 : Memref sig .tc .vmem S1x128 .f32) (h2 : a2.IsWhole) (a3 : Memref sig .tc .vmem S1x128 .f32) (h3 : a3.IsWhole)
    (hc : ¬cond0_0 i) (x : Vec F S4096x128 .f32) (xo1 xo2 : Vec F S1x128 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  rw [View.canon_unit_zero offsets_zero]
  simp only [View.readAt_eq_ld, h1.read_unread, h3.read_unread, View.ld_unit_zero (S := S4096x128) offsets_zero,
    View.ld_unit_zero (S := S1x128) offsets_zero]

/-- At the first grid point the body stores the zero block, reads it back, and leaves the zero block plus the column sums
    of the block `x` (the read-back is a covered load of the first store). -/
theorem out_A_1 (c : Dev nD) (i : grid0.Coords) (a1 : Memref sig .tc .vmem S4096x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S4096x128 .f32) :
    out0_A_1 c i a1 h1 a2 h2 a3 h3 hc x = k0_pay4 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x128) offsets_zero, View.readCov_unit_zero (S := S1x128) _ offsets_zero]
  simp only [View.readAt_eq_ld, h1.read_unread, View.ld_unit_zero (S := S4096x128) offsets_zero]

/-- … and, for the second output, the zero block plus the column sums of the squared block. -/
theorem out_A_2 (c : Dev nD) (i : grid0.Coords) (a1 : Memref sig .tc .vmem S4096x128 .f32) (h1 : a1.IsWhole)
    (a2 : Memref sig .tc .vmem S1x128 .f32) (h2 : a2.IsWhole) (a3 : Memref sig .tc .vmem S1x128 .f32) (h3 : a3.IsWhole)
    (hc : cond0_0 i) (x : Vec F S4096x128 .f32) :
    out0_A_2 c i a1 h1 a2 h2 a3 h3 hc x = k0_pay5 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x128) offsets_zero, View.readCov_unit_zero (S := S1x128) _ offsets_zero]
  simp only [View.readAt_eq_ld, h1.read_unread, View.ld_unit_zero (S := S4096x128) offsets_zero]

end AnyValues

/-- Inserting the row coordinate `r` at axis 0 of the lane index `l` gives the index `(r, l)`. -/
theorem lift_row (r : Fin 4096) (l : Fin 128) :
    reduces_S4096x128_S128.lift (ix1 l) r = ix2 r l := by
  funext a
  apply Fin.ext
  match a with
  | ⟨0, _⟩ => rfl
  | ⟨1, _⟩ => rfl

/-- The sum over the rows of a block, laid as a `[1,128]` row, read at lane `l`. -/
theorem colsum_apply (y : FVec Ideal S4096x128 .f32) (hφ : FKind.Formats .f32)
    (hacc : (0x00000000#32 : BitVec 32) = FKind.add.neutral .f32 hφ) (l : Fin 128) :
    shapeCast S1x128 (multiReduction FKind.add [0] S128 y 0x00000000#32 reduces_S4096x128_S128 hφ hacc)
        shapeCasts_S128_S1x128 (ix2 (0 : Fin 1) l)
      = ∑ r : Fin 4096, y (ix2 r l) := by
  refine (shapeCast_a_1a_apply _ shapeCasts_S128_S1x128 (0 : Fin 1) l).trans ?_
  refine (Ideal.multiReduction_add_single y _ reduces_S4096x128_S128 hφ hacc (ix1 l)).trans ?_
  show ∑ r : Fin 4096, y (reduces_S4096x128_S128.lift (ix1 l) r) = _
  exact Finset.sum_congr rfl fun r _ => congrArg y (lift_row r l)

/-- The column sums of a block added to a running row, read at lane `l`. -/
theorem pay4_apply (x : Vec Ideal S4096x128 .f32) (xo : Vec Ideal S1x128 .f32) (l : Fin 128) :
    k0_pay4 (F := Ideal) x xo (ix2 (0 : Fin 1) l) = xo (ix2 (0 : Fin 1) l) + ∑ r : Fin 4096, x (ix2 r l) := by
  unfold k0_pay4 k0_pay3
  dsimp only
  rw [addf_apply, shapeCast_self, shapeCast_self]
  exact congrArg (xo (ix2 (0 : Fin 1) l) + ·) (colsum_apply x _ _ l)

/-- The column sums of the squared block added to a running row, read at lane `l`. -/
theorem pay5_apply (x : Vec Ideal S4096x128 .f32) (xo : Vec Ideal S1x128 .f32) (l : Fin 128) :
    k0_pay5 (F := Ideal) x xo (ix2 (0 : Fin 1) l)
      = xo (ix2 (0 : Fin 1) l) + ∑ r : Fin 4096, x (ix2 r l) * x (ix2 r l) := by
  unfold k0_pay5 k0_pay3
  dsimp only
  rw [addf_apply, shapeCast_self, shapeCast_self]
  exact congrArg (xo (ix2 (0 : Fin 1) l) + ·) (colsum_apply (mulf x x) _ _ l)

/-- The stored zero rows are zero at every lane. -/
theorem pay1_apply (l : Fin 128) : k0_pay1 (F := Ideal) (ix2 (0 : Fin 1) l) = 0 := Ideal.ofBits_zero_f32
theorem pay2_apply (l : Fin 128) : k0_pay2 (F := Ideal) (ix2 (0 : Fin 1) l) = 0 := Ideal.ofBits_zero_f32

section Region

variable {F : FTy → Type} [FloatOps F]
variable (V : (c : Dev nD) → (b : Ref sig .tc) → Buf (Elt F) ((c : Thread nD τ).loc b))

/-- Row `r` of the block staged at point `t` is row `4096 t + r` of the array. -/
theorem iblk_apply (c : Dev nD) (t : Fin cfg0.N) (r : Fin 4096) (l : Fin 128) (hlt : t.val * 4096 + r.val < 65536) :
    (iblk0 V c 0 t : Vec F S4096x128 .f32) (ix2 r l) = V c main_v0 (ix2 ⟨t.val * 4096 + r.val, hlt⟩ l) := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_v0 _ = V c main_v0 _
  congr 1
  funext a
  apply Fin.ext
  match a with
  | ⟨0, _⟩ => show win0_0.index t 0 * 4096 + 1 * r.val = t.val * 4096 + r.val; rw [hi.1]; omega
  | ⟨1, _⟩ => show win0_0.index t 1 * 128 + 1 * l.val = l.val; rw [hi.2]; omega

end Region

section Sums

variable (V : (c : Dev nD) → (b : Ref sig .tc) → Buf (Elt Ideal) ((c : Thread nD τ).loc b))

/-- Entry `(k, l)` of the `[65536,128]` array of rows, as an extended real. -/
abbrev entry (c : Dev nD) (k : Fin 65536) (l : Fin 128) : EReal := V c main_v0 (ix2 k l)

/-- The sum of column `l` over the rows of block `t` of the array (and `0` past the sixteenth block). -/
def blockSum (c : Dev nD) (l : Fin 128) (t : ℕ) : EReal :=
  if h : t < 16 then ∑ r : Fin 4096, entry V c ⟨t * 4096 + r.val, by omega⟩ l else 0

/-- The sum of the squares of column `l` over the rows of block `t` (and `0` past the sixteenth block). -/
def blockSumSq (c : Dev nD) (l : Fin 128) (t : ℕ) : EReal :=
  if h : t < 16 then ∑ r : Fin 4096, entry V c ⟨t * 4096 + r.val, by omega⟩ l * entry V c ⟨t * 4096 + r.val, by omega⟩ l
  else 0

/-- After point `n` the first output's buffer holds, at lane `l`, the column sums of the blocks `0 … n`:
    the stored zero and each reduction's zero start are `0`, and `0 + x = x`. By induction on the point. -/
theorem outs1_sum (c : Dev nD) : ∀ (n : ℕ) (hn : n < cfg0.N) (l : Fin 128),
    (outsAt0 V c n hn).1 (ix2 (0 : Fin 1) l) = ∑ t ∈ Finset.range (n + 1), blockSum V c l t
  | 0, hn, l => by
    rw [outsAt0_A V c ⟨0, hn⟩ rfl]
    dsimp only
    rw [out_A_1, pay4_apply, pay1_apply, zero_add, Finset.sum_range_one]
    unfold blockSum
    rw [dif_pos (by norm_num)]
    exact Finset.sum_congr rfl fun r _ => iblk_apply V c ⟨0, hn⟩ r l _
  | n + 1, hn, l => by
    have hN : cfg0.N = 16 := N_0
    have hB : ¬(⟨n + 1, hn⟩ : Fin cfg0.N).val % 16 = 0 := by dsimp only; omega
    rw [outsAt0_B V c ⟨n + 1, hn⟩ hB]
    dsimp only
    rw [out_B_1, pay4_apply, Finset.sum_range_succ, ← outs1_sum c n (Nat.lt_of_succ_lt hn) l]
    refine congrArg ((outsAt0 V c n (Nat.lt_of_succ_lt hn)).1 (ix2 (0 : Fin 1) l) + ·) ?_
    unfold blockSum
    rw [dif_pos (by omega)]
    exact Finset.sum_congr rfl fun r _ => iblk_apply V c ⟨n + 1, hn⟩ r l _

/-- After point `n` the second output's buffer holds, at lane `l`, the column sums of squares of the blocks `0 … n`. -/
theorem outs2_sum (c : Dev nD) : ∀ (n : ℕ) (hn : n < cfg0.N) (l : Fin 128),
    (outsAt0 V c n hn).2 (ix2 (0 : Fin 1) l) = ∑ t ∈ Finset.range (n + 1), blockSumSq V c l t
  | 0, hn, l => by
    rw [outsAt0_A V c ⟨0, hn⟩ rfl]
    dsimp only
    rw [out_A_2, pay5_apply, pay2_apply, zero_add, Finset.sum_range_one]
    unfold blockSumSq
    rw [dif_pos (by norm_num)]
    exact Finset.sum_congr rfl fun r _ =>
      congrArg₂ (· * ·) (iblk_apply V c ⟨0, hn⟩ r l _) (iblk_apply V c ⟨0, hn⟩ r l _)
  | n + 1, hn, l => by
    have hN : cfg0.N = 16 := N_0
    have hB : ¬(⟨n + 1, hn⟩ : Fin cfg0.N).val % 16 = 0 := by dsimp only; omega
    rw [outsAt0_B V c ⟨n + 1, hn⟩ hB]
    dsimp only
    rw [out_B_2, pay5_apply, Finset.sum_range_succ, ← outs2_sum c n (Nat.lt_of_succ_lt hn) l]
    refine congrArg ((outsAt0 V c n (Nat.lt_of_succ_lt hn)).2 (ix2 (0 : Fin 1) l) + ·) ?_
    unfold blockSumSq
    rw [dif_pos (by omega)]
    exact Finset.sum_congr rfl fun r _ =>
      congrArg₂ (· * ·) (iblk_apply V c ⟨n + 1, hn⟩ r l _) (iblk_apply V c ⟨n + 1, hn⟩ r l _)

/-- The sum over the points `0 … 15` as a sum over `Fin 16`. -/
theorem sum_blocks (c : Dev nD) (l : Fin 128) :
    ∑ t ∈ Finset.range (15 + 1), blockSum V c l t
      = ∑ t : Fin 16, ∑ r : Fin 4096, entry V c ⟨t.val * 4096 + r.val, by omega⟩ l := by
  rw [Finset.sum_range]
  exact Finset.sum_congr rfl fun t _ => by unfold blockSum; rw [dif_pos t.isLt]

theorem sum_blocksSq (c : Dev nD) (l : Fin 128) :
    ∑ t ∈ Finset.range (15 + 1), blockSumSq V c l t
      = ∑ t : Fin 16, ∑ r : Fin 4096,
          entry V c ⟨t.val * 4096 + r.val, by omega⟩ l * entry V c ⟨t.val * 4096 + r.val, by omega⟩ l := by
  rw [Finset.sum_range]
  exact Finset.sum_congr rfl fun t _ => by unfold blockSumSq; rw [dif_pos t.isLt]

end Sums

section Final

variable (V : (c : Dev nD) → (b : Ref sig .tc) → Buf (Elt Ideal) ((c : Thread nD τ).loc b))

theorem last_lt : 15 < cfg0.N := by rw [show cfg0.N = 16 from N_0]; decide

/-- What the two outputs' buffers hold after the last point. -/
abbrev last1 (c : Dev nD) : Buf (Elt Ideal) ((c : Thread nD τ).loc main_v1_0) := (outsAt0 V c 15 last_lt).1
abbrev last2 (c : Dev nD) : Buf (Elt Ideal) ((c : Thread nD τ).loc main_v1_1) := (outsAt0 V c 15 last_lt).2

/-- The one write-back of the first output, after the last point, writes that: the `[1,128]` block at zero offsets
    is the whole array. -/
theorem flushed1 (c : Dev nD) (t : Fin cfg0.N) (hf : (cfg0.win 1).flush t = true) :
    (dat0 V c).flushed 1 t = ((cfg0.win 1).blk t).view.read (Elt Ideal) (last1 V c) := by
  have hN : cfg0.N = 16 := N_0
  have h3 : t.val = 15 := by have := (flush0_1 t).mp hf; have := t.isLt; omega
  obtain rfl : t = t0_15 := Fin.ext h3
  show (cfg0.win 1).cut (grid0.coords t0_15) ((dat0 V c).after 1 t0_15) = _
  rw [after0_1]
  have hz' : (fun a => win0_1.index t0_15 a * main_v1_0.ty.shape.size a) = fun _ => 0 :=
    funext fun a => by fin_cases a <;> decide
  exact (Memref.read_access_unit_zero (Elt Ideal) main_v1_0 hz' (fun a => by rw [congrFun hz' a]; simp) (last1 V c)).symm

theorem flushed2 (c : Dev nD) (t : Fin cfg0.N) (hf : (cfg0.win 2).flush t = true) :
    (dat0 V c).flushed 2 t = ((cfg0.win 2).blk t).view.read (Elt Ideal) (last2 V c) := by
  have hN : cfg0.N = 16 := N_0
  have h3 : t.val = 15 := by have := (flush0_2 t).mp hf; have := t.isLt; omega
  obtain rfl : t = t0_15 := Fin.ext h3
  show (cfg0.win 2).cut (grid0.coords t0_15) ((dat0 V c).after 2 t0_15) = _
  rw [after0_2]
  have hz' : (fun a => win0_2.index t0_15 a * main_v1_1.ty.shape.size a) = fun _ => 0 :=
    funext fun a => by fin_cases a <;> decide
  exact (Memref.read_access_unit_zero (Elt Ideal) main_v1_1 hz' (fun a => by rw [congrFun hz' a]; simp) (last2 V c)).symm

/-- So the first output array ends holding what its buffer held after the last point: that point's block covers it. -/
theorem final1 (c : Dev nD) : (dat0 V c).arrAt 1 cfg0.N = last1 V c :=
  (dat0 V c).arrAt_eq_of_cover 1 (last1 V c) (flushed1 V c) fun i =>
    ⟨t0_15, (flush0_1 t0_15).mpr rfl, by
      show i ∈ ((View.whole main_v1_0).slice (win0_1.rect t0_15)).set
      rw [View.set_slice_whole, Rect.mem_set_unit]
      intro a
      have h0 : (i 0 : Nat) < 1 := (i 0).isLt
      have h1 : (i 1 : Nat) < 128 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 128 from by decide +kernel]; omega⟩

theorem final2 (c : Dev nD) : (dat0 V c).arrAt 2 cfg0.N = last2 V c :=
  (dat0 V c).arrAt_eq_of_cover 2 (last2 V c) (flushed2 V c) fun i =>
    ⟨t0_15, (flush0_2 t0_15).mpr rfl, by
      show i ∈ ((View.whole main_v1_1).slice (win0_2.rect t0_15)).set
      rw [View.set_slice_whole, Rect.mem_set_unit]
      intro a
      have h0 : (i 0 : Nat) < 1 := (i 0).isLt
      have h1 : (i 1 : Nat) < 128 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 128 from by decide +kernel]; omega⟩

end Final

section Run

variable (m : (ℓ : Loc nD τ sig) → Buf (Elt Ideal) ℓ) (ρ : Dev nD → PrngReg) (c : Dev nD)

/-- At the region's exit the first output array holds, at lane `l`, the sum of column `l` over all 65536 rows of the
    array of rows as the region found it, block by block. -/
theorem sum_col (l : Fin 128) :
    W2 m ρ c (Proc.devRef .tc main_v1_0) (ix2 (0 : Fin 1) l)
      = ∑ t : Fin 16, ∑ r : Fin 4096, entry (V1 m ρ) c ⟨t.val * 4096 + r.val, by omega⟩ l := by
  have e : W2 m ρ c (Proc.devRef .tc main_v1_0) = last1 (V1 m ρ) c := (W2_arr m ρ c 1).trans (final1 (V1 m ρ) c)
  rw [e]
  exact (outs1_sum (V1 m ρ) c 15 last_lt l).trans (sum_blocks (V1 m ρ) c l)

/-- … and the second output array the sum of the squares of column `l`. -/
theorem sumsq_col (l : Fin 128) :
    W2 m ρ c (Proc.devRef .tc main_v1_1) (ix2 (0 : Fin 1) l)
      = ∑ t : Fin 16, ∑ r : Fin 4096,
          entry (V1 m ρ) c ⟨t.val * 4096 + r.val, by omega⟩ l * entry (V1 m ρ) c ⟨t.val * 4096 + r.val, by omega⟩ l := by
  have e : W2 m ρ c (Proc.devRef .tc main_v1_1) = last2 (V1 m ρ) c := (W2_arr m ρ c 2).trans (final2 (V1 m ρ) c)
  rw [e]
  exact (outs2_sum (V1 m ρ) c 15 last_lt l).trans (sum_blocksSq (V1 m ρ) c l)

/-- The array of rows is an input of the region: it leaves it unchanged. -/
theorem rows_kept : W2 m ρ c (Proc.devRef .tc main_v0) = W1 m ρ c (Proc.devRef .tc main_v0) :=
  (W2_arr m ρ c 0).trans (((dat0 (V1 m ρ) c).arrAt_in 0 rfl _).trans (A_eq0 (V1 m ρ) c 0))

/-- `entry` read at the region's entry contents is the array's entry. -/
theorem entry_eq (k : Fin 65536) (l : Fin 128) :
    entry (V1 m ρ) c k l = W1 m ρ c (Proc.devRef .tc main_v0) (ix2 k l) := rfl

end Run

end Cert.KernelIdeal.Stats

end
-- ==== Proof.FoldLaw.lean ====
/-
  The folded-layout law.

  A long row of 16·d entries holds sixteen rows of width d side by side: entry j·d + f is feature f of row j.
  Against the block-diagonal matrix with sixteen copies of W on the diagonal, and a bias repeated sixteen times,
  a dense layer acts on each of the sixteen rows separately: the sum over the 16·din inputs splits into sixteen
  blocks of din, every off-diagonal block contributes products with the factor 0, which are 0 whatever the other
  factor is (also for ±∞), and the diagonal block is the plain layer's sum.  Entrywise functions and entrywise sums
  keep the side-by-side layout, so the folded chain's output s is the plain chain of row s.
-/
import Mathlib
import proofs.«112536_j65481071403406_2_alg».proof.Proof.Spec

noncomputable section

namespace Cert.Spec

open Idealize.ShloMosaic

/-- A sum over `Fin (m * n)` is the sum over `m` consecutive blocks of `n`: position `f + n * i` is entry `f` of block `i`. -/
theorem sum_fin_blocks {M : Type*} [AddCommMonoid M] (m n : ℕ) (F : Fin (m * n) → M) :
    ∑ a : Fin (m * n), F a = ∑ i : Fin m, ∑ f : Fin n, F (finProdFinEquiv (i, f)) := by
  rw [← Fintype.sum_prod_type']
  exact (Fintype.sum_equiv finProdFinEquiv _ _ (fun _ => rfl)).symm

/-- Position `f + n * i` lies in block `i`. -/
theorem blk_div {m n : ℕ} (i : Fin m) (f : Fin n) : (finProdFinEquiv (i, f)).val / n = i.val := by
  rw [finProdFinEquiv_apply_val]
  show (f.val + n * i.val) / n = i.val
  rw [Nat.add_mul_div_left _ _ f.pos, Nat.div_eq_of_lt f.2, Nat.zero_add]

/-- Position `f + n * i` is entry `f` of its block. -/
theorem blk_mod {m n : ℕ} (i : Fin m) (f : Fin n) : (finProdFinEquiv (i, f)).val % n = f.val := by
  rw [finProdFinEquiv_apply_val]
  show (f.val + n * i.val) % n = f.val
  rw [Nat.add_mul_mod_self_left, Nat.mod_eq_of_lt f.2]

/-- Entry `f` of block `b / dout` lies inside a row of sixteen blocks of `din`. -/
theorem fold_idx_lt {din dout Nin Nout : ℕ} (hin : Nin = 16 * din) (hout : Nout = 16 * dout) (ho : 0 < dout)
    (b : Fin Nout) (f : Fin din) : (b.val / dout) * din + f.val < Nin := by
  subst hin; subst hout
  have hb : b.val / dout < 16 := by
    rw [Nat.div_lt_iff_lt_mul ho]; exact b.2
  have h1 : (b.val / dout) * din + f.val < (b.val / dout + 1) * din := by
    rw [Nat.add_mul, Nat.one_mul]; exact Nat.add_lt_add_left f.2 _
  exact lt_of_lt_of_le h1 (Nat.mul_le_mul_right din hb)

/-- One folded layer: against a block-diagonal matrix and a repeated bias, entry `b` of the long row is the plain
    layer of the `(b / dout)`-th of the sixteen rows at feature `b % dout`.  Only `0 * x = 0`, `1 * x = x` and the
    commutative-monoid laws of addition are used, so nothing is assumed finite. -/
theorem lin_fold {din dout Nin Nout : ℕ} (hin : Nin = 16 * din) (hout : Nout = 16 * dout) (hd : 0 < din) (ho : 0 < dout)
    (W : Fin din → Fin dout → EReal) (c : Fin dout → EReal) (Wf : Fin Nin → Fin Nout → EReal) (cf : Fin Nout → EReal)
    (hW : IsBlockDiag W Wf) (hc : IsTiled c cf) (H : Fin Nin → EReal) (b : Fin Nout) :
    lin Wf cf H b
      = lin W c (fun f => H ⟨(b.val / dout) * din + f.val, fold_idx_lt hin hout ho b f⟩) ⟨b.val % dout, Nat.mod_lt _ ho⟩ := by
  subst hin; subst hout
  have hb16 : b.val / dout < 16 := by
    rw [Nat.div_lt_iff_lt_mul ho]; exact b.2
  unfold lin
  rw [hc b (Nat.mod_lt _ ho)]
  congr 1
  rw [sum_fin_blocks 16 din]
  rw [Finset.sum_eq_single (⟨b.val / dout, hb16⟩ : Fin 16)]
  · apply Finset.sum_congr rfl
    intro f _
    rw [hW _ b (Nat.mod_lt _ hd) (Nat.mod_lt _ ho)]
    have e1 : (⟨(finProdFinEquiv ((⟨b.val / dout, hb16⟩ : Fin 16), f)).val % din, Nat.mod_lt _ hd⟩ : Fin din) = f :=
      Fin.ext (blk_mod _ _)
    have e2 : finProdFinEquiv ((⟨b.val / dout, hb16⟩ : Fin 16), f)
        = ⟨b.val / dout * din + f.val, fold_idx_lt rfl rfl ho b f⟩ := by
      apply Fin.ext
      rw [finProdFinEquiv_apply_val]
      show f.val + din * (b.val / dout) = b.val / dout * din + f.val
      rw [Nat.mul_comm, Nat.add_comm]
    rw [blk_div, if_pos rfl, one_mul, e1, e2]
  · intro i _ hi
    apply Finset.sum_eq_zero
    intro f _
    rw [hW _ b (Nat.mod_lt _ hd) (Nat.mod_lt _ ho)]
    rw [blk_div, if_neg (fun h => hi (Fin.ext h)), zero_mul, mul_zero]
  · intro h; exact absurd (Finset.mem_univ _) h

/-- The same law at position `j * dout + g` (entry `g` of block `j`). -/
theorem lin_fold_at {din dout Nin Nout : ℕ} (hin : Nin = 16 * din) (hout : Nout = 16 * dout) (hd : 0 < din) (ho : 0 < dout)
    (W : Fin din → Fin dout → EReal) (c : Fin dout → EReal) (Wf : Fin Nin → Fin Nout → EReal) (cf : Fin Nout → EReal)
    (hW : IsBlockDiag W Wf) (hc : IsTiled c cf) (H : Fin Nin → EReal) (j : Fin 16) (g : Fin dout)
    (hlt : j.val * dout + g.val < Nout) :
    lin Wf cf H ⟨j.val * dout + g.val, hlt⟩
      = lin W c (fun f => H ⟨j.val * din + f.val, by
          subst hin
          have h1 : j.val * din + f.val < (j.val + 1) * din := by
            rw [Nat.add_mul, Nat.one_mul]; exact Nat.add_lt_add_left f.2 _
          exact lt_of_lt_of_le h1 (Nat.mul_le_mul_right din j.2)⟩) g := by
  have e1 : (j.val * dout + g.val) / dout = j.val := by
    rw [Nat.add_comm, Nat.add_mul_div_right _ _ ho, Nat.div_eq_of_lt g.2, Nat.zero_add]
  have e2 : (j.val * dout + g.val) % dout = g.val := by
    rw [Nat.add_comm, Nat.add_mul_mod_self_right, Nat.mod_eq_of_lt g.2]
  rw [lin_fold hin hout hd ho W c Wf cf hW hc H ⟨j.val * dout + g.val, hlt⟩]
  simp only [e1, e2, Fin.eta]

/-- The long row `H` holds the sixteen rows `h 0, …, h 15` of width `d` side by side. -/
def Folds (d : ℕ) {N : ℕ} (H : Fin N → EReal) (h : Fin 16 → Fin d → EReal) : Prop :=
  ∀ (j : Fin 16) (f : Fin d) (hlt : j.val * d + f.val < N), H ⟨j.val * d + f.val, hlt⟩ = h j f

/-- A folded layer followed by an entrywise function sends side-by-side rows to side-by-side rows. -/
theorem layer_folds {din dout Nin Nout : ℕ} (hin : Nin = 16 * din) (hout : Nout = 16 * dout) (hd : 0 < din) (ho : 0 < dout)
    {W : Fin din → Fin dout → EReal} {c : Fin dout → EReal} {Wf : Fin Nin → Fin Nout → EReal} {cf : Fin Nout → EReal}
    (hW : IsBlockDiag W Wf) (hc : IsTiled c cf) (act : EReal → EReal)
    {H : Fin Nin → EReal} {h : Fin 16 → Fin din → EReal} (hH : Folds din H h) :
    Folds dout (fun b => act (lin Wf cf H b)) (fun j g => act (lin W c (h j) g)) := by
  intro j g hlt
  show act (lin Wf cf H ⟨j.val * dout + g.val, hlt⟩) = act (lin W c (h j) g)
  rw [lin_fold_at hin hout hd ho W c Wf cf hW hc H j g hlt]
  congr 2
  funext f
  exact hH j f _

/-- The residual step: a row plus the rectified folded layer of that row. -/
theorem resid_folds {d N : ℕ} (hN : N = 16 * d) (hd : 0 < d)
    {W : Fin d → Fin d → EReal} {c : Fin d → EReal} {Wf : Fin N → Fin N → EReal} {cf : Fin N → EReal}
    (hW : IsBlockDiag W Wf) (hc : IsTiled c cf)
    {H : Fin N → EReal} {h : Fin 16 → Fin d → EReal} (hH : Folds d H h) :
    Folds d (fun b => H b + max (lin Wf cf H b) zero) (fun j g => h j g + max (lin W c (h j) g) zero) := by
  intro j g hlt
  show H ⟨j.val * d + g.val, hlt⟩ + max (lin Wf cf H ⟨j.val * d + g.val, hlt⟩) zero = h j g + max (lin W c (h j) g) zero
  have hl : lin Wf cf H ⟨j.val * d + g.val, hlt⟩ = lin W c (h j) g :=
    layer_folds hN hN hd hd hW hc id hH j g hlt
  rw [hH j g hlt, hl]

/-- The folded chain's output `s` is the plain chain of the `s`-th row. -/
theorem headF_eq (P : Weights) (Q : FoldedWeights) (hQ : IsFolded P Q) (H0 : Fin 128 → EReal) (s : Fin 16) :
    headF Q H0 s = head P (fun f => H0 ⟨s.val * 8 + f.val, by omega⟩) := by
  have F0 : Folds 8 H0 (fun j f => H0 ⟨j.val * 8 + f.val, by omega⟩) := fun _ _ _ => rfl
  have F1 := layer_folds (by norm_num) (by norm_num) (by norm_num) (by norm_num) hQ.Wfm hQ.bfm Ideal.tanh F0
  have F2 := layer_folds (by norm_num) (by norm_num) (by norm_num) (by norm_num) hQ.Wc1 hQ.bc1 Ideal.tanh F1
  have F3 := layer_folds (by norm_num) (by norm_num) (by norm_num) (by norm_num) hQ.Wp1 hQ.bp1 Ideal.tanh F2
  have F4 := layer_folds (by norm_num) (by norm_num) (by norm_num) (by norm_num) hQ.Wc2 hQ.bc2 Ideal.tanh F3
  have F5 := layer_folds (by norm_num) (by norm_num) (by norm_num) (by norm_num) hQ.Wp2 hQ.bp2 Ideal.tanh F4
  have F6 := layer_folds (by norm_num) (by norm_num) (by norm_num) (by norm_num) hQ.Wc3 hQ.bc3 Ideal.tanh F5
  have F7 := resid_folds (by norm_num) (by norm_num) hQ.Wr hQ.br F6
  have F8 := layer_folds (by norm_num) (by norm_num) (by norm_num) (by norm_num) hQ.Wh hQ.bh Ideal.logistic F7
  have hs : s.val * 1 + (0 : Fin 1).val < 16 := by simp
  have h := F8 s 0 hs
  have es : (⟨s.val * 1 + (0 : Fin 1).val, hs⟩ : Fin 16) = s := Fin.ext (by simp)
  rw [es] at h
  exact h

end Cert.Spec

end
-- ==== Proof.LibBlockSum.lean ====
/-
  A sum over `a * b` consecutive indices, regrouped into `a` consecutive blocks of `b` indices each: the sum of the
  blocks' sums. Stated for any commutative additive monoid, and instantiated at 4096 = 16 × 256.
-/
import Mathlib.Algebra.BigOperators.Fin
import Mathlib.Data.Fintype.BigOperators
import Mathlib.Logic.Equiv.Fin.Basic

namespace Cert.LibBlockSum

variable {M : Type*} [AddCommMonoid M]

/-- Index `y` of block `x`, among `a` blocks of `b` indices, is below `a * b`. -/
theorem block_lt {a b : ℕ} (x : Fin a) (y : Fin b) : x.val * b + y.val < a * b :=
  calc x.val * b + y.val < x.val * b + b := Nat.add_lt_add_left y.isLt _
    _ = (x.val + 1) * b := (Nat.succ_mul _ _).symm
    _ ≤ a * b := Nat.mul_le_mul_right _ x.isLt

/-- A sum over `Fin (a * b)` is the sum over the `a` blocks of the sum over each block's `b` indices, index `y` of
    block `x` being `x * b + y`. -/
theorem sum_blocks_mul (a b : ℕ) (f : Fin (a * b) → M) :
    ∑ i : Fin (a * b), f i = ∑ x : Fin a, ∑ y : Fin b, f ⟨x.val * b + y.val, block_lt x y⟩ := by
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A sum over 4096 indices is the sum over 16 blocks of the sum over each block's 256 indices. -/
theorem sum_blocks (f : Fin 4096 → M) :
    ∑ i : Fin 4096, f i = ∑ kb : Fin 16, ∑ kk : Fin 256, f ⟨kb.val * 256 + kk.val, by omega⟩ :=
  sum_blocks_mul 16 256 f

/-- The same with the blocks counted by a natural number below 16: a term whose index would fall outside the 4096
    (there is none) contributes zero. The first `n` blocks' partial sums are then sums over `Finset.range n`. -/
theorem sum_blocks_range (f : Fin 4096 → M) :
    ∑ i : Fin 4096, f i = ∑ kb ∈ Finset.range 16, ∑ kk : Fin 256,
      (if h : kb * 256 + kk.val < 4096 then f ⟨kb * 256 + kk.val, h⟩ else 0) := by
  rw [sum_blocks, Finset.sum_range]
  refine Finset.sum_congr rfl fun kb _ => Finset.sum_congr rfl fun kk _ => ?_
  rw [dif_pos (show kb.val * 256 + kk.val < 4096 by omega)]

end Cert.LibBlockSum
-- ==== Proof.BatchStats.lean ====
/-
  Two facts about a batch of 1048576 rows.

  The first: for real (finite) entries, the mean of the squares minus the square of the mean equals the mean of the
  squared deviations from the mean. With N the batch size, S = Σ x and μ = S / N,
      Σ (x − μ)² = Σ x² − 2 μ S + N μ² = Σ x² − N μ²,
  and dividing by N gives the claim. The identity is proved for real numbers over an arbitrary finite index type and
  carried to the extended reals through the coercion, which commutes with finite sums, products and differences.

  The second: the index ((t · 4096 + r) · 16 + s), for s, t below 16 and r below 4096, runs over all of the 1048576
  indices exactly once, so a sum over the batch may be regrouped as a triple sum. This is two uses of the regrouping
  of a sum over a · b consecutive indices into a blocks of b, at 1048576 = 65536 · 16 and 65536 = 16 · 4096, and one
  exchange of the order of summation.
-/
import Mathlib
import proofs.«112536_j65481071403406_2_alg».proof.Proof.Spec
import proofs.«112536_j65481071403406_2_alg».proof.Proof.LibBlockSum

noncomputable section

namespace Cert.Spec

open Idealize.ShloMosaic

/-- The float word 0x49800000 (exponent field 147, significand field 0) denotes 2^20 = 1048576. -/
theorem cnt_eq : cnt = ((1048576 : ℝ) : EReal) := by
  simp [cnt, Ideal.ofBits, Ideal.ieee, -EReal.coe_mul]; norm_num

/-- The coercion of the reals into the extended reals commutes with finite sums. -/
theorem coe_finsum {ι : Type*} (s : Finset ι) (x : ι → ℝ) :
    ((∑ n ∈ s, x n : ℝ) : EReal) = ∑ n ∈ s, ((x n : ℝ) : EReal) := by
  classical
  induction s using Finset.induction_on with
  | empty => simp
  | insert a s ha ih => rw [Finset.sum_insert ha, Finset.sum_insert ha, EReal.coe_add, ih]

/-- Over the reals, with N ≠ 0 the number of indices and μ = (Σ x) · (1/N):
    (Σ x²) · (1/N) − μ · μ = (Σ (x − μ)²) · (1/N). -/
theorem real_var_identity {ι : Type*} [Fintype ι] (x : ι → ℝ) (N : ℝ) (hN : N ≠ 0)
    (hcard : (Fintype.card ι : ℝ) = N) :
    (∑ n, x n * x n) * (1 / N) - ((∑ n, x n) * (1 / N)) * ((∑ n, x n) * (1 / N))
      = (∑ n, (x n - (∑ m, x m) * (1 / N)) * (x n - (∑ m, x m) * (1 / N))) * (1 / N) := by
  set S : ℝ := ∑ m, x m with hS
  set μ : ℝ := S * (1 / N) with hμ
  have hdev : ∑ n, (x n - μ) * (x n - μ) = (∑ n, x n * x n) - 2 * μ * S + N * (μ * μ) := by
    have h1 : ∀ n, (x n - μ) * (x n - μ) = x n * x n - 2 * μ * x n + μ * μ := fun n => by ring
    simp only [h1, Finset.sum_add_distrib, Finset.sum_sub_distrib, ← Finset.mul_sum, Finset.sum_const,
      Finset.card_univ, nsmul_eq_mul, hcard, ← hS]
    ring
  rw [hdev, hμ]
  field_simp
  ring

/-- The same identity for real entries viewed in the extended reals. -/
theorem ereal_var_identity {ι : Type*} [Fintype ι] (x : ι → ℝ) (N : ℝ) (hN : N ≠ 0)
    (hcard : (Fintype.card ι : ℝ) = N) :
    (∑ n, (x n : EReal) * (x n : EReal)) * ((1 / N : ℝ) : EReal)
        - ((∑ n, (x n : EReal)) * ((1 / N : ℝ) : EReal)) * ((∑ n, (x n : EReal)) * ((1 / N : ℝ) : EReal))
      = (∑ n, ((x n : EReal) - (∑ m, (x m : EReal)) * ((1 / N : ℝ) : EReal))
            * ((x n : EReal) - (∑ m, (x m : EReal)) * ((1 / N : ℝ) : EReal))) * ((1 / N : ℝ) : EReal) := by
  simp only [← EReal.coe_mul, ← coe_finsum, ← EReal.coe_sub]
  exact congrArg _ (real_var_identity x N hN hcard)

/-- For finite entries the mean of the squares minus the square of the mean IS the mean of the squared deviations. -/
theorem varSq_eq_varDev (X : Fin 1048576 → Fin 8 → EReal) (hX : ∀ n f, X n f ≠ ⊤ ∧ X n f ≠ ⊥) (f : Fin 8) :
    varSq X f = varDev X f := by
  have hreal : ∀ n, ∃ r : ℝ, X n f = (r : EReal) := fun n =>
    ⟨(X n f).toReal, (EReal.coe_toReal (hX n f).1 (hX n f).2).symm⟩
  choose x hx using hreal
  have hN : (1048576 : ℝ) ≠ 0 := by norm_num
  have hcard : (Fintype.card (Fin 1048576) : ℝ) = 1048576 := by rw [Fintype.card_fin]; norm_num
  simp only [varSq, varDev, mean, zero_eq, zero_add, cnt_eq, Ideal.div_coe hN, hx]
  exact ereal_var_identity x 1048576 hN hcard

/-- A sum over the batch regrouped: the index ((t·4096 + r)·16 + s) runs over all of Fin 1048576 exactly once. -/
theorem sum_fold16 {M : Type*} [AddCommMonoid M] (Y : Fin 1048576 → M) :
    ∑ s : Fin 16, ∑ t : Fin 16, ∑ r : Fin 4096, Y ⟨(t.val * 4096 + r.val) * 16 + s.val, by omega⟩
      = ∑ n : Fin 1048576, Y n := by
  calc ∑ s : Fin 16, ∑ t : Fin 16, ∑ r : Fin 4096, Y ⟨(t.val * 4096 + r.val) * 16 + s.val, by omega⟩
      = ∑ s : Fin 16, ∑ u : Fin 65536, Y ⟨u.val * 16 + s.val, by omega⟩ :=
        Finset.sum_congr rfl fun s _ =>
          (Cert.LibBlockSum.sum_blocks_mul 16 4096 (fun u : Fin 65536 => Y ⟨u.val * 16 + s.val, by omega⟩)).symm
    _ = ∑ u : Fin 65536, ∑ s : Fin 16, Y ⟨u.val * 16 + s.val, by omega⟩ := Finset.sum_comm
    _ = ∑ n : Fin 1048576, Y n := (Cert.LibBlockSum.sum_blocks_mul 65536 16 Y).symm

end Cert.Spec

end
-- ==== Proof.StatsBridge.lean ====
/-
  The batch statistics computed from the folded layout are the batch statistics.

  The batch X of 1048576 rows of 8 features is read as 65536 long rows of 128 entries: long row R holds rows
  16·R, …, 16·R + 15 side by side, so entry l of long row R is feature l mod 8 of row 16·R + l div 8. Column sums
  of the long rows are taken in sixteen blocks of 4096 long rows, and the sum of feature f over the batch is the sum
  over s below 16 of the column sum at 8·s + f. Since (8·s + f) div 8 = s and (8·s + f) mod 8 = f, that triple sum
  runs over the rows ((4096·t + r)·16 + s), which are all the rows, each exactly once. The same holds with every
  entry replaced by its square, or by any function of it.
-/
import Mathlib
import proofs.«112536_j65481071403406_2_alg».proof.Proof.Spec
import proofs.«112536_j65481071403406_2_alg».proof.Proof.BatchStats

noncomputable section

namespace Cert.Spec

open Idealize.ShloMosaic

/-- Two entries of the batch whose row numbers agree and whose feature numbers agree are the same entry. -/
theorem entry_congr (X : Fin 1048576 → Fin 8 → EReal) (n₁ n₂ : Fin 1048576) (f₁ f₂ : Fin 8)
    (hn : n₁.val = n₂.val) (hf : f₁.val = f₂.val) : X n₁ f₁ = X n₂ f₂ := by
  rw [Fin.ext hn, Fin.ext hf]

/-- For any function φ of an entry: summing φ of the long rows' entries at column 8·s + f over the sixteen blocks
    of 4096 long rows, and then over s, is summing φ of feature f over the whole batch. -/
theorem fold_sum (X : Fin 1048576 → Fin 8 → EReal) (xv : Fin 65536 → Fin 128 → EReal)
    (hxv : ∀ (R : Fin 65536) (l : Fin 128), xv R l = X ⟨R.val * 16 + l.val / 8, by omega⟩ ⟨l.val % 8, by omega⟩)
    (φ : EReal → EReal) (f : Fin 8) :
    ∑ s : Fin 16, ∑ t : Fin 16, ∑ r : Fin 4096,
        φ (xv ⟨t.val * 4096 + r.val, by omega⟩ ⟨s.val * 8 + f.val, by omega⟩)
      = ∑ n : Fin 1048576, φ (X n f) := by
  refine Eq.trans ?_ (sum_fold16 (fun n => φ (X n f)))
  refine Finset.sum_congr rfl fun s _ => Finset.sum_congr rfl fun t _ => Finset.sum_congr rfl fun r _ => ?_
  rw [hxv]
  exact congrArg φ (entry_congr X _ _ _ _ (by dsimp only; omega) (by dsimp only; omega))

/-- The mean of feature f from the column sums of the long rows. -/
theorem mean_bridge (X : Fin 1048576 → Fin 8 → EReal) (xv : Fin 65536 → Fin 128 → EReal) (S1 : Fin 128 → EReal)
    (hxv : ∀ (R : Fin 65536) (l : Fin 128), xv R l = X ⟨R.val * 16 + l.val / 8, by omega⟩ ⟨l.val % 8, by omega⟩)
    (hS1 : ∀ l : Fin 128, S1 l = ∑ t : Fin 16, ∑ r : Fin 4096, xv ⟨t.val * 4096 + r.val, by omega⟩ l) (f : Fin 8) :
    Ideal.div (zero + ∑ s : Fin 16, S1 ⟨s.val * 8 + f.val, by omega⟩) cnt = mean X f := by
  have h1 : ∑ s : Fin 16, S1 ⟨s.val * 8 + f.val, by omega⟩ = ∑ n : Fin 1048576, X n f := by
    simp only [hS1]
    exact fold_sum X xv hxv (fun x => x) f
  rw [h1, mean]

/-- The mean of the squares minus the square of the mean, from the column sums of the long rows and of their squares. -/
theorem varSq_bridge (X : Fin 1048576 → Fin 8 → EReal) (xv : Fin 65536 → Fin 128 → EReal) (S1 S2 : Fin 128 → EReal)
    (hxv : ∀ (R : Fin 65536) (l : Fin 128), xv R l = X ⟨R.val * 16 + l.val / 8, by omega⟩ ⟨l.val % 8, by omega⟩)
    (hS1 : ∀ l : Fin 128, S1 l = ∑ t : Fin 16, ∑ r : Fin 4096, xv ⟨t.val * 4096 + r.val, by omega⟩ l)
    (hS2 : ∀ l : Fin 128, S2 l = ∑ t : Fin 16, ∑ r : Fin 4096,
      xv ⟨t.val * 4096 + r.val, by omega⟩ l * xv ⟨t.val * 4096 + r.val, by omega⟩ l) (f : Fin 8) :
    Ideal.div (zero + ∑ s : Fin 16, S2 ⟨s.val * 8 + f.val, by omega⟩) cnt
        - Ideal.div (zero + ∑ s : Fin 16, S1 ⟨s.val * 8 + f.val, by omega⟩) cnt
          * Ideal.div (zero + ∑ s : Fin 16, S1 ⟨s.val * 8 + f.val, by omega⟩) cnt
      = varSq X f := by
  have h2 : ∑ s : Fin 16, S2 ⟨s.val * 8 + f.val, by omega⟩ = ∑ n : Fin 1048576, X n f * X n f := by
    simp only [hS2]
    exact fold_sum X xv hxv (fun x => x * x) f
  rw [mean_bridge X xv S1 hxv hS1 f, h2, varSq]

/-- Entry (n mod 16)·8 + f of long row n div 16 is feature f of row n. -/
theorem row_bridge (X : Fin 1048576 → Fin 8 → EReal) (xv : Fin 65536 → Fin 128 → EReal)
    (hxv : ∀ (R : Fin 65536) (l : Fin 128), xv R l = X ⟨R.val * 16 + l.val / 8, by omega⟩ ⟨l.val % 8, by omega⟩)
    (n : Fin 1048576) (f : Fin 8) :
    xv ⟨n.val / 16, by omega⟩ ⟨(n.val % 16) * 8 + f.val, by omega⟩ = X n f := by
  rw [hxv]
  exact entry_congr X _ _ _ _ (by dsimp only; omega) (by dsimp only; omega)

end Cert.Spec

end
-- ==== Proof.KCompose.lean ====
/-
  The kernel program's result is the specification.

  Batch row n sits in long row n / 16 of the folded view at positions 8·(n % 16) … 8·(n % 16) + 7. The main region
  finds there the tiled mean and variance the first pass and the host arithmetic produced: the sums of columns over
  all long rows, regrouped, are the sums over the batch, so the tiled mean is the batch mean and the tiled variance is
  the mean of the squares minus the square of the mean — for finite inputs the mean of the squared deviations. The
  weights it finds are block-diagonal with sixteen copies of each layer's matrix and the biases repeated, so output
  n % 16 of the side-by-side chain of long row n / 16 is the plain chain of batch row n.
-/
import proofs.«112536_j65481071403406_2_alg».proof.Proof.Gen.KernelIdeal.Frame
import proofs.«112536_j65481071403406_2_alg».proof.Proof.KTail
import proofs.«112536_j65481071403406_2_alg».proof.Proof.MidStats
import proofs.«112536_j65481071403406_2_alg».proof.Proof.MidWeights
import proofs.«112536_j65481071403406_2_alg».proof.Proof.MidWeightsB
import proofs.«112536_j65481071403406_2_alg».proof.Proof.KStats
import proofs.«112536_j65481071403406_2_alg».proof.Proof.FoldLaw
import proofs.«112536_j65481071403406_2_alg».proof.Proof.BatchStats
import proofs.«112536_j65481071403406_2_alg».proof.Proof.StatsBridge

set_option maxRecDepth 16384

noncomputable section

namespace Cert.KernelIdeal.Compose

open Cert.KernelIdeal Cert.KernelIdeal.Gen Cert.Spec
open Idealize.ShloMosaic Idealize.ShloMosaic.TcCoe Idealize.SL.Sem Idealize.ShloMosaic.ValueIdx

section Projections
variable (V : (c : Dev nD) → (b : Ref sig .tc) → Buf (Elt Ideal) ((c : Thread nD τ).loc b)) (c : Dev nD)

/-! The side-by-side weights the main region's whole-array function is written over are, field by field, the
    arrays the region finds, read at two coordinates (a bias at row 0). -/
theorem Q_Wfm (a : Fin 128) (b : Fin 256) : (Cert.KernelIdeal.MainRegion.Q V c).Wfm a b = (V c main_v34 : Vec Ideal S128x256 .f32) (ix2 a b) := rfl
theorem Q_bfm (b : Fin 256) : (Cert.KernelIdeal.MainRegion.Q V c).bfm b = (V c main_v38 : Vec Ideal S1x256 .f32) (ix2 (0 : Fin 1) b) := rfl
theorem Q_Wc1 (a : Fin 256) (b : Fin 256) : (Cert.KernelIdeal.MainRegion.Q V c).Wc1 a b = (V c main_v45 : Vec Ideal S256x256 .f32) (ix2 a b) := rfl
theorem Q_bc1 (b : Fin 256) : (Cert.KernelIdeal.MainRegion.Q V c).bc1 b = (V c main_v49 : Vec Ideal S1x256 .f32) (ix2 (0 : Fin 1) b) := rfl
theorem Q_Wp1 (a : Fin 256) (b : Fin 192) : (Cert.KernelIdeal.MainRegion.Q V c).Wp1 a b = (V c main_v56 : Vec Ideal S256x192 .f32) (ix2 a b) := rfl
theorem Q_bp1 (b : Fin 192) : (Cert.KernelIdeal.MainRegion.Q V c).bp1 b = (V c main_v60 : Vec Ideal S1x192 .f32) (ix2 (0 : Fin 1) b) := rfl
theorem Q_Wc2 (a : Fin 192) (b : Fin 128) : (Cert.KernelIdeal.MainRegion.Q V c).Wc2 a b = (V c main_v67 : Vec Ideal S192x128 .f32) (ix2 a b) := rfl
theorem Q_bc2 (b : Fin 128) : (Cert.KernelIdeal.MainRegion.Q V c).bc2 b = (V c main_v71 : Vec Ideal S1x128 .f32) (ix2 (0 : Fin 1) b) := rfl
theorem Q_Wp2 (a : Fin 128) (b : Fin 64) : (Cert.KernelIdeal.MainRegion.Q V c).Wp2 a b = (V c main_v78 : Vec Ideal S128x64 .f32) (ix2 a b) := rfl
theorem Q_bp2 (b : Fin 64) : (Cert.KernelIdeal.MainRegion.Q V c).bp2 b = (V c main_v82 : Vec Ideal S1x64 .f32) (ix2 (0 : Fin 1) b) := rfl
theorem Q_Wc3 (a : Fin 64) (b : Fin 64) : (Cert.KernelIdeal.MainRegion.Q V c).Wc3 a b = (V c main_v89 : Vec Ideal S64x64 .f32) (ix2 a b) := rfl
theorem Q_bc3 (b : Fin 64) : (Cert.KernelIdeal.MainRegion.Q V c).bc3 b = (V c main_v93 : Vec Ideal S1x64 .f32) (ix2 (0 : Fin 1) b) := rfl
theorem Q_Wr (a : Fin 64) (b : Fin 64) : (Cert.KernelIdeal.MainRegion.Q V c).Wr a b = (V c main_v100 : Vec Ideal S64x64 .f32) (ix2 a b) := rfl
theorem Q_br (b : Fin 64) : (Cert.KernelIdeal.MainRegion.Q V c).br b = (V c main_v104 : Vec Ideal S1x64 .f32) (ix2 (0 : Fin 1) b) := rfl
theorem Q_Wh (a : Fin 64) (b : Fin 16) : (Cert.KernelIdeal.MainRegion.Q V c).Wh a b = (V c main_v111 : Vec Ideal S64x16 .f32) (ix2 a b) := rfl
theorem Q_bh (b : Fin 16) : (Cert.KernelIdeal.MainRegion.Q V c).bh b = (V c main_v115 : Vec Ideal S1x16 .f32) (ix2 (0 : Fin 1) b) := rfl
end Projections

variable (m : (ℓ : Loc nD τ sig) → Buf (Elt Ideal) ℓ) (ρ : Dev nD → PrngReg) (c : Dev nD)

/-- The batch: row n, feature f. -/
def XK : Fin 1048576 → Fin 8 → EReal := fun n f => (m ((c : Thread nD τ).loc main_arg0) : Vec Ideal S1048576x8 .f32) (ix2 n f)
/-- The scale. -/
def gamK : Fin 8 → EReal := fun f => (m ((c : Thread nD τ).loc main_arg1) : Vec Ideal S8 .f32) (ix1 f)
/-- The shift. -/
def betK : Fin 8 → EReal := fun f => (m ((c : Thread nD τ).loc main_arg2) : Vec Ideal S8 .f32) (ix1 f)
/-- The eight layers' weights and biases. -/
def weightsK : Weights :=
  { Wfm := fun f g => (m ((c : Thread nD τ).loc main_arg3) : Vec Ideal S8x16 .f32) (ix2 f g), bfm := fun g => (m ((c : Thread nD τ).loc main_arg4) : Vec Ideal S16 .f32) (ix1 g)
    Wc1 := fun f g => (m ((c : Thread nD τ).loc main_arg5) : Vec Ideal S16x16 .f32) (ix2 f g), bc1 := fun g => (m ((c : Thread nD τ).loc main_arg6) : Vec Ideal S16 .f32) (ix1 g)
    Wp1 := fun f g => (m ((c : Thread nD τ).loc main_arg7) : Vec Ideal S16x12 .f32) (ix2 f g), bp1 := fun g => (m ((c : Thread nD τ).loc main_arg8) : Vec Ideal S12 .f32) (ix1 g)
    Wc2 := fun f g => (m ((c : Thread nD τ).loc main_arg9) : Vec Ideal S12x8 .f32) (ix2 f g), bc2 := fun g => (m ((c : Thread nD τ).loc main_arg10) : Vec Ideal S8 .f32) (ix1 g)
    Wp2 := fun f g => (m ((c : Thread nD τ).loc main_arg11) : Vec Ideal S8x4 .f32) (ix2 f g), bp2 := fun g => (m ((c : Thread nD τ).loc main_arg12) : Vec Ideal S4 .f32) (ix1 g)
    Wc3 := fun f g => (m ((c : Thread nD τ).loc main_arg13) : Vec Ideal S4x4 .f32) (ix2 f g), bc3 := fun g => (m ((c : Thread nD τ).loc main_arg14) : Vec Ideal S4 .f32) (ix1 g)
    Wr := fun f g => (m ((c : Thread nD τ).loc main_arg15) : Vec Ideal S4x4 .f32) (ix2 f g), br := fun g => (m ((c : Thread nD τ).loc main_arg16) : Vec Ideal S4 .f32) (ix1 g)
    Wh := fun f g => (m ((c : Thread nD τ).loc main_arg17) : Vec Ideal S4x1 .f32) (ix2 f g), bh := fun g => (m ((c : Thread nD τ).loc main_arg18) : Vec Ideal S1 .f32) (ix1 g) }

/-- The arrays the main region finds are the layers' weights laid out for sixteen rows side by side. -/
theorem folded : IsFolded (weightsK m c) (Cert.KernelIdeal.MainRegion.Q (V19 m ρ) c) where
  Wfm := fun a b ha hb => (Q_Wfm (V19 m ρ) c a b).trans (Cert.KernelIdeal.Mid.w_fm m ρ c a b)
  bfm := fun b hb => (Q_bfm (V19 m ρ) c b).trans (Cert.KernelIdeal.Mid.b_fm m ρ c b)
  Wc1 := fun a b ha hb => (Q_Wc1 (V19 m ρ) c a b).trans (Cert.KernelIdeal.Mid.w_c1 m ρ c a b)
  bc1 := fun b hb => (Q_bc1 (V19 m ρ) c b).trans (Cert.KernelIdeal.Mid.b_c1 m ρ c b)
  Wp1 := fun a b ha hb => (Q_Wp1 (V19 m ρ) c a b).trans (Cert.KernelIdeal.Mid.w_p1 m ρ c a b)
  bp1 := fun b hb => (Q_bp1 (V19 m ρ) c b).trans (Cert.KernelIdeal.Mid.b_p1 m ρ c b)
  Wc2 := fun a b ha hb => (Q_Wc2 (V19 m ρ) c a b).trans (Cert.KernelIdeal.Mid.w_c2 m ρ c a b)
  bc2 := fun b hb => (Q_bc2 (V19 m ρ) c b).trans (Cert.KernelIdeal.Mid.b_c2 m ρ c b)
  Wp2 := fun a b ha hb => (Q_Wp2 (V19 m ρ) c a b).trans (Cert.KernelIdeal.MidB.w_p2 m ρ c a b)
  bp2 := fun b hb => (Q_bp2 (V19 m ρ) c b).trans (Cert.KernelIdeal.MidB.b_p2 m ρ c b)
  Wc3 := fun a b ha hb => (Q_Wc3 (V19 m ρ) c a b).trans (Cert.KernelIdeal.MidB.w_c3 m ρ c a b)
  bc3 := fun b hb => (Q_bc3 (V19 m ρ) c b).trans (Cert.KernelIdeal.MidB.b_c3 m ρ c b)
  Wr := fun a b ha hb => (Q_Wr (V19 m ρ) c a b).trans (Cert.KernelIdeal.MidB.w_r m ρ c a b)
  br := fun b hb => (Q_br (V19 m ρ) c b).trans (Cert.KernelIdeal.MidB.b_r m ρ c b)
  Wh := fun a b ha hb => (Q_Wh (V19 m ρ) c a b).trans (Cert.KernelIdeal.MidB.w_h m ρ c a b)
  bh := fun b hb => (Q_bh (V19 m ρ) c b).trans (Cert.KernelIdeal.MidB.b_h m ρ c b)

/-- The folded view of the batch as the first region finds it. -/
def xv (R : Fin 65536) (l : Fin 128) : EReal := W1 m ρ c (Proc.devRef .tc main_v0) (ix2 R l)
/-- The column sums the first region leaves. -/
def S1 (l : Fin 128) : EReal := W2 m ρ c (Proc.devRef .tc main_v1_0) (ix2 (0 : Fin 1) l)
/-- The column sums of squares the first region leaves. -/
def S2 (l : Fin 128) : EReal := W2 m ρ c (Proc.devRef .tc main_v1_1) (ix2 (0 : Fin 1) l)

theorem xv_eq (R : Fin 65536) (l : Fin 128) :
    xv m ρ c R l = XK m c ⟨R.val * 16 + l.val / 8, by omega⟩ ⟨l.val % 8, by omega⟩ :=
  Cert.KernelIdeal.MidS.x_rows m ρ c R l

theorem S1_eq (l : Fin 128) : S1 m ρ c l = ∑ t : Fin 16, ∑ r : Fin 4096, xv m ρ c ⟨t.val * 4096 + r.val, by omega⟩ l :=
  Cert.KernelIdeal.Stats.sum_col m ρ c l

theorem S2_eq (l : Fin 128) :
    S2 m ρ c l = ∑ t : Fin 16, ∑ r : Fin 4096, xv m ρ c ⟨t.val * 4096 + r.val, by omega⟩ l * xv m ρ c ⟨t.val * 4096 + r.val, by omega⟩ l :=
  Cert.KernelIdeal.Stats.sumsq_col m ρ c l

/-- The tiled mean the main region finds is the batch mean. -/
theorem mean_at (l : Fin 128) (hl : l.val % 8 < 8) :
    W19 m ρ c (Proc.devRef .tc main_v15) (ix2 (0 : Fin 1) l) = mean (XK m c) ⟨l.val % 8, hl⟩ :=
  (Cert.KernelIdeal.MidS.mean_tile m ρ c l).trans
    (mean_bridge (XK m c) (xv m ρ c) (S1 m ρ c) (xv_eq m ρ c) (S1_eq m ρ c) ⟨l.val % 8, hl⟩)

/-- The tiled variance the main region finds is the mean of the squares minus the square of the mean. -/
theorem var_at (l : Fin 128) (hl : l.val % 8 < 8) :
    W19 m ρ c (Proc.devRef .tc main_v19) (ix2 (0 : Fin 1) l) = varSq (XK m c) ⟨l.val % 8, hl⟩ :=
  (Cert.KernelIdeal.MidS.var_tile m ρ c l).trans
    (varSq_bridge (XK m c) (xv m ρ c) (S1 m ρ c) (S2 m ρ c) (xv_eq m ρ c) (S1_eq m ρ c) (S2_eq m ρ c) ⟨l.val % 8, hl⟩)

/-- The folded input the main region finds at long row n / 16, position 8·(n % 16) + f, is batch row n, feature f. -/
theorem x_at (n : Fin 1048576) (f : Fin 8) (h1 : n.val / 16 < 65536) (h2 : n.val % 16 * 8 + f.val < 128) :
    W19 m ρ c (Proc.devRef .tc main_v0) (ix2 (⟨n.val / 16, h1⟩ : Fin 65536) (⟨n.val % 16 * 8 + f.val, h2⟩ : Fin 128)) = XK m c n f := by
  rw [Cert.KernelIdeal.MidS.x_rows_kept m ρ c]
  exact row_bridge (XK m c) (xv m ρ c) (xv_eq m ρ c) n f

/-- Batch row n of the program's result is the specification. -/
theorem result_eq (hfin : ∀ i : S1048576x8.Idx, @Ne EReal (m ((c : Thread nD τ).loc main_arg0) i) ⊤
      ∧ @Ne EReal (m ((c : Thread nD τ).loc main_arg0) i) ⊥) :
    W21 m ρ c (Proc.devRef .tc main_v117)
      = fun i => Cert.Spec.out (weightsK m c) (gamK m c) (betK m c) (XK m c) (i 0) := by
  funext i
  obtain ⟨n, z, rfl⟩ : ∃ (n : Fin 1048576) (z : Fin 1), i = ix2 n z := ⟨i 0, i 1, eq_ix2 i⟩
  obtain rfl : z = 0 := Subsingleton.elim (α := Fin 1) _ _
  have h1 : n.val / 16 < 65536 := by have := n.isLt; omega
  have h2 : n.val % 16 < 16 := Nat.mod_lt _ (by norm_num)
  refine (Cert.KernelIdeal.Tail.result_row m ρ c n h1 h2).trans ?_
  show headF (Cert.KernelIdeal.MainRegion.Q (V19 m ρ) c) (Cert.KernelIdeal.MainRegion.rowN (V19 m ρ) c ⟨n.val / 16, h1⟩) ⟨n.val % 16, h2⟩
    = out (weightsK m c) (gamK m c) (betK m c) (XK m c) n
  rw [headF_eq (weightsK m c) _ (folded m ρ c)]
  unfold out
  refine congrArg (head (weightsK m c)) (funext fun f => ?_)
  have h3 : n.val % 16 * 8 + f.val < 128 := by have := f.isLt; omega
  have hm : (⟨(⟨n.val % 16 * 8 + f.val, h3⟩ : Fin 128).val % 8, Nat.mod_lt _ (by norm_num)⟩ : Fin 8) = f :=
    Fin.ext (by show (n.val % 16 * 8 + f.val) % 8 = f.val; have := f.isLt; omega)
  show Cert.KernelIdeal.MainRegion.rowNOf (W19 m ρ c (Proc.devRef .tc main_v0)) (W19 m ρ c (Proc.devRef .tc main_v15)) (W19 m ρ c (Proc.devRef .tc main_v19)) (W19 m ρ c (Proc.devRef .tc main_v23))
      (W19 m ρ c (Proc.devRef .tc main_v27)) ⟨n.val / 16, h1⟩ ⟨n.val % 16 * 8 + f.val, h3⟩ = bn (mean (XK m c)) (varDev (XK m c)) (gamK m c) (betK m c) (XK m c n) f
  unfold Cert.KernelIdeal.MainRegion.rowNOf bn
  rw [x_at m ρ c n f h1 h3, mean_at m ρ c _ (Nat.mod_lt _ (by norm_num)), var_at m ρ c _ (Nat.mod_lt _ (by norm_num)),
    Cert.KernelIdeal.MidS.gamma_tile m ρ c, Cert.KernelIdeal.MidS.beta_tile m ρ c, hm,
    varSq_eq_varDev (XK m c) (fun n f => hfin (ix2 n f)) f]
  rfl

end Cert.KernelIdeal.Compose

end
-- ==== Proof.RefRows.lean ====
/-
  The reference program computes the specification.

  The reference program is a chain of array operations, numbered 0 to 70. Each is read at one index, bottom-up.
  Operations 0–2 form the batch mean of a feature; 5–9 the mean of the squared deviations from it; 12–24 the
  normalised, scaled and shifted entry. After that each group of five operations is one dense layer: a contraction
  of the previous stage's row with the weights, the bias repeated over the rows, a sum, and the hyperbolic tangent.
  Operations 55–60 add the rectified residual layer to the sixth layer. Operations 61–70 are the one-output layer
  followed by 1 / (1 + exp (−z)), which is the logistic function of z.
  Every statement is at a symbolic row n, so no sum over the batch is ever expanded; the float words for zero, the
  batch size and the variance offset stay words on both sides, and only the word for one is evaluated.
-/
import proofs.«112536_j65481071403406_2_alg».proof.Proof.Gen.ReferenceIdeal.Read
import proofs.«112536_j65481071403406_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## Normalisation: batch mean, batch variance, and the normalised row -/

/-- The summation index of the first batch sum at feature `f` and row `k` is the entry (k, f). -/
theorem idx_v0 (f : Fin 8) (k : Fin 1048576) : idx_main_v0 (ix1 f) k = ix2 k f :=
  funext fun a => by match a with | ⟨0, _⟩ => rfl | ⟨1, _⟩ => rfl

/-- The same for the second batch sum. -/
theorem idx_v7 (f : Fin 8) (k : Fin 1048576) : idx_main_v7 (ix1 f) k = ix2 k f :=
  funext fun a => by match a with | ⟨0, _⟩ => rfl | ⟨1, _⟩ => rfl

section
variable (x0 : (⟨S1048576x8, .f32⟩ : BufTy).Contents (Elt Ideal))
  (x1 : (⟨S8, .f32⟩ : BufTy).Contents (Elt Ideal))
  (x2 : (⟨S8, .f32⟩ : BufTy).Contents (Elt Ideal))
  (x3 : (⟨S8x16, .f32⟩ : BufTy).Contents (Elt Ideal))
  (x4 : (⟨S16, .f32⟩ : BufTy).Contents (Elt Ideal))
  (x5 : (⟨S16x16, .f32⟩ : BufTy).Contents (Elt Ideal))
  (x6 : (⟨S16, .f32⟩ : BufTy).Contents (Elt Ideal))
  (x7 : (⟨S16x12, .f32⟩ : BufTy).Contents (Elt Ideal))
  (x8 : (⟨S12, .f32⟩ : BufTy).Contents (Elt Ideal))
  (x9 : (⟨S12x8, .f32⟩ : BufTy).Contents (Elt Ideal))
  (x10 : (⟨S8, .f32⟩ : BufTy).Contents (Elt Ideal))
  (x11 : (⟨S8x4, .f32⟩ : BufTy).Contents (Elt Ideal))
  (x12 : (⟨S4, .f32⟩ : BufTy).Contents (Elt Ideal))
  (x13 : (⟨S4x4, .f32⟩ : BufTy).Contents (Elt Ideal))
  (x14 : (⟨S4, .f32⟩ : BufTy).Contents (Elt Ideal))
  (x15 : (⟨S4x4, .f32⟩ : BufTy).Contents (Elt Ideal))
  (x16 : (⟨S4, .f32⟩ : BufTy).Contents (Elt Ideal))
  (x17 : (⟨S4x1, .f32⟩ : BufTy).Contents (Elt Ideal))
  (x18 : (⟨S1, .f32⟩ : BufTy).Contents (Elt Ideal))

/-- Stage 2 is the batch mean. -/
theorem mean_at (f : Fin 8) :
    val_main_v2 (F := Ideal) x0 (ix1 f) = Cert.Spec.mean (fun n f => x0 (ix2 n f)) f := by
  rw [val_main_v2_apply, val_main_v0_apply, val_main_v1_apply, val_main_cst_0_apply, val_main_cst_apply]
  simp only [Ideal.hostDivf_def, Ideal.ofBits_def, idx_v0, Cert.Spec.mean, Cert.Spec.zero, Cert.Spec.cnt]

/-- Stage 5: the deviation of entry (n, f) from the mean of feature f. -/
theorem dev_at (n : Fin 1048576) (f : Fin 8) :
    val_main_v5 (F := Ideal) x0 (ix2 n f) = x0 (ix2 n f) - Cert.Spec.mean (fun n f => x0 (ix2 n f)) f := by
  rw [val_main_v5_apply, val_main_v4_apply, val_main_v3_apply, ← mean_at]
  simp only [Ideal.subf_def]
  exact congrArg (fun j => x0 (ix2 n f) - val_main_v2 (F := Ideal) x0 j) (funext fun a => by match a with | ⟨0, _⟩ => rfl)

/-- Stage 12 is the same deviation, computed a second time. -/
theorem dev2_at (n : Fin 1048576) (f : Fin 8) :
    val_main_v12 (F := Ideal) x0 (ix2 n f) = x0 (ix2 n f) - Cert.Spec.mean (fun n f => x0 (ix2 n f)) f := by
  rw [val_main_v12_apply, val_main_v11_apply, val_main_v10_apply, ← mean_at]
  simp only [Ideal.subf_def]
  exact congrArg (fun j => x0 (ix2 n f) - val_main_v2 (F := Ideal) x0 j) (funext fun a => by match a with | ⟨0, _⟩ => rfl)

/-- Stage 9 is the batch variance, the mean of the squared deviations. -/
theorem var_at (f : Fin 8) :
    val_main_v9 (F := Ideal) x0 (ix1 f) = Cert.Spec.varDev (fun n f => x0 (ix2 n f)) f := by
  rw [val_main_v9_apply, val_main_v7_apply, val_main_v8_apply, val_main_cst_2_apply, val_main_cst_1_apply]
  simp only [Ideal.hostDivf_def, Ideal.ofBits_def, Ideal.mulf_def, idx_v7, val_main_v6_apply, dev_at,
    Cert.Spec.varDev, Cert.Spec.zero, Cert.Spec.cnt]

/-- Stage 15: the reciprocal root of variance plus offset. -/
theorem rstd_at (f : Fin 8) :
    val_main_v15 (F := Ideal) x0 (ix1 f)
      = Ideal.rsqrt (Cert.Spec.varDev (fun n f => x0 (ix2 n f)) f + Cert.Spec.eps) := by
  rw [val_main_v15_apply, val_main_v14_apply, val_main_v13_apply, val_main_cst_3_apply, var_at]
  simp only [Ideal.hostUnary_rsqrt_def, Ideal.addf_def, Ideal.ofBits_def, Cert.Spec.eps]

/-- Stage 24 is the normalised, scaled and shifted entry (n, f). -/
theorem norm_at (n : Fin 1048576) (f : Fin 8) :
    val_main_v24 (F := Ideal) x0 x1 x2 (ix2 n f)
      = Cert.Spec.bn (Cert.Spec.mean (fun n f => x0 (ix2 n f))) (Cert.Spec.varDev (fun n f => x0 (ix2 n f)))
          (fun f => x1 (ix1 f)) (fun f => x2 (ix1 f)) (fun f => x0 (ix2 n f)) f := by
  have h17 : val_main_v17 (F := Ideal) x0 (ix2 n f) = val_main_v15 (F := Ideal) x0 (ix1 f) := by
    rw [val_main_v17_apply, val_main_v16_apply]
    exact congrArg (val_main_v15 (F := Ideal) x0) (funext fun a => by match a with | ⟨0, _⟩ => rfl)
  have h20 : val_main_v20 (F := Ideal) x1 (ix2 n f) = x1 (ix1 f) := by
    rw [val_main_v20_apply, val_main_v19_apply]
    exact congrArg x1 (funext fun a => by match a with | ⟨0, _⟩ => rfl)
  have h23 : val_main_v23 (F := Ideal) x2 (ix2 n f) = x2 (ix1 f) := by
    rw [val_main_v23_apply, val_main_v22_apply]
    exact congrArg x2 (funext fun a => by match a with | ⟨0, _⟩ => rfl)
  rw [val_main_v24_apply, val_main_v21_apply, val_main_v18_apply, h17, h20, h23, dev2_at, rstd_at]
  simp only [Ideal.addf_def, Ideal.mulf_def, Cert.Spec.bn]

end

/-! ## The dense layers -/

section
variable (x0 : (⟨S1048576x8, .f32⟩ : BufTy).Contents (Elt Ideal))
  (x1 : (⟨S8, .f32⟩ : BufTy).Contents (Elt Ideal))
  (x2 : (⟨S8, .f32⟩ : BufTy).Contents (Elt Ideal))
  (x3 : (⟨S8x16, .f32⟩ : BufTy).Contents (Elt Ideal))
  (x4 : (⟨S16, .f32⟩ : BufTy).Contents (Elt Ideal))
  (x5 : (⟨S16x16, .f32⟩ : BufTy).Contents (Elt Ideal))
  (x6 : (⟨S16, .f32⟩ : BufTy).Contents (Elt Ideal))
  (x7 : (⟨S16x12, .f32⟩ : BufTy).Contents (Elt Ideal))
  (x8 : (⟨S12, .f32⟩ : BufTy).Contents (Elt Ideal))
  (x9 : (⟨S12x8, .f32⟩ : BufTy).Contents (Elt Ideal))
  (x10 : (⟨S8, .f32⟩ : BufTy).Contents (Elt Ideal))
  (x11 : (⟨S8x4, .f32⟩ : BufTy).Contents (Elt Ideal))
  (x12 : (⟨S4, .f32⟩ : BufTy).Contents (Elt Ideal))
  (x13 : (⟨S4x4, .f32⟩ : BufTy).Contents (Elt Ideal))
  (x14 : (⟨S4, .f32⟩ : BufTy).Contents (Elt Ideal))
  (x15 : (⟨S4x4, .f32⟩ : BufTy).Contents (Elt Ideal))
  (x16 : (⟨S4, .f32⟩ : BufTy).Contents (Elt Ideal))
  (x17 : (⟨S4x1, .f32⟩ : BufTy).Contents (Elt Ideal))
  (x18 : (⟨S1, .f32⟩ : BufTy).Contents (Elt Ideal))

/-- The left operand of the first contraction at output (n, g), term k, is entry (n, k) of the previous stage. -/
theorem lidx_v25 (n : Fin 1048576) (g : Fin 16) (k : Fin 8) : lidx_main_v25 (ix2 n g) k = ix2 n k :=
  funext fun a => by match a with | ⟨0, _⟩ => rfl | ⟨1, _⟩ => rfl

/-- The right operand of the first contraction at output (n, g), term k, is entry (k, g) of the weights. -/
theorem ridx_v25 (n : Fin 1048576) (g : Fin 16) (k : Fin 8) : ridx_main_v25 (ix2 n g) k = ix2 k g :=
  funext fun a => by match a with | ⟨0, _⟩ => rfl | ⟨1, _⟩ => rfl

/-- The bias of the first layer, repeated over the rows. -/
theorem bias_v27 (n : Fin 1048576) (g : Fin 16) : val_main_v27 (F := Ideal) x4 (ix2 n g) = x4 (ix1 g) := by
  rw [val_main_v27_apply, val_main_v26_apply]
  exact congrArg x4 (funext fun a => by match a with | ⟨0, _⟩ => rfl)

/-- The first layer: entry (n, g) is the hyperbolic tangent of row n of the previous stage against column g, plus the bias. -/
theorem layer_v29 (n : Fin 1048576) (g : Fin 16) :
    val_main_v29 (F := Ideal) x0 x1 x2 x3 x4 (ix2 n g)
      = Ideal.tanh (Cert.Spec.lin (fun f g => x3 (ix2 f g)) (fun g => x4 (ix1 g))
          (fun f => val_main_v24 (F := Ideal) x0 x1 x2 (ix2 n f)) g) := by
  rw [val_main_v29_apply, val_main_v28_apply, val_main_v25_apply, bias_v27]
  simp only [Ideal.hostUnary_tanh_def, Ideal.addf_def, lidx_v25, ridx_v25, Cert.Spec.lin]

/-- The left operand of the second contraction at output (n, g), term k, is entry (n, k) of the previous stage. -/
theorem lidx_v30 (n : Fin 1048576) (g : Fin 16) (k : Fin 16) : lidx_main_v30 (ix2 n g) k = ix2 n k :=
  funext fun a => by match a with | ⟨0, _⟩ => rfl | ⟨1, _⟩ => rfl

/-- The right operand of the second contraction at output (n, g), term k, is entry (k, g) of the weights. -/
theorem ridx_v30 (n : Fin 1048576) (g : Fin 16) (k : Fin 16) : ridx_main_v30 (ix2 n g) k = ix2 k g :=
  funext fun a => by match a with | ⟨0, _⟩ => rfl | ⟨1, _⟩ => rfl

/-- The bias of the second layer, repeated over the rows. -/
theorem bias_v32 (n : Fin 1048576) (g : Fin 16) : val_main_v32 (F := Ideal) x6 (ix2 n g) = x6 (ix1 g) := by
  rw [val_main_v32_apply, val_main_v31_apply]
  exact congrArg x6 (funext fun a => by match a with | ⟨0, _⟩ => rfl)

/-- The second layer: entry (n, g) is the hyperbolic tangent of row n of the previous stage against column g, plus the bias. -/
theorem layer_v34 (n : Fin 1048576) (g : Fin 16) :
    val_main_v34 (F := Ideal) x0 x1 x2 x3 x4 x5 x6 (ix2 n g)
      = Ideal.tanh (Cert.Spec.lin (fun f g => x5 (ix2 f g)) (fun g => x6 (ix1 g))
          (fun f => val_main_v29 (F := Ideal) x0 x1 x2 x3 x4 (ix2 n f)) g) := by
  rw [val_main_v34_apply, val_main_v33_apply, val_main_v30_apply, bias_v32]
  simp only [Ideal.hostUnary_tanh_def, Ideal.addf_def, lidx_v30, ridx_v30, Cert.Spec.lin]

/-- The left operand of the third contraction at output (n, g), term k, is entry (n, k) of the previous stage. -/
theorem lidx_v35 (n : Fin 1048576) (g : Fin 12) (k : Fin 16) : lidx_main_v35 (ix2 n g) k = ix2 n k :=
  funext fun a => by match a with | ⟨0, _⟩ => rfl | ⟨1, _⟩ => rfl

/-- The right operand of the third contraction at output (n, g), term k, is entry (k, g) of the weights. -/
theorem ridx_v35 (n : Fin 1048576) (g : Fin 12) (k : Fin 16) : ridx_main_v35 (ix2 n g) k = ix2 k g :=
  funext fun a => by match a with | ⟨0, _⟩ => rfl | ⟨1, _⟩ => rfl

/-- The bias of the third layer, repeated over the rows. -/
theorem bias_v37 (n : Fin 1048576) (g : Fin 12) : val_main_v37 (F := Ideal) x8 (ix2 n g) = x8 (ix1 g) := by
  rw [val_main_v37_apply, val_main_v36_apply]
  exact congrArg x8 (funext fun a => by match a with | ⟨0, _⟩ => rfl)

/-- The third layer: entry (n, g) is the hyperbolic tangent of row n of the previous stage against column g, plus the bias. -/
theorem layer_v39 (n : Fin 1048576) (g : Fin 12) :
    val_main_v39 (F := Ideal) x0 x1 x2 x3 x4 x5 x6 x7 x8 (ix2 n g)
      = Ideal.tanh (Cert.Spec.lin (fun f g => x7 (ix2 f g)) (fun g => x8 (ix1 g))
          (fun f => val_main_v34 (F := Ideal) x0 x1 x2 x3 x4 x5 x6 (ix2 n f)) g) := by
  rw [val_main_v39_apply, val_main_v38_apply, val_main_v35_apply, bias_v37]
  simp only [Ideal.hostUnary_tanh_def, Ideal.addf_def, lidx_v35, ridx_v35, Cert.Spec.lin]

/-- The left operand of the fourth contraction at output (n, g), term k, is entry (n, k) of the previous stage. -/
theorem lidx_v40 (n : Fin 1048576) (g : Fin 8) (k : Fin 12) : lidx_main_v40 (ix2 n g) k = ix2 n k :=
  funext fun a => by match a with | ⟨0, _⟩ => rfl | ⟨1, _⟩ => rfl

/-- The right operand of the fourth contraction at output (n, g), term k, is entry (k, g) of the weights. -/
theorem ridx_v40 (n : Fin 1048576) (g : Fin 8) (k : Fin 12) : ridx_main_v40 (ix2 n g) k = ix2 k g :=
  funext fun a => by match a with | ⟨0, _⟩ => rfl | ⟨1, _⟩ => rfl

/-- The bias of the fourth layer, repeated over the rows. -/
theorem bias_v42 (n : Fin 1048576) (g : Fin 8) : val_main_v42 (F := Ideal) x10 (ix2 n g) = x10 (ix1 g) := by
  rw [val_main_v42_apply, val_main_v41_apply]
  exact congrArg x10 (funext fun a => by match a with | ⟨0, _⟩ => rfl)

/-- The fourth layer: entry (n, g) is the hyperbolic tangent of row n of the previous stage against column g, plus the bias. -/
theorem layer_v44 (n : Fin 1048576) (g : Fin 8) :
    val_main_v44 (F := Ideal) x0 x1 x2 x3 x4 x5 x6 x7 x8 x9 x10 (ix2 n g)
      = Ideal.tanh (Cert.Spec.lin (fun f g => x9 (ix2 f g)) (fun g => x10 (ix1 g))
          (fun f => val_main_v39 (F := Ideal) x0 x1 x2 x3 x4 x5 x6 x7 x8 (ix2 n f)) g) := by
  rw [val_main_v44_apply, val_main_v43_apply, val_main_v40_apply, bias_v42]
  simp only [Ideal.hostUnary_tanh_def, Ideal.addf_def, lidx_v40, ridx_v40, Cert.Spec.lin]

/-- The left operand of the fifth contraction at output (n, g), term k, is entry (n, k) of the previous stage. -/
theorem lidx_v45 (n : Fin 1048576) (g : Fin 4) (k : Fin 8) : lidx_main_v45 (ix2 n g) k = ix2 n k :=
  funext fun a => by match a with | ⟨0, _⟩ => rfl | ⟨1, _⟩ => rfl

/-- The right operand of the fifth contraction at output (n, g), term k, is entry (k, g) of the weights. -/
theorem ridx_v45 (n : Fin 1048576) (g : Fin 4) (k : Fin 8) : ridx_main_v45 (ix2 n g) k = ix2 k g :=
  funext fun a => by match a with | ⟨0, _⟩ => rfl | ⟨1, _⟩ => rfl

/-- The bias of the fifth layer, repeated over the rows. -/
theorem bias_v47 (n : Fin 1048576) (g : Fin 4) : val_main_v47 (F := Ideal) x12 (ix2 n g) = x12 (ix1 g) := by
  rw [val_main_v47_apply, val_main_v46_apply]
  exact congrArg x12 (funext fun a => by match a with | ⟨0, _⟩ => rfl)

/-- The fifth layer: entry (n, g) is the hyperbolic tangent of row n of the previous stage against column g, plus the bias. -/
theorem layer_v49 (n : Fin 1048576) (g : Fin 4) :
    val_main_v49 (F := Ideal) x0 x1 x2 x3 x4 x5 x6 x7 x8 x9 x10 x11 x12 (ix2 n g)
      = Ideal.tanh (Cert.Spec.lin (fun f g => x11 (ix2 f g)) (fun g => x12 (ix1 g))
          (fun f => val_main_v44 (F := Ideal) x0 x1 x2 x3 x4 x5 x6 x7 x8 x9 x10 (ix2 n f)) g) := by
  rw [val_main_v49_apply, val_main_v48_apply, val_main_v45_apply, bias_v47]
  simp only [Ideal.hostUnary_tanh_def, Ideal.addf_def, lidx_v45, ridx_v45, Cert.Spec.lin]

/-- The left operand of the sixth contraction at output (n, g), term k, is entry (n, k) of the previous stage. -/
theorem lidx_v50 (n : Fin 1048576) (g : Fin 4) (k : Fin 4) : lidx_main_v50 (ix2 n g) k = ix2 n k :=
  funext fun a => by match a with | ⟨0, _⟩ => rfl | ⟨1, _⟩ => rfl

/-- The right operand of the sixth contraction at output (n, g), term k, is entry (k, g) of the weights. -/
theorem ridx_v50 (n : Fin 1048576) (g : Fin 4) (k : Fin 4) : ridx_main_v50 (ix2 n g) k = ix2 k g :=
  funext fun a => by match a with | ⟨0, _⟩ => rfl | ⟨1, _⟩ => rfl

/-- The bias of the sixth layer, repeated over the rows. -/
theorem bias_v52 (n : Fin 1048576) (g : Fin 4) : val_main_v52 (F := Ideal) x14 (ix2 n g) = x14 (ix1 g) := by
  rw [val_main_v52_apply, val_main_v51_apply]
  exact congrArg x14 (funext fun a => by match a with | ⟨0, _⟩ => rfl)

/-- The sixth layer: entry (n, g) is the hyperbolic tangent of row n of the previous stage against column g, plus the bias. -/
theorem layer_v54 (n : Fin 1048576) (g : Fin 4) :
    val_main_v54 (F := Ideal) x0 x1 x2 x3 x4 x5 x6 x7 x8 x9 x10 x11 x12 x13 x14 (ix2 n g)
      = Ideal.tanh (Cert.Spec.lin (fun f g => x13 (ix2 f g)) (fun g => x14 (ix1 g))
          (fun f => val_main_v49 (F := Ideal) x0 x1 x2 x3 x4 x5 x6 x7 x8 x9 x10 x11 x12 (ix2 n f)) g) := by
  rw [val_main_v54_apply, val_main_v53_apply, val_main_v50_apply, bias_v52]
  simp only [Ideal.hostUnary_tanh_def, Ideal.addf_def, lidx_v50, ridx_v50, Cert.Spec.lin]

/-! ## The residual branch and the output layer -/

/-- The left operand of the residual contraction at output (n, g), term k, is entry (n, k) of the sixth layer. -/
theorem lidx_v55 (n : Fin 1048576) (g : Fin 4) (k : Fin 4) : lidx_main_v55 (ix2 n g) k = ix2 n k :=
  funext fun a => by match a with | ⟨0, _⟩ => rfl | ⟨1, _⟩ => rfl

/-- The right operand of the residual contraction at output (n, g), term k, is entry (k, g) of the weights. -/
theorem ridx_v55 (n : Fin 1048576) (g : Fin 4) (k : Fin 4) : ridx_main_v55 (ix2 n g) k = ix2 k g :=
  funext fun a => by match a with | ⟨0, _⟩ => rfl | ⟨1, _⟩ => rfl

/-- The bias of the residual layer, repeated over the rows. -/
theorem bias_v57 (n : Fin 1048576) (g : Fin 4) : val_main_v57 (F := Ideal) x16 (ix2 n g) = x16 (ix1 g) := by
  rw [val_main_v57_apply, val_main_v56_apply]
  exact congrArg x16 (funext fun a => by match a with | ⟨0, _⟩ => rfl)

/-- Stage 60: the sixth layer's entry plus the rectified residual layer's entry. -/
theorem resid_v60 (n : Fin 1048576) (g : Fin 4) :
    val_main_v60 (F := Ideal) x0 x1 x2 x3 x4 x5 x6 x7 x8 x9 x10 x11 x12 x13 x14 x15 x16 (ix2 n g)
      = val_main_v54 (F := Ideal) x0 x1 x2 x3 x4 x5 x6 x7 x8 x9 x10 x11 x12 x13 x14 (ix2 n g)
        + max (Cert.Spec.lin (fun f g => x15 (ix2 f g)) (fun g => x16 (ix1 g))
            (fun f => val_main_v54 (F := Ideal) x0 x1 x2 x3 x4 x5 x6 x7 x8 x9 x10 x11 x12 x13 x14 (ix2 n f)) g) Cert.Spec.zero := by
  rw [val_main_v60_apply, val_main_v59_apply, val_main_v58_apply, val_main_v55_apply, bias_v57,
    val_main_call0_v0_apply, val_main_call0_cst_apply]
  simp only [Ideal.addf_def, Ideal.maximumf_def, Ideal.ofBits_def, lidx_v55, ridx_v55, Cert.Spec.lin, Cert.Spec.zero]

/-- The left operand of the output contraction at output (n, g), term k, is entry (n, k) of the previous stage. -/
theorem lidx_v61 (n : Fin 1048576) (g : Fin 1) (k : Fin 4) : lidx_main_v61 (ix2 n g) k = ix2 n k :=
  funext fun a => by match a with | ⟨0, _⟩ => rfl | ⟨1, _⟩ => rfl

/-- The right operand of the output contraction at output (n, g), term k, is entry (k, g) of the weights. -/
theorem ridx_v61 (n : Fin 1048576) (g : Fin 1) (k : Fin 4) : ridx_main_v61 (ix2 n g) k = ix2 k g :=
  funext fun a => by match a with | ⟨0, _⟩ => rfl | ⟨1, _⟩ => rfl

/-- The bias of the output layer, repeated over the rows; its index set has one element. -/
theorem bias_v63 (n : Fin 1048576) (g : Fin 1) : val_main_v63 (F := Ideal) x18 (ix2 n g) = x18 (ix1 g) := by
  rw [val_main_v63_apply, val_main_v62_apply]
  exact congrArg x18 (funext fun a => by match a with | ⟨0, _⟩ => exact Subsingleton.elim (α := Fin 1) _ _)

/-- The float word 0x3F800000 is the number one. -/
theorem one_word : Ideal.ofBits .f32 0x3F800000#32 = 1 := by
  simp [Ideal.ofBits, Ideal.ieee]
  rw [← EReal.coe_mul, ← EReal.coe_one]
  refine congrArg _ ?_
  norm_num

/-- Stage 70: one over one plus the exponential of the negated output layer, which is the logistic function of it. -/
theorem out_v70 (n : Fin 1048576) (g : Fin 1) :
    val_main_v70 (F := Ideal) x0 x1 x2 x3 x4 x5 x6 x7 x8 x9 x10 x11 x12 x13 x14 x15 x16 x17 x18 (ix2 n g)
      = Ideal.logistic (Cert.Spec.lin (fun f g => x17 (ix2 f g)) (fun g => x18 (ix1 g))
          (fun f => val_main_v60 (F := Ideal) x0 x1 x2 x3 x4 x5 x6 x7 x8 x9 x10 x11 x12 x13 x14 x15 x16 (ix2 n f)) g) := by
  rw [val_main_v70_apply, val_main_v69_apply, val_main_cst_5_apply, val_main_v68_apply, val_main_v67_apply,
    val_main_cst_4_apply, val_main_v66_apply, val_main_v65_apply, val_main_v64_apply, val_main_v61_apply, bias_v63]
  simp only [Ideal.hostDivf_def, Ideal.addf_def, Ideal.hostUnary_exp_def, Ideal.hostNegf_def, Ideal.negf_def,
    Ideal.ofBits_def, one_word, lidx_v61, ridx_v61, Cert.Spec.lin, Ideal.logistic]

end

/-! ## The result -/

/-- The weights read off the argument arrays. -/
def weightsOf (x3 : (⟨S8x16, .f32⟩ : BufTy).Contents (Elt Ideal))
    (x4 : (⟨S16, .f32⟩ : BufTy).Contents (Elt Ideal))
    (x5 : (⟨S16x16, .f32⟩ : BufTy).Contents (Elt Ideal))
    (x6 : (⟨S16, .f32⟩ : BufTy).Contents (Elt Ideal))
    (x7 : (⟨S16x12, .f32⟩ : BufTy).Contents (Elt Ideal))
    (x8 : (⟨S12, .f32⟩ : BufTy).Contents (Elt Ideal))
    (x9 : (⟨S12x8, .f32⟩ : BufTy).Contents (Elt Ideal))
    (x10 : (⟨S8, .f32⟩ : BufTy).Contents (Elt Ideal))
    (x11 : (⟨S8x4, .f32⟩ : BufTy).Contents (Elt Ideal))
    (x12 : (⟨S4, .f32⟩ : BufTy).Contents (Elt Ideal))
    (x13 : (⟨S4x4, .f32⟩ : BufTy).Contents (Elt Ideal))
    (x14 : (⟨S4, .f32⟩ : BufTy).Contents (Elt Ideal))
    (x15 : (⟨S4x4, .f32⟩ : BufTy).Contents (Elt Ideal))
    (x16 : (⟨S4, .f32⟩ : BufTy).Contents (Elt Ideal))
    (x17 : (⟨S4x1, .f32⟩ : BufTy).Contents (Elt Ideal))
    (x18 : (⟨S1, .f32⟩ : BufTy).Contents (Elt Ideal)) : Cert.Spec.Weights :=
  { Wfm := fun f g => x3 (ix2 f g), bfm := fun g => x4 (ix1 g)
    Wc1 := fun f g => x5 (ix2 f g), bc1 := fun g => x6 (ix1 g)
    Wp1 := fun f g => x7 (ix2 f g), bp1 := fun g => x8 (ix1 g)
    Wc2 := fun f g => x9 (ix2 f g), bc2 := fun g => x10 (ix1 g)
    Wp2 := fun f g => x11 (ix2 f g), bp2 := fun g => x12 (ix1 g)
    Wc3 := fun f g => x13 (ix2 f g), bc3 := fun g => x14 (ix1 g)
    Wr := fun f g => x15 (ix2 f g), br := fun g => x16 (ix1 g)
    Wh := fun f g => x17 (ix2 f g), bh := fun g => x18 (ix1 g) }

/-- The reference program's result at row n is the specification's result for row n:
    normalisation with the batch statistics, then the chain of layers. -/
theorem ref_eq_spec (x0 : (⟨S1048576x8, .f32⟩ : BufTy).Contents (Elt Ideal))
    (x1 : (⟨S8, .f32⟩ : BufTy).Contents (Elt Ideal))
    (x2 : (⟨S8, .f32⟩ : BufTy).Contents (Elt Ideal))
    (x3 : (⟨S8x16, .f32⟩ : BufTy).Contents (Elt Ideal))
    (x4 : (⟨S16, .f32⟩ : BufTy).Contents (Elt Ideal))
    (x5 : (⟨S16x16, .f32⟩ : BufTy).Contents (Elt Ideal))
    (x6 : (⟨S16, .f32⟩ : BufTy).Contents (Elt Ideal))
    (x7 : (⟨S16x12, .f32⟩ : BufTy).Contents (Elt Ideal))
    (x8 : (⟨S12, .f32⟩ : BufTy).Contents (Elt Ideal))
    (x9 : (⟨S12x8, .f32⟩ : BufTy).Contents (Elt Ideal))
    (x10 : (⟨S8, .f32⟩ : BufTy).Contents (Elt Ideal))
    (x11 : (⟨S8x4, .f32⟩ : BufTy).Contents (Elt Ideal))
    (x12 : (⟨S4, .f32⟩ : BufTy).Contents (Elt Ideal))
    (x13 : (⟨S4x4, .f32⟩ : BufTy).Contents (Elt Ideal))
    (x14 : (⟨S4, .f32⟩ : BufTy).Contents (Elt Ideal))
    (x15 : (⟨S4x4, .f32⟩ : BufTy).Contents (Elt Ideal))
    (x16 : (⟨S4, .f32⟩ : BufTy).Contents (Elt Ideal))
    (x17 : (⟨S4x1, .f32⟩ : BufTy).Contents (Elt Ideal))
    (x18 : (⟨S1, .f32⟩ : BufTy).Contents (Elt Ideal))
    (n : Fin 1048576) :
    Cert.ReferenceIdeal.Read.val_main_v70 (F := Ideal) x0 x1 x2 x3 x4 x5 x6 x7 x8 x9 x10 x11 x12 x13 x14 x15 x16 x17 x18 (ix2 n (0 : Fin 1))
      = Cert.Spec.out (weightsOf x3 x4 x5 x6 x7 x8 x9 x10 x11 x12 x13 x14 x15 x16 x17 x18)
          (fun f => x1 (ix1 f)) (fun f => x2 (ix1 f)) (fun n f => x0 (ix2 n f)) n := by
  rw [out_v70]
  simp only [resid_v60, layer_v54, layer_v49, layer_v44, layer_v39, layer_v34, layer_v29, norm_at]
  rfl

end Cert.ReferenceIdeal.RefValue

end
-- ==== Proof.FinitePre.lean ====
/-
  From the precondition to real entries.

  The precondition is a conjunction of nineteen statements, one per argument array, each saying that every entry a of
  the array satisfies |a| < +∞. It is spelled as a chain of eighteen bitwise "and"s, nested to the left, of nineteen
  reductions by "and" of the entrywise comparisons, and it is assumed to be the one-bit word 1.

  A bitwise "and" of two one-bit words is 1 only if both are, so the leftmost factor of the chain, the reduction that
  belongs to the first array, is 1; a reduction by "and" over all entries that comes out 1 met a 1 at every entry; and
  |a| = max a (−a) < +∞ in the extended reals says that a is neither +∞ nor −∞.
-/
import proofs.«112536_j65481071403406_2_alg».proof.Defs
import Idealize.ShloMosaic.Lib.ReduceAll
import Idealize.ShloMosaic.Lib.ValueIdx
import Idealize.ShloMosaic.PureOps.Ideal.Laws

noncomputable section

namespace Cert.FinitePre

open Idealize.ShloMosaic Idealize.SL.Sem Cert.Pre_finite_inputs

/-- The scalar shape has exactly one index. -/
instance : Subsingleton S_.Idx := ⟨fun a b => funext fun d => d.elim0⟩

/-- If the entrywise "and" of two one-bit arrays is 1 at an index, the left array is 1 there. -/
theorem andi_left {s : Shape} (x y : IVec s 1) (i : s.Idx) (h : andi x y i = 1#1) : x i = 1#1 :=
  (IntOp.andi_eq_one.1 h).1

/-- An extended real whose absolute value max a (−a) compares below the word of +∞ is neither +∞ nor −∞. -/
theorem finite_of_abs_lt_inf (a : Ideal .f32)
    (h : FloatOps.cmpf .olt (FloatOps.hostAbsf a) (FloatOps.ofBits (F := Ideal) .f32 0x7F800000#32) = 1#1) :
    (a : EReal) ≠ ⊤ ∧ (a : EReal) ≠ ⊥ := by
  have htop : Ideal.ofBits .f32 0x7F800000#32 = ⊤ := by simp [Ideal.ofBits, Ideal.ieee]
  change Ideal.cmp .olt (max (a : EReal) (-(a : EReal))) (Ideal.ofBits .f32 0x7F800000#32) = 1#1 at h
  rw [htop] at h
  unfold Ideal.cmp at h
  have hlt : max (a : EReal) (-(a : EReal)) < ⊤ := by
    by_contra hn
    simp [hn] at h
  rw [max_lt_iff] at hlt
  refine ⟨fun e => ?_, fun e => ?_⟩
  · rw [e] at hlt; exact lt_irrefl _ hlt.1
  · rw [e] at hlt; simp at hlt

variable [Facts]

/-- The last part of the chain is 1 only if the conjunction it was handed is. -/
theorem part5_left (a18 : FVec Ideal S1 .f32) (v83 : IVec S_ 1) (v84 : FVec Ideal S4x1 .f32) (c32 : FVec Ideal S_ .f32)
    (i : S_.Idx) (h : fn_part5 (F := Ideal) a18 v83 v84 c32 i = 1#1) : v83 i = 1#1 := by
  unfold fn_part5 at h
  exact andi_left _ _ i (andi_left _ _ i h)

/-- The fourth part of the chain is 1 only if the conjunction it was handed is. -/
theorem part4_left (a14 : FVec Ideal S4 .f32) (a15 : FVec Ideal S4x4 .f32) (a16 : FVec Ideal S4 .f32)
    (a17 : FVec Ideal S4x1 .f32) (a18 : FVec Ideal S1 .f32) (v63 v67 : IVec S_ 1)
    (i : S_.Idx) (h : fn_part4 (F := Ideal) a14 a15 a16 a17 a18 v63 v67 i = 1#1) : v63 i = 1#1 := by
  unfold fn_part4 at h
  have h5 := part5_left _ _ _ _ i h
  exact andi_left _ _ i (andi_left _ _ i (andi_left _ _ i (andi_left _ _ i h5)))

/-- The third part of the chain is 1 only if the conjunction it was handed is. -/
theorem part3_left (a11 : FVec Ideal S8x4 .f32) (a12 : FVec Ideal S4 .f32) (a13 : FVec Ideal S4x4 .f32)
    (a14 : FVec Ideal S4 .f32) (a15 : FVec Ideal S4x4 .f32) (a16 : FVec Ideal S4 .f32)
    (a17 : FVec Ideal S4x1 .f32) (a18 : FVec Ideal S1 .f32) (v48 : IVec S_ 1) (v49 v50 : FVec Ideal S8 .f32)
    (i : S_.Idx) (h : fn_part3 (F := Ideal) a11 a12 a13 a14 a15 a16 a17 a18 v48 v49 v50 i = 1#1) : v48 i = 1#1 := by
  unfold fn_part3 at h
  have h4 := part4_left _ _ _ _ _ _ _ i h
  exact andi_left _ _ i (andi_left _ _ i (andi_left _ _ i h4))

/-- The second part of the chain is 1 only if the conjunction it was handed is. -/
theorem part2_left (a7 : FVec Ideal S16x12 .f32) (a8 : FVec Ideal S12 .f32) (a9 : FVec Ideal S12x8 .f32)
    (a10 : FVec Ideal S8 .f32) (a11 : FVec Ideal S8x4 .f32) (a12 : FVec Ideal S4 .f32) (a13 : FVec Ideal S4x4 .f32)
    (a14 : FVec Ideal S4 .f32) (a15 : FVec Ideal S4x4 .f32) (a16 : FVec Ideal S4 .f32)
    (a17 : FVec Ideal S4x1 .f32) (a18 : FVec Ideal S1 .f32) (v33 : IVec S_ 1)
    (i : S_.Idx) (h : fn_part2 (F := Ideal) a7 a8 a9 a10 a11 a12 a13 a14 a15 a16 a17 a18 v33 i = 1#1) :
    v33 i = 1#1 := by
  unfold fn_part2 at h
  have h3 := part3_left _ _ _ _ _ _ _ _ _ _ _ i h
  exact andi_left _ _ i (andi_left _ _ i (andi_left _ _ i h3))

/-- The first part of the chain is 1 only if the conjunction it was handed is. -/
theorem part1_left (a4 : FVec Ideal S16 .f32) (a5 : FVec Ideal S16x16 .f32) (a6 : FVec Ideal S16 .f32)
    (a7 : FVec Ideal S16x12 .f32) (a8 : FVec Ideal S12 .f32) (a9 : FVec Ideal S12x8 .f32)
    (a10 : FVec Ideal S8 .f32) (a11 : FVec Ideal S8x4 .f32) (a12 : FVec Ideal S4 .f32) (a13 : FVec Ideal S4x4 .f32)
    (a14 : FVec Ideal S4 .f32) (a15 : FVec Ideal S4x4 .f32) (a16 : FVec Ideal S4 .f32)
    (a17 : FVec Ideal S4x1 .f32) (a18 : FVec Ideal S1 .f32) (v13 : IVec S_ 1) (v16 : IVec S8x16 1)
    (i : S_.Idx)
    (h : fn_part1 (F := Ideal) a4 a5 a6 a7 a8 a9 a10 a11 a12 a13 a14 a15 a16 a17 a18 v13 v16 i = 1#1) :
    v13 i = 1#1 := by
  unfold fn_part1 at h
  have h2 := part2_left _ _ _ _ _ _ _ _ _ _ _ _ _ i h
  exact andi_left _ _ i (andi_left _ _ i (andi_left _ _ i (andi_left _ _ i h2)))

/-- Under the precondition every entry of the first argument array is a real number. -/
theorem x_finite (a0 : FVec Ideal S1048576x8 .f32) (a1 a2 : FVec Ideal S8 .f32) (a3 : FVec Ideal S8x16 .f32)
    (a4 : FVec Ideal S16 .f32) (a5 : FVec Ideal S16x16 .f32) (a6 : FVec Ideal S16 .f32)
    (a7 : FVec Ideal S16x12 .f32) (a8 : FVec Ideal S12 .f32) (a9 : FVec Ideal S12x8 .f32)
    (a10 : FVec Ideal S8 .f32) (a11 : FVec Ideal S8x4 .f32) (a12 : FVec Ideal S4 .f32) (a13 : FVec Ideal S4x4 .f32)
    (a14 : FVec Ideal S4 .f32) (a15 : FVec Ideal S4x4 .f32) (a16 : FVec Ideal S4 .f32)
    (a17 : FVec Ideal S4x1 .f32) (a18 : FVec Ideal S1 .f32)
    (h : fn (F := Ideal) a0 a1 a2 a3 a4 a5 a6 a7 a8 a9 a10 a11 a12 a13 a14 a15 a16 a17 a18 = fun _ => 1#1) :
    ∀ i : S1048576x8.Idx, (a0 i : EReal) ≠ ⊤ ∧ (a0 i : EReal) ≠ ⊥ := by
  intro j
  have h0 := congrFun h ValueIdx.ix0
  unfold fn at h0
  have h1 := part1_left _ _ _ _ _ _ _ _ _ _ _ _ _ _ _ _ _ ValueIdx.ix0 h0
  have h3 := andi_left _ _ ValueIdx.ix0 (andi_left _ _ ValueIdx.ix0 h1)
  have hj := Host.reduce_andi_all _ _ _ _ ValueIdx.ix0 h3 j
  exact finite_of_abs_lt_inf (a0 j) hj

/-- The same for a memory of which the kernel's precondition holds: on every device, every entry of its first
    argument array is a real number. -/
theorem x_finite_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) (i : S1048576x8.Idx) :
    @Ne EReal (m ((c.tc : Thread Cert.KernelIdeal.nD Cert.KernelIdeal.τ).loc Cert.KernelIdeal.main_arg0) i) ⊤
      ∧ @Ne EReal (m ((c.tc : Thread Cert.KernelIdeal.nD Cert.KernelIdeal.τ).loc Cert.KernelIdeal.main_arg0) i) ⊥ :=
  x_finite _ _ _ _ _ _ _ _ _ _ _ _ _ _ _ _ _ _ _ (hpre c) i

end Cert.FinitePre

end
-- ==== Proof.lean ====
/-
  Both programs, run from memories that agree on the nineteen arguments, end with the same result array.

  The kernel program normalises the batch with statistics it accumulates in a first pass over a folded view of the
  input (sixteen batch rows side by side in a row of 128), computing the variance as the mean of the squares minus
  the square of the mean; the reference takes the mean of the squared deviations. For finite inputs — which the
  precondition gives — these agree. The kernel then runs the eight layers on the folded rows against block-diagonal
  weights, which is the plain chain on each of the sixteen rows; the reference runs the plain chain. The logistic
  function of the kernel is the reference's 1 / (1 + exp (−z)) by definition. So both results are, at batch row n,
  the chain applied to row n normalised with the batch mean and variance.

  The three programs' runs: the word-level kernel and its idealization terminate with their arguments unchanged
  (their segments' chains), the reference by its straight-line run; no rewrite separates the kernel from its
  idealization.
-/
import proofs.«112536_j65481071403406_2_alg».proof.Defs
import proofs.«112536_j65481071403406_2_alg».proof.Proof.Gen.Kernel
import proofs.«112536_j65481071403406_2_alg».proof.Proof.Gen.Kernel.Skeleton
import proofs.«112536_j65481071403406_2_alg».proof.Proof.Gen.Kernel.Launch
import proofs.«112536_j65481071403406_2_alg».proof.Proof.Gen.Kernel.Points
import proofs.«112536_j65481071403406_2_alg».proof.Proof.Gen.Kernel.Frame
import proofs.«112536_j65481071403406_2_alg».proof.Proof.Gen.KernelIdeal
import proofs.«112536_j65481071403406_2_alg».proof.Proof.Gen.KernelIdeal.Skeleton
import proofs.«112536_j65481071403406_2_alg».proof.Proof.Gen.KernelIdeal.Launch
import proofs.«112536_j65481071403406_2_alg».proof.Proof.Gen.KernelIdeal.Points
import proofs.«112536_j65481071403406_2_alg».proof.Proof.Gen.KernelIdeal.Frame
import proofs.«112536_j65481071403406_2_alg».proof.Proof.Gen.ReferenceIdeal
import proofs.«112536_j65481071403406_2_alg».proof.Proof.Gen.Pre_finite_inputs
import proofs.«112536_j65481071403406_2_alg».proof.Proof.Gen.ReferenceIdeal.Run
import proofs.«112536_j65481071403406_2_alg».proof.Proof.Gen.ReferenceIdeal.Read
import proofs.«112536_j65481071403406_2_alg».proof.Proof.KRun
import proofs.«112536_j65481071403406_2_alg».proof.Proof.KCompose
import proofs.«112536_j65481071403406_2_alg».proof.Proof.RefRows
import proofs.«112536_j65481071403406_2_alg».proof.Proof.FinitePre
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result array, as a function of its argument arrays, is the specification at every batch row. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v70 m' c
      = fun i => Cert.Spec.out
          (Cert.ReferenceIdeal.RefValue.weightsOf (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))
          (fun f => (m' ((c.tc : Thread Cert.ReferenceIdeal.nD Cert.ReferenceIdeal.τ).loc Cert.ReferenceIdeal.main_arg1)) (ix1 f)) (fun f => (m' ((c.tc : Thread Cert.ReferenceIdeal.nD Cert.ReferenceIdeal.τ).loc Cert.ReferenceIdeal.main_arg2)) (ix1 f))
          (fun n f => (m' ((c.tc : Thread Cert.ReferenceIdeal.nD Cert.ReferenceIdeal.τ).loc Cert.ReferenceIdeal.main_arg0)) (ix2 n f)) (i 0) := by
  rw [Cert.ReferenceIdeal.Read.val_main_v70_eq]
  funext i
  obtain ⟨n, z, rfl⟩ : ∃ (n : Fin 1048576) (z : Fin 1), i = ix2 n z := ⟨i 0, i 1, eq_ix2 i⟩
  obtain rfl : z = 0 := Subsingleton.elim (α := Fin 1) _ _
  exact Cert.ReferenceIdeal.RefValue.ref_eq_spec _ _ _ _ _ _ _ _ _ _ _ _ _ _ _ _ _ _ _ n

theorem algebraic : Cert.algebraic_KernelIdeal_ReferenceIdeal := by
  intro m ρ m' ρ' hpre hagree
  refine ⟨fun c => fun i => Cert.Spec.out (Cert.KernelIdeal.Compose.weightsK m c) (Cert.KernelIdeal.Compose.gamK m c)
      (Cert.KernelIdeal.Compose.betK m c) (Cert.KernelIdeal.Compose.XK m c) (i 0), ?_, ?_⟩
  · refine (θ_run Cert.KernelIdeal.defs _ _).mono (fun _ h c => ⟨(h c).1.trans ?_, (h c).2⟩)
      (Cert.KernelIdeal.Named.run (F := Ideal) m ρ)
    exact Cert.KernelIdeal.Compose.result_eq m ρ c (fun i => Cert.FinitePre.x_finite_of_pre m hpre c i)
  · refine (θ_run Cert.ReferenceIdeal.defs _ _).mono (fun _ h c => ⟨(h c).1.trans ?_, (h c).2⟩)
      (Cert.ReferenceIdeal.Value.run (F := Ideal) m' ρ')
    rw [reference_result m' c]
    obtain ⟨a0, a1, a2, a3, a4, a5, a6, a7, a8, a9, a10, a11, a12, a13, a14, a15, a16, a17, a18⟩ := hagree c
    rw [a0, a1, a2, a3, a4, a5, a6, a7, a8, a9, a10, a11, a12, a13, a14, a15, a16, a17, a18]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
